-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024 .f32) (main_arg8 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S256x3072 : Shape := ⟨2, ![256, 3072]⟩
abbrev S1x3072 : Shape := ⟨2, ![1, 3072]⟩
abbrev S8x2048x2048 : Shape := ⟨3, ![8, 2048, 2048]⟩
abbrev S1x2048x1024 : Shape := ⟨3, ![1, 2048, 1024]⟩
abbrev S1x256x2048 : Shape := ⟨3, ![1, 256, 2048]⟩
abbrev S2048x1024 : Shape := ⟨2, ![2048, 1024]⟩
abbrev S256x2048 : Shape := ⟨2, ![256, 2048]⟩

abbrev nBuf : Space → Nat
  | .hbm => 20
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x3072, .f32⟩
  | .hbm, ⟨13, _⟩ => ⟨S1024x3072, .bf16⟩
  | .hbm, ⟨14, _⟩ => ⟨S3072, .f32⟩
  | .hbm, ⟨15, _⟩ => ⟨S8x2048x1024, .bf16⟩
  | .hbm, ⟨16, _⟩ => ⟨S8x2048x1024, .bf16⟩
  | .hbm, ⟨17, _⟩ => ⟨S8x2048x1024, .bf16⟩
  | .hbm, ⟨18, _⟩ => ⟨S8x2048x1024, .f32⟩
  | .hbm, ⟨19, _⟩ => ⟨S8x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1024, .f32⟩
  | .local _ .vmem, ⟨3, _⟩ => ⟨S1024, .f32⟩
  | .local _ .vmem, ⟨4, _⟩ => ⟨S1024x3072, .bf16⟩
  | .local _ .vmem, ⟨5, _⟩ => ⟨S3072, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x2048, .f32⟩
  | .local _ .vmem, ⟨23, _⟩ => ⟨S1x256x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S256x3072 : S1x3072.Broadcasts S256x3072
  slices_S256x3072_o0_0_S256x1024 : S256x3072.Slices ![0, 0] S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  slices_S256x3072_o0_1024_S256x1024 : S256x3072.Slices ![0, 1024] S256x1024
  slices_S256x3072_o0_2048_S256x1024 : S256x3072.Slices ![0, 2048] S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S256x1024_S1024x3072_S256x3072_1_0_0_1_n_n_wf : DotDims.WF S256x1024 S1024x3072 S256x3072 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072.size a ≤ S3072.size a
  hwx0_4 : ∀ i : grid0.Coords, EltTy.bits .f32 = 32 ∨ (Rect.block (s := S3072) S3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S8x2048x1024.size a
  hwx0_5 : ∀ i : grid0.Coords, EltTy.bits .bf16 = 32 ∨ (Rect.block (s := S8x2048x1024) S1x256x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S8x2048x1024.size a
  hwx0_6 : ∀ i : grid0.Coords, EltTy.bits .bf16 = 32 ∨ (Rect.block (s := S8x2048x1024) S1x256x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S8x2048x1024.size a
  hwx0_7 : ∀ i : grid0.Coords, EltTy.bits .bf16 = 32 ∨ (Rect.block (s := S8x2048x1024) S1x256x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x2048x1024.size a
  hwx1_0 : ∀ i : grid1.Coords, EltTy.bits .bf16 = 32 ∨ (Rect.block (s := S8x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x1024.size a
  hwx1_1 : ∀ i : grid1.Coords, EltTy.bits .bf16 = 32 ∨ (Rect.block (s := S8x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x1024.size a
  hwx1_2 : ∀ i : grid1.Coords, EltTy.bits .bf16 = 32 ∨ (Rect.block (s := S8x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S8x2048x1024.size a
  hwx1_3 : ∀ i : grid1.Coords, EltTy.bits .f32 = 32 ∨ (Rect.block (s := S8x2048x1024) S1x256x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1024.size a ≤ S8x2048x1024.size a
  hwx1_4 : ∀ i : grid1.Coords, EltTy.bits .f32 = 32 ∨ (Rect.block (s := S8x2048x1024) S1x256x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x2048.size a ≤ S8x2048x2048.size a
  hwx1_5 : ∀ i : grid1.Coords, EltTy.bits .f32 = 32 ∨ (Rect.block (s := S8x2048x2048) S1x256x2048.size (cc1_transform_5 i) (hinb1_5 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1x256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_2) S1x256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v6_0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7_0) S1x256x1024.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7_1) S1x256x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩

abbrev nBuf : Space → Nat
  | .hbm => 71
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S1x1x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S1x1x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S1x1x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S1x1x1024, .f32⟩
  | .hbm, ⟨48, _⟩ => ⟨S8x2048x1024, .f32⟩
  | .hbm, ⟨49, _⟩ => ⟨S8x2048x1024, .f32⟩
  | .hbm, ⟨50, _⟩ => ⟨S_, .f32⟩
  | .hbm, ⟨51, _⟩ => ⟨S_, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S_, .f32⟩
  | .hbm, ⟨56, _⟩ => ⟨S8x2048, .f32⟩
  | .hbm, ⟨57, _⟩ => ⟨S_, .f32⟩
  | .hbm, ⟨58, _⟩ => ⟨S8x2048, .f32⟩
  | .hbm, ⟨59, _⟩ => ⟨S8x2048, .f32⟩
  | .hbm, ⟨60, _⟩ => ⟨S8x2048x1, .f32⟩
  | .hbm, ⟨61, _⟩ => ⟨S8x2048x2048, .f32⟩
  | .hbm, ⟨62, _⟩ => ⟨S8x2048x2048, .f32⟩
  | .hbm, ⟨63, _⟩ => ⟨S8x2048x2048, .f32⟩
  | .hbm, ⟨64, _⟩ => ⟨S_, .f32⟩
  | .hbm, ⟨65, _⟩ => ⟨S8x2048, .f32⟩
  | .hbm, ⟨66, _⟩ => ⟨S8x2048x1, .f32⟩
  | .hbm, ⟨67, _⟩ => ⟨S8x2048x2048, .f32⟩
  | .hbm, ⟨68, _⟩ => ⟨S8x2048x2048, .f32⟩
  | .hbm, ⟨69, _⟩ => ⟨S8x2048x1024, .f32⟩
  | .hbm, ⟨70, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]

class Facts₀ : Prop where
  reducesTo_S8x2048x1024_S8x2048_d2 : S8x2048x1024.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  bcast_S_S8x2048 : S_.BroadcastsInDim S8x2048 (![] : Fin 0 → Fin S8x2048.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.K.Region0.lean ====
/- Region 0 of @main — the fused layer-norm and q/k/v projection on an 8 × 8 grid — for any float
   instance, at a parameter `V`: the contents of the TensorCore's buffers when the region is entered.

   The body reads five blocks (a 1×256×1024 slab of activations, the two 1024-vectors of the
   normalisation, the 1024×3072 projection matrix and its 3072-vector of biases) and writes three
   1×256×1024 blocks, each by ONE store that covers the whole block. So what a grid point leaves in
   an output's buffer is a function of the five input blocks alone: the store's payload. This module
   names those three functions, proves that the body run on whole buffers leaves exactly them (and
   the inputs untouched), and packages that as the pipeline's proof data and body obligation. -/
import proofs.«143292_j35038343201280_2_alg».proof.Proof.Gen.Kernel.Launch
import proofs.«143292_j35038343201280_2_alg».proof.Proof.Gen.Kernel.Skeleton
import proofs.«143292_j35038343201280_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership of an index in a rectangle whose long axes have thousands of coordinates
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the part of its array, as the region finds it, that the
    window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds the window's block at EVERY point, whether the block was copied in
    at that point or not: where no copy is made the block index has not moved since the last copy, and
    the body leaves an input's buffer as it found it. One statement per input window, for any proof
    data whose array is `V`'s and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through

Every load and every store of the body goes through the rectangle of ALL of its buffer: offsets zero,
extents the buffer's own. There are four buffer shapes, hence four rectangles. -/

/-- All of a 1 × 256 × 1024 buffer (the activations' slab; each of the three outputs). -/
abbrev rSlab : Rect S1x256x1024 := Rect.unit (s := S1x256x1024) ![0, 0, 0] S1x256x1024.size inb_S1x256x1024_S1x256x1024_0_0_0
/-- All of a 1024-vector (the normalisation's scale, and its shift). -/
abbrev rVec : Rect S1024 := Rect.unit (s := S1024) ![0] S1024.size inb_S1024_S1024_0
/-- All of the 1024 × 3072 projection matrix. -/
abbrev rMat : Rect S1024x3072 := Rect.unit (s := S1024x3072) ![0, 0] S1024x3072.size inb_S1024x3072_S1024x3072_0_0
/-- All of the 3072-vector of biases. -/
abbrev rBias : Rect S3072 := Rect.unit (s := S3072) ![0] S3072.size inb_S3072_S3072_0

/-- The offsets of those rectangles are zero on every axis, however many axes. -/
theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-! ## What the body leaves in each output's buffer

The projection `k0_pay3` of the normalised slab is computed once; its three column thirds, rounded
to bf16, are the three stores' payloads (`k0_pay4` is the first third of `k0_pay3`, `k0_pay1` and
`k0_pay2` cut the second and third out of it). Each output's buffer ends as the overlay of its one
store on whatever was there, which — the store covering everything — is the payload. -/

/-- Window 5 (the queries) after the body, from the five input blocks. -/
def out0_5 (x0 : Vec F S1x256x1024 .f32) (x1 x2 : Vec F S1024 .f32) (x3 : Vec F S1024x3072 .bf16) (x4 : Vec F S3072 .f32) : Vec F S1x256x1024 .bf16 :=
  View.canon [⟨rSlab, k0_pay4 (View.ld x0 rSlab) (View.ld x1 rVec) (View.ld x2 rVec) (View.ld x3 rMat) (View.ld x4 rBias)⟩]

/-- Window 6 (the keys) after the body. -/
def out0_6 (x0 : Vec F S1x256x1024 .f32) (x1 x2 : Vec F S1024 .f32) (x3 : Vec F S1024x3072 .bf16) (x4 : Vec F S3072 .f32) : Vec F S1x256x1024 .bf16 :=
  View.canon [⟨rSlab, k0_pay1 (k0_pay3 (View.ld x0 rSlab) (View.ld x1 rVec) (View.ld x2 rVec) (View.ld x3 rMat) (View.ld x4 rBias))⟩]

/-- Window 7 (the values) after the body. -/
def out0_7 (x0 : Vec F S1x256x1024 .f32) (x1 x2 : Vec F S1024 .f32) (x3 : Vec F S1024x3072 .bf16) (x4 : Vec F S3072 .f32) : Vec F S1x256x1024 .bf16 :=
  View.canon [⟨rSlab, k0_pay2 (k0_pay3 (View.ld x0 rSlab) (View.ld x1 rVec) (View.ld x2 rVec) (View.ld x3 rMat) (View.ld x4 rBias))⟩]

/-- A whole-buffer load reads the contents and one whole-buffer store leaves its payload: the three
    outputs in closed form. -/
theorem out0_5_eq (x0 : Vec F S1x256x1024 .f32) (x1 x2 : Vec F S1024 .f32) (x3 : Vec F S1024x3072 .bf16) (x4 : Vec F S3072 .f32) :
    out0_5 x0 x1 x2 x3 x4 = k0_pay4 x0 x1 x2 x3 x4 := by
  unfold out0_5
  rw [View.canon_unit_zero zero3]
  simp only [View.ld_unit_zero (S := S1x256x1024) zero3, View.ld_unit_zero (S := S1024) zero1,
    View.ld_unit_zero (S := S1024x3072) zero2, View.ld_unit_zero (S := S3072) zero1]

theorem out0_6_eq (x0 : Vec F S1x256x1024 .f32) (x1 x2 : Vec F S1024 .f32) (x3 : Vec F S1024x3072 .bf16) (x4 : Vec F S3072 .f32) :
    out0_6 x0 x1 x2 x3 x4 = k0_pay1 (k0_pay3 x0 x1 x2 x3 x4) := by
  unfold out0_6
  rw [View.canon_unit_zero zero3]
  simp only [View.ld_unit_zero (S := S1x256x1024) zero3, View.ld_unit_zero (S := S1024) zero1,
    View.ld_unit_zero (S := S1024x3072) zero2, View.ld_unit_zero (S := S3072) zero1]

theorem out0_7_eq (x0 : Vec F S1x256x1024 .f32) (x1 x2 : Vec F S1024 .f32) (x3 : Vec F S1024x3072 .bf16) (x4 : Vec F S3072 .f32) :
    out0_7 x0 x1 x2 x3 x4 = k0_pay2 (k0_pay3 x0 x1 x2 x3 x4) := by
  unfold out0_7
  rw [View.canon_unit_zero zero3]
  simp only [View.ld_unit_zero (S := S1x256x1024) zero3, View.ld_unit_zero (S := S1024) zero1,
    View.ld_unit_zero (S := S1024x3072) zero2, View.ld_unit_zero (S := S3072) zero1]

/-- The one store of an output covers its buffer: every index lies in the whole-buffer rectangle. -/
theorem cover0 (p : Vec F S1x256x1024 .bf16) (y : S1x256x1024.Idx) :
    ∃ pc ∈ ([⟨rSlab, p⟩] : List (View.Piece (Elt F) S1x256x1024 .bf16)), y ∈ pc.1.set :=
  ⟨_, List.mem_singleton_self _, View.mem_set_unit_zero zero3 inb_S1x256x1024_S1x256x1024_0_0_0 y⟩

/-! ## The body's triple -/

set_option maxHeartbeats 1000000 in
/-- The body on whole buffers: given the five inputs' buffers at contents `x0 … x4` and the three
    outputs' buffers at anything, it runs without fault to a state with the inputs' buffers unchanged
    and each output's at `out0_w x0 … x4`. The body first runs its part (the five loads, the first
    output's load and store, returning the projection), then loads and stores the other two outputs;
    the outputs' loads read values nothing uses. -/
theorem sound_kernel0 (c : Dev nD) (E : Set ℕ) (i : grid0.Coords)
    (arg2 : Memref sig .tc .vmem S1x256x1024 .f32) (harg2 : arg2.IsWhole) (arg3 : Memref sig .tc .vmem S1024 .f32) (harg3 : arg3.IsWhole)
    (arg4 : Memref sig .tc .vmem S1024 .f32) (harg4 : arg4.IsWhole) (arg5 : Memref sig .tc .vmem S1024x3072 .bf16) (harg5 : arg5.IsWhole)
    (arg6 : Memref sig .tc .vmem S3072 .f32) (harg6 : arg6.IsWhole) (arg7 : Memref sig .tc .vmem S1x256x1024 .bf16) (harg7 : arg7.IsWhole)
    (arg8 : Memref sig .tc .vmem S1x256x1024 .bf16) (harg8 : arg8.IsWhole) (arg9 : Memref sig .tc .vmem S1x256x1024 .bf16) (harg9 : arg9.IsWhole)
    (x0 : Vec F S1x256x1024 .f32) (x1 x2 : Vec F S1024 .f32) (x3 : Vec F S1024x3072 .bf16) (x4 : Vec F S3072 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4) ∗ owns (c : Thread nD τ) arg8 fullShare (out0_6 x0 x1 x2 x3 x4)
            ∗ owns (c : Thread nD τ) arg9 fullShare (out0_7 x0 x1 x2 x3 x4)) -∗ K ⟨⟩))
      ⊢ wp frame (wpE (defs₀ (F := F)) Variants.none c none) E
          (cc0__qkv_kernel i arg2 harg2 arg3 harg3 arg4 harg4 arg5 harg5 arg6 harg6 arg7 harg7 arg8 harg8 arg9 harg9) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0 _)
  isplitl [H6]
  · iexists _; isplitr
    swap; · iexact H6
    ipureintro
    try dsimp only
    exact View.read_writes_eq_canon _ _ _ (cover0 _)
  iexists _; isplitr
  swap; · iexact H7
  ipureintro
  try dsimp only
  exact View.read_writes_eq_canon _ _ _ (cover0 _)

/-! ## The pipeline's proof data -/

/-- The proof data of this pipeline on core `c`: the windows' arrays as the region finds them; after
    the body at point `t` each input's buffer still at its block and each output's at `out0_w` of the
    five input blocks; the invariant that of a body touching nothing but its windows (the other scoped
    buffers and the generator register pass through); nothing owed to another core; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

/-- Each input's buffer holds its block at every point, copied in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, the core's debts, and each window's
    current buffer at what the pipeline has put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Region1.lean ====
/- Region 1 of @main — one attention head's scores, soft-max and weighted sum on an 8 × 8 grid — for
   any float instance, at a parameter `V`: the contents of the TensorCore's buffers when the region is
   entered.

   The body reads four blocks (a 1×256×1024 slab of queries, the 1×2048×1024 keys and values of the
   batch row, and the 1×256×1024 slab of the residual input) and writes two: the 1×256×2048 block of
   attention weights and the 1×256×1024 block of outputs, each by ONE store covering the whole block
   (the weights' store comes first in the text; the order does not matter, the buffers being distinct).
   So what a grid point leaves in an output's buffer is the store's payload, a function of the input
   blocks alone. This module names the two functions, proves that the body run on whole buffers leaves
   exactly them and the inputs untouched, and packages that as the pipeline's proof data and body
   obligation. -/
import proofs.«143292_j35038343201280_2_alg».proof.Proof.Gen.Kernel.Launch
import proofs.«143292_j35038343201280_2_alg».proof.Proof.Gen.Kernel.Skeleton
import proofs.«143292_j35038343201280_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership of an index in a rectangle whose long axes have thousands of coordinates
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the part of its array, as the region finds it, that the
    window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds the window's block at EVERY point, whether the block was copied in
    at that point or not (the keys and the values are copied in once per batch row: between two copies
    their block index stands still), and the body leaves an input's buffer as it found it. One
    statement per input window, for any proof data whose array is `V`'s and whose body leaves the block
    in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through

Every load and every store goes through the rectangle of ALL of its buffer: offsets zero, extents the
buffer's own. Three buffer shapes, three rectangles. -/

/-- All of a 1 × 256 × 1024 buffer (the queries' slab, the residual's, the output's). -/
abbrev rRows : Rect S1x256x1024 := Rect.unit (s := S1x256x1024) ![0, 0, 0] S1x256x1024.size inb_S1x256x1024_S1x256x1024_0_0_0
/-- All of a 1 × 2048 × 1024 buffer (the keys of a batch row; its values). -/
abbrev rSeq : Rect S1x2048x1024 := Rect.unit (s := S1x2048x1024) ![0, 0, 0] S1x2048x1024.size inb_S1x2048x1024_S1x2048x1024_0_0_0
/-- All of the 1 × 256 × 2048 buffer of attention weights. -/
abbrev rWts : Rect S1x256x2048 := Rect.unit (s := S1x256x2048) ![0, 0, 0] S1x256x2048.size inb_S1x256x2048_S1x256x2048_0_0_0

/-- The offsets of those rectangles are zero on each of the three axes. -/
theorem zeros : (![0, 0, 0] : Fin 3 → Nat) = fun _ => 0 := funext fun a => by fin_cases a <;> rfl

/-! ## What the body leaves in each output's buffer

The attention weights `k1_pay1` of the queries against the keys are computed once; reshaped they are
the weights' store (`k1_pay2`, which reads the queries and the keys only), and rounded to bf16,
multiplied into the values and added to the residual they are the output's store (`k1_pay3`, which
reads all four). -/

/-- Window 4 (the output slab) after the body, from the four input blocks. -/
def out1_4 (x0 : Vec F S1x256x1024 .bf16) (x1 x2 : Vec F S1x2048x1024 .bf16) (x3 : Vec F S1x256x1024 .f32) : Vec F S1x256x1024 .f32 :=
  View.canon [⟨rRows, k1_pay3 (View.ld x0 rRows) (View.ld x1 rSeq) (View.ld x2 rSeq) (View.ld x3 rRows)⟩]

/-- Window 5 (the attention weights) after the body, from the two blocks its payload reads: the
    queries' and the keys'. -/
def out1_5 (x0 : Vec F S1x256x1024 .bf16) (x1 : Vec F S1x2048x1024 .bf16) : Vec F S1x256x2048 .f32 :=
  View.canon [⟨rWts, k1_pay2 (View.ld x0 rRows) (View.ld x1 rSeq)⟩]

/-- A whole-buffer load reads the contents and one whole-buffer store leaves its payload: the two
    outputs in closed form. -/
theorem out1_4_eq (x0 : Vec F S1x256x1024 .bf16) (x1 x2 : Vec F S1x2048x1024 .bf16) (x3 : Vec F S1x256x1024 .f32) :
    out1_4 x0 x1 x2 x3 = k1_pay3 x0 x1 x2 x3 := by
  unfold out1_4
  rw [View.canon_unit_zero zeros]
  simp only [View.ld_unit_zero (S := S1x256x1024) zeros, View.ld_unit_zero (S := S1x2048x1024) zeros]

theorem out1_5_eq (x0 : Vec F S1x256x1024 .bf16) (x1 : Vec F S1x2048x1024 .bf16) :
    out1_5 x0 x1 = k1_pay2 x0 x1 := by
  unfold out1_5
  rw [View.canon_unit_zero zeros]
  simp only [View.ld_unit_zero (S := S1x256x1024) zeros, View.ld_unit_zero (S := S1x2048x1024) zeros]

/-- The one store of an output covers its buffer: every index lies in the whole-buffer rectangle. -/
theorem cover1_4 (p : Vec F S1x256x1024 .f32) (y : S1x256x1024.Idx) :
    ∃ pc ∈ ([⟨rRows, p⟩] : List (View.Piece (Elt F) S1x256x1024 .f32)), y ∈ pc.1.set :=
  ⟨_, List.mem_singleton_self _, View.mem_set_unit_zero zeros inb_S1x256x1024_S1x256x1024_0_0_0 y⟩
theorem cover1_5 (p : Vec F S1x256x2048 .f32) (y : S1x256x2048.Idx) :
    ∃ pc ∈ ([⟨rWts, p⟩] : List (View.Piece (Elt F) S1x256x2048 .f32)), y ∈ pc.1.set :=
  ⟨_, List.mem_singleton_self _, View.mem_set_unit_zero zeros inb_S1x256x2048_S1x256x2048_0_0_0 y⟩

/-! ## The body's triple -/

set_option maxHeartbeats 1000000 in
/-- The body on whole buffers: given the four inputs' buffers at contents `x0 … x3` and the two
    outputs' buffers at anything, it runs without fault to a state with the inputs' buffers unchanged,
    the output slab's at `out1_4 x0 x1 x2 x3` and the weights' at `out1_5 x0 x1`. Before storing into
    an output's buffer the body loads it; nothing uses what that reads. -/
theorem sound_kernel1 (c : Dev nD) (E : Set ℕ) (i : grid1.Coords)
    (arg2 : Memref sig .tc .vmem S1x256x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x256x1024 .f32) (harg5 : arg5.IsWhole)
    (arg6 : Memref sig .tc .vmem S1x256x1024 .f32) (harg6 : arg6.IsWhole) (arg7 : Memref sig .tc .vmem S1x256x2048 .f32) (harg7 : arg7.IsWhole)
    (x0 : Vec F S1x256x1024 .bf16) (x1 x2 : Vec F S1x2048x1024 .bf16) (x3 : Vec F S1x256x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out1_4 x0 x1 x2 x3) ∗ owns (c : Thread nD τ) arg7 fullShare (out1_5 x0 x1)) -∗ K ⟨⟩))
      ⊢ wp frame (wpE (defs₀ (F := F)) Variants.none c none) E
          (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of this pipeline on core `c`: the windows' arrays as the region finds them; after
    the body at point `t` each input's buffer still at its block, the output slab's at `out1_4` of the
    four input blocks and the weights' at `out1_5` of the queries' and the keys'; the invariant that of
    a body touching nothing but its windows; nothing owed to another core; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) := by dsimp only [dat1]

/-- Each input's buffer holds its block at every point, copied in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`: the invariant, the core's debts, and each window's
    current buffer at what the pipeline has put there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Run.lean ====
/- The run of @main for any float instance: six host operations, then the projection kernel's
   region, then the attention kernel's, each on an 8 × 8 grid.

   The buffers' contents are followed from launch to return as a fold: `W0` at launch; `W1` after the
   host operations (three transposes, the join of their results, its rounding to bf16, the join of
   three bias vectors); `W2` after region 0, which rewrites its three outputs' arrays and nothing
   else; `W3` after region 1, likewise for its two. Each region is entered with every unscoped buffer
   held whole at the fold's value there, and left with them at the next; so every weakly fair run of
   @main terminates without fault with every unscoped buffer at `W3` (`run_all`). The nine argument
   arrays are written by nothing — no host operation's result is one, and a region only reads the
   three it takes as inputs — so at each of them `W3` walks back to the launch contents (`frame`). -/
import proofs.«143292_j35038343201280_2_alg».proof.Proof.K.Region0
import proofs.«143292_j35038343201280_2_alg».proof.Proof.K.Region1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the six host operations: region 0's entry. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b

/-- At region 0's exit: each of its windows' arrays at what the pipeline leaves there (an input's as
    entered, an output's with every grid point's block written back), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references: region 1's entry (no host operation lies between
    the two regions). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit, which is @main's return: its windows' arrays at what its pipeline leaves,
    every other buffer as region 0 left it. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- The buffers the host operations write: their six results. -/
abbrev hostDsts : List (Ref sig .tc) := [main_v0, main_v1, main_v2, main_v3, main_v4, main_v5]

/-- Each host operation — a transpose, a rounding, or a join of three — writes its one result, which is
    among those six. -/
theorem host_writes : (hostOps0 : List (HloOp τ sig (Elt F))).Forall fun op => op.writes ⊆ (hostDsts.map (Proc.devRef (τ := τ) .tc)).toFinset := by
  simp only [List.Forall]
  refine ⟨?_, ?_, ?_, ?_, ?_, ?_⟩ <;>
    (simp only [StableHlo.unary_writes, StableHlo.nary_writes, Finset.singleton_subset_iff, List.mem_toFinset]
     exact List.mem_map_of_mem (by decide))

/-- So a buffer that is none of the six holds after the host operations what it held at launch. -/
theorem W1_keeps (c : Dev nD) (r : Ref sig .tc) (h : r ∉ hostDsts) :
    W1 m ρ c (Proc.devRef .tc r) = W0 m ρ c (Proc.devRef .tc r) :=
  StableHlo.after_of_writes_sub hostOps0 _ host_writes h

/-! Argument by argument, back through region 1, region 0 and the host operations. A region leaves a
    buffer that is none of its windows' arrays alone, and leaves an INPUT window's array as it found
    it: the activations `main_arg0` are an input of both regions, the normalisation's scale and shift
    `main_arg7`, `main_arg8` inputs of region 0; the other six reach the regions only through the host
    operations' results. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 3).trans (((dat1 (V2 m ρ) c).arrAt_in 3 rfl _).trans (A_eq1 (V2 m ρ) c 3))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_keeps m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_keeps m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_keeps m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_keeps m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_keeps m ρ c main_arg4 (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_keeps m ρ c main_arg5 (by decide)
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_keeps m ρ c main_arg6 (by decide)
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 1).trans (((dat0 (V1 m ρ) c).arrAt_in 1 rfl _).trans (A_eq0 (V1 m ρ) c 1))
    _ = W0 m ρ c (Proc.devRef .tc main_arg7) := W1_keeps m ρ c main_arg7 (by decide)
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := (W2_arr m ρ c 2).trans (((dat0 (V1 m ρ) c).arrAt_in 2 rfl _).trans (A_eq0 (V1 m ρ) c 2))
    _ = W0 m ρ c (Proc.devRef .tc main_arg8) := W1_keeps m ρ c main_arg8 (by decide)
    _ = m ((c : Thread nD τ).loc main_arg8) := rfl

/-! ## The proof data family and the thread state -/

/-- No pipeline prefetches a table. -/
abbrev adm : (p : Fin 2) → (pcfgs (F := F) p).Adm := fun p => (cfgs p).toPCfg_adm
/-- The two pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything, so no level is assigned. -/
abbrev L : GSem nD τ sig → Finset Unit := fun _ => ∅
abbrev lv : GSem nD τ sig → Unit → ℕ := fun _ _ => 0
/-- What rides beside the buffers through every segment: the core's generator register at some state,
    and its debts, which are none. -/
abbrev R (c : Dev nD) : sProp 𝕄 := iprop((∃ r, prngReg c r) ∗ ∃ W, owes (c : Thread nD τ) (0 : CellTallies nD τ sig Unit) W)
/-- A line of host operations as a segment: from every unscoped buffer at `W` to every unscoped buffer
    at what the operations make of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the debts: every unscoped buffer at `W3`, the generator register
    at some state. -/
abbrev Tₙ (c : Dev nD) : sProp 𝕄 := iprop(StableHlo.held (c : Thread nD τ) (Pipeline.ucRefs τ sig) (W3 m ρ c) ∗ ∃ r, prngReg c r)

/-! ## The regions as segments

A region takes its windows' arrays out of the unscoped buffers, runs its pipeline on them — the
generator register and the other scoped buffers inside the pipeline's invariant, untouched — and
puts the arrays back at what the pipeline leaves. -/

set_option backward.isDefEq.respectTransparency.types false in
/-- Region 0: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`, which is what @main returns
    with. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host operations from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- From any memory with every counter at zero, every weakly fair execution of @main on the TensorCores
    terminates, nothing faulting, and every final state has every unscoped buffer of every core at
    `W3`: the thread states chain through the three segments, and the last is read against the final
    state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- The frame: every weakly fair execution of @main terminates, nothing faulting, with each of the nine
    argument arrays holding what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run _ _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c)⟩) (run_all m ρ)

end Cert.Kernel.Fr

end
-- ==== Proof.KI.Region0.lean ====
/- Region 0 of @main — the fused layer-norm and q/k/v projection on an 8 × 8 grid — for any float
   instance, at a parameter `V`: the contents of the TensorCore's buffers when the region is entered.

   The body reads five blocks (a 1×256×1024 slab of activations, the two 1024-vectors of the
   normalisation, the 1024×3072 projection matrix and its 3072-vector of biases) and writes three
   1×256×1024 blocks, each by ONE store that covers the whole block. So what a grid point leaves in
   an output's buffer is a function of the five input blocks alone: the store's payload. This module
   names those three functions, proves that the body run on whole buffers leaves exactly them (and
   the inputs untouched), and packages that as the pipeline's proof data and body obligation. -/
import proofs.«143292_j35038343201280_2_alg».proof.Proof.Gen.KernelIdeal.Launch
import proofs.«143292_j35038343201280_2_alg».proof.Proof.Gen.KernelIdeal.Skeleton
import proofs.«143292_j35038343201280_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership of an index in a rectangle whose long axes have thousands of coordinates
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the part of its array, as the region finds it, that the
    window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds the window's block at EVERY point, whether the block was copied in
    at that point or not: where no copy is made the block index has not moved since the last copy, and
    the body leaves an input's buffer as it found it. One statement per input window, for any proof
    data whose array is `V`'s and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through

Every load and every store of the body goes through the rectangle of ALL of its buffer: offsets zero,
extents the buffer's own. There are four buffer shapes, hence four rectangles. -/

/-- All of a 1 × 256 × 1024 buffer (the activations' slab; each of the three outputs). -/
abbrev rSlab : Rect S1x256x1024 := Rect.unit (s := S1x256x1024) ![0, 0, 0] S1x256x1024.size inb_S1x256x1024_S1x256x1024_0_0_0
/-- All of a 1024-vector (the normalisation's scale, and its shift). -/
abbrev rVec : Rect S1024 := Rect.unit (s := S1024) ![0] S1024.size inb_S1024_S1024_0
/-- All of the 1024 × 3072 projection matrix. -/
abbrev rMat : Rect S1024x3072 := Rect.unit (s := S1024x3072) ![0, 0] S1024x3072.size inb_S1024x3072_S1024x3072_0_0
/-- All of the 3072-vector of biases. -/
abbrev rBias : Rect S3072 := Rect.unit (s := S3072) ![0] S3072.size inb_S3072_S3072_0

/-- The offsets of those rectangles are zero on every axis, however many axes. -/
theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-! ## What the body leaves in each output's buffer

The projection `k0_pay3` of the normalised slab is computed once; its three column thirds, rounded
to bf16, are the three stores' payloads (`k0_pay4` is the first third of `k0_pay3`, `k0_pay1` and
`k0_pay2` cut the second and third out of it). Each output's buffer ends as the overlay of its one
store on whatever was there, which — the store covering everything — is the payload. -/

/-- Window 5 (the queries) after the body, from the five input blocks. -/
def out0_5 (x0 : Vec F S1x256x1024 .f32) (x1 x2 : Vec F S1024 .f32) (x3 : Vec F S1024x3072 .bf16) (x4 : Vec F S3072 .f32) : Vec F S1x256x1024 .bf16 :=
  View.canon [⟨rSlab, k0_pay4 (View.ld x0 rSlab) (View.ld x1 rVec) (View.ld x2 rVec) (View.ld x3 rMat) (View.ld x4 rBias)⟩]

/-- Window 6 (the keys) after the body. -/
def out0_6 (x0 : Vec F S1x256x1024 .f32) (x1 x2 : Vec F S1024 .f32) (x3 : Vec F S1024x3072 .bf16) (x4 : Vec F S3072 .f32) : Vec F S1x256x1024 .bf16 :=
  View.canon [⟨rSlab, k0_pay1 (k0_pay3 (View.ld x0 rSlab) (View.ld x1 rVec) (View.ld x2 rVec) (View.ld x3 rMat) (View.ld x4 rBias))⟩]

/-- Window 7 (the values) after the body. -/
def out0_7 (x0 : Vec F S1x256x1024 .f32) (x1 x2 : Vec F S1024 .f32) (x3 : Vec F S1024x3072 .bf16) (x4 : Vec F S3072 .f32) : Vec F S1x256x1024 .bf16 :=
  View.canon [⟨rSlab, k0_pay2 (k0_pay3 (View.ld x0 rSlab) (View.ld x1 rVec) (View.ld x2 rVec) (View.ld x3 rMat) (View.ld x4 rBias))⟩]

/-- A whole-buffer load reads the contents and one whole-buffer store leaves its payload: the three
    outputs in closed form. -/
theorem out0_5_eq (x0 : Vec F S1x256x1024 .f32) (x1 x2 : Vec F S1024 .f32) (x3 : Vec F S1024x3072 .bf16) (x4 : Vec F S3072 .f32) :
    out0_5 x0 x1 x2 x3 x4 = k0_pay4 x0 x1 x2 x3 x4 := by
  unfold out0_5
  rw [View.canon_unit_zero zero3]
  simp only [View.ld_unit_zero (S := S1x256x1024) zero3, View.ld_unit_zero (S := S1024) zero1,
    View.ld_unit_zero (S := S1024x3072) zero2, View.ld_unit_zero (S := S3072) zero1]

theorem out0_6_eq (x0 : Vec F S1x256x1024 .f32) (x1 x2 : Vec F S1024 .f32) (x3 : Vec F S1024x3072 .bf16) (x4 : Vec F S3072 .f32) :
    out0_6 x0 x1 x2 x3 x4 = k0_pay1 (k0_pay3 x0 x1 x2 x3 x4) := by
  unfold out0_6
  rw [View.canon_unit_zero zero3]
  simp only [View.ld_unit_zero (S := S1x256x1024) zero3, View.ld_unit_zero (S := S1024) zero1,
    View.ld_unit_zero (S := S1024x3072) zero2, View.ld_unit_zero (S := S3072) zero1]

theorem out0_7_eq (x0 : Vec F S1x256x1024 .f32) (x1 x2 : Vec F S1024 .f32) (x3 : Vec F S1024x3072 .bf16) (x4 : Vec F S3072 .f32) :
    out0_7 x0 x1 x2 x3 x4 = k0_pay2 (k0_pay3 x0 x1 x2 x3 x4) := by
  unfold out0_7
  rw [View.canon_unit_zero zero3]
  simp only [View.ld_unit_zero (S := S1x256x1024) zero3, View.ld_unit_zero (S := S1024) zero1,
    View.ld_unit_zero (S := S1024x3072) zero2, View.ld_unit_zero (S := S3072) zero1]

/-- The one store of an output covers its buffer: every index lies in the whole-buffer rectangle. -/
theorem cover0 (p : Vec F S1x256x1024 .bf16) (y : S1x256x1024.Idx) :
    ∃ pc ∈ ([⟨rSlab, p⟩] : List (View.Piece (Elt F) S1x256x1024 .bf16)), y ∈ pc.1.set :=
  ⟨_, List.mem_singleton_self _, View.mem_set_unit_zero zero3 inb_S1x256x1024_S1x256x1024_0_0_0 y⟩

/-! ## The body's triple -/

set_option maxHeartbeats 1000000 in
/-- The body on whole buffers: given the five inputs' buffers at contents `x0 … x4` and the three
    outputs' buffers at anything, it runs without fault to a state with the inputs' buffers unchanged
    and each output's at `out0_w x0 … x4`. The body first runs its part (the five loads, the first
    output's load and store, returning the projection), then loads and stores the other two outputs;
    the outputs' loads read values nothing uses. -/
theorem sound_kernel0 (c : Dev nD) (E : Set ℕ) (i : grid0.Coords)
    (arg2 : Memref sig .tc .vmem S1x256x1024 .f32) (harg2 : arg2.IsWhole) (arg3 : Memref sig .tc .vmem S1024 .f32) (harg3 : arg3.IsWhole)
    (arg4 : Memref sig .tc .vmem S1024 .f32) (harg4 : arg4.IsWhole) (arg5 : Memref sig .tc .vmem S1024x3072 .bf16) (harg5 : arg5.IsWhole)
    (arg6 : Memref sig .tc .vmem S3072 .f32) (harg6 : arg6.IsWhole) (arg7 : Memref sig .tc .vmem S1x256x1024 .bf16) (harg7 : arg7.IsWhole)
    (arg8 : Memref sig .tc .vmem S1x256x1024 .bf16) (harg8 : arg8.IsWhole) (arg9 : Memref sig .tc .vmem S1x256x1024 .bf16) (harg9 : arg9.IsWhole)
    (x0 : Vec F S1x256x1024 .f32) (x1 x2 : Vec F S1024 .f32) (x3 : Vec F S1024x3072 .bf16) (x4 : Vec F S3072 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4) ∗ owns (c : Thread nD τ) arg8 fullShare (out0_6 x0 x1 x2 x3 x4)
            ∗ owns (c : Thread nD τ) arg9 fullShare (out0_7 x0 x1 x2 x3 x4)) -∗ K ⟨⟩))
      ⊢ wp frame (wpE (defs₀ (F := F)) Variants.none c none) E
          (cc0__qkv_kernel i arg2 harg2 arg3 harg3 arg4 harg4 arg5 harg5 arg6 harg6 arg7 harg7 arg8 harg8 arg9 harg9) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0 _)
  isplitl [H6]
  · iexists _; isplitr
    swap; · iexact H6
    ipureintro
    try dsimp only
    exact View.read_writes_eq_canon _ _ _ (cover0 _)
  iexists _; isplitr
  swap; · iexact H7
  ipureintro
  try dsimp only
  exact View.read_writes_eq_canon _ _ _ (cover0 _)

/-! ## The pipeline's proof data -/

/-- The proof data of this pipeline on core `c`: the windows' arrays as the region finds them; after
    the body at point `t` each input's buffer still at its block and each output's at `out0_w` of the
    five input blocks; the invariant that of a body touching nothing but its windows (the other scoped
    buffers and the generator register pass through); nothing owed to another core; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

/-- Each input's buffer holds its block at every point, copied in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, the core's debts, and each window's
    current buffer at what the pipeline has put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1.lean ====
/- Region 1 of @main — one attention head's scores, soft-max and weighted sum on an 8 × 8 grid — for
   any float instance, at a parameter `V`: the contents of the TensorCore's buffers when the region is
   entered.

   The body reads four blocks (a 1×256×1024 slab of queries, the 1×2048×1024 keys and values of the
   batch row, and the 1×256×1024 slab of the residual input) and writes two: the 1×256×2048 block of
   attention weights and the 1×256×1024 block of outputs, each by ONE store covering the whole block
   (the weights' store comes first in the text; the order does not matter, the buffers being distinct).
   So what a grid point leaves in an output's buffer is the store's payload, a function of the input
   blocks alone. This module names the two functions, proves that the body run on whole buffers leaves
   exactly them and the inputs untouched, and packages that as the pipeline's proof data and body
   obligation. -/
import proofs.«143292_j35038343201280_2_alg».proof.Proof.Gen.KernelIdeal.Launch
import proofs.«143292_j35038343201280_2_alg».proof.Proof.Gen.KernelIdeal.Skeleton
import proofs.«143292_j35038343201280_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership of an index in a rectangle whose long axes have thousands of coordinates
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the part of its array, as the region finds it, that the
    window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds the window's block at EVERY point, whether the block was copied in
    at that point or not (the keys and the values are copied in once per batch row: between two copies
    their block index stands still), and the body leaves an input's buffer as it found it. One
    statement per input window, for any proof data whose array is `V`'s and whose body leaves the block
    in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through

Every load and every store goes through the rectangle of ALL of its buffer: offsets zero, extents the
buffer's own. Three buffer shapes, three rectangles. -/

/-- All of a 1 × 256 × 1024 buffer (the queries' slab, the residual's, the output's). -/
abbrev rRows : Rect S1x256x1024 := Rect.unit (s := S1x256x1024) ![0, 0, 0] S1x256x1024.size inb_S1x256x1024_S1x256x1024_0_0_0
/-- All of a 1 × 2048 × 1024 buffer (the keys of a batch row; its values). -/
abbrev rSeq : Rect S1x2048x1024 := Rect.unit (s := S1x2048x1024) ![0, 0, 0] S1x2048x1024.size inb_S1x2048x1024_S1x2048x1024_0_0_0
/-- All of the 1 × 256 × 2048 buffer of attention weights. -/
abbrev rWts : Rect S1x256x2048 := Rect.unit (s := S1x256x2048) ![0, 0, 0] S1x256x2048.size inb_S1x256x2048_S1x256x2048_0_0_0

/-- The offsets of those rectangles are zero on each of the three axes. -/
theorem zeros : (![0, 0, 0] : Fin 3 → Nat) = fun _ => 0 := funext fun a => by fin_cases a <;> rfl

/-! ## What the body leaves in each output's buffer

The attention weights `k1_pay1` of the queries against the keys are computed once; reshaped they are
the weights' store (`k1_pay2`, which reads the queries and the keys only), and rounded to bf16,
multiplied into the values and added to the residual they are the output's store (`k1_pay3`, which
reads all four). -/

/-- Window 4 (the output slab) after the body, from the four input blocks. -/
def out1_4 (x0 : Vec F S1x256x1024 .bf16) (x1 x2 : Vec F S1x2048x1024 .bf16) (x3 : Vec F S1x256x1024 .f32) : Vec F S1x256x1024 .f32 :=
  View.canon [⟨rRows, k1_pay3 (View.ld x0 rRows) (View.ld x1 rSeq) (View.ld x2 rSeq) (View.ld x3 rRows)⟩]

/-- Window 5 (the attention weights) after the body, from the two blocks its payload reads: the
    queries' and the keys'. -/
def out1_5 (x0 : Vec F S1x256x1024 .bf16) (x1 : Vec F S1x2048x1024 .bf16) : Vec F S1x256x2048 .f32 :=
  View.canon [⟨rWts, k1_pay2 (View.ld x0 rRows) (View.ld x1 rSeq)⟩]

/-- A whole-buffer load reads the contents and one whole-buffer store leaves its payload: the two
    outputs in closed form. -/
theorem out1_4_eq (x0 : Vec F S1x256x1024 .bf16) (x1 x2 : Vec F S1x2048x1024 .bf16) (x3 : Vec F S1x256x1024 .f32) :
    out1_4 x0 x1 x2 x3 = k1_pay3 x0 x1 x2 x3 := by
  unfold out1_4
  rw [View.canon_unit_zero zeros]
  simp only [View.ld_unit_zero (S := S1x256x1024) zeros, View.ld_unit_zero (S := S1x2048x1024) zeros]

theorem out1_5_eq (x0 : Vec F S1x256x1024 .bf16) (x1 : Vec F S1x2048x1024 .bf16) :
    out1_5 x0 x1 = k1_pay2 x0 x1 := by
  unfold out1_5
  rw [View.canon_unit_zero zeros]
  simp only [View.ld_unit_zero (S := S1x256x1024) zeros, View.ld_unit_zero (S := S1x2048x1024) zeros]

/-- The one store of an output covers its buffer: every index lies in the whole-buffer rectangle. -/
theorem cover1_4 (p : Vec F S1x256x1024 .f32) (y : S1x256x1024.Idx) :
    ∃ pc ∈ ([⟨rRows, p⟩] : List (View.Piece (Elt F) S1x256x1024 .f32)), y ∈ pc.1.set :=
  ⟨_, List.mem_singleton_self _, View.mem_set_unit_zero zeros inb_S1x256x1024_S1x256x1024_0_0_0 y⟩
theorem cover1_5 (p : Vec F S1x256x2048 .f32) (y : S1x256x2048.Idx) :
    ∃ pc ∈ ([⟨rWts, p⟩] : List (View.Piece (Elt F) S1x256x2048 .f32)), y ∈ pc.1.set :=
  ⟨_, List.mem_singleton_self _, View.mem_set_unit_zero zeros inb_S1x256x2048_S1x256x2048_0_0_0 y⟩

/-! ## The body's triple -/

set_option maxHeartbeats 1000000 in
/-- The body on whole buffers: given the four inputs' buffers at contents `x0 … x3` and the two
    outputs' buffers at anything, it runs without fault to a state with the inputs' buffers unchanged,
    the output slab's at `out1_4 x0 x1 x2 x3` and the weights' at `out1_5 x0 x1`. Before storing into
    an output's buffer the body loads it; nothing uses what that reads. -/
theorem sound_kernel1 (c : Dev nD) (E : Set ℕ) (i : grid1.Coords)
    (arg2 : Memref sig .tc .vmem S1x256x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x256x1024 .f32) (harg5 : arg5.IsWhole)
    (arg6 : Memref sig .tc .vmem S1x256x1024 .f32) (harg6 : arg6.IsWhole) (arg7 : Memref sig .tc .vmem S1x256x2048 .f32) (harg7 : arg7.IsWhole)
    (x0 : Vec F S1x256x1024 .bf16) (x1 x2 : Vec F S1x2048x1024 .bf16) (x3 : Vec F S1x256x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out1_4 x0 x1 x2 x3) ∗ owns (c : Thread nD τ) arg7 fullShare (out1_5 x0 x1)) -∗ K ⟨⟩))
      ⊢ wp frame (wpE (defs₀ (F := F)) Variants.none c none) E
          (cc1__attn_kernel i arg2 harg2 arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of this pipeline on core `c`: the windows' arrays as the region finds them; after
    the body at point `t` each input's buffer still at its block, the output slab's at `out1_4` of the
    four input blocks and the weights' at `out1_5` of the queries' and the keys'; the invariant that of
    a body touching nothing but its windows; nothing owed to another core; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) := by dsimp only [dat1]

/-- Each input's buffer holds its block at every point, copied in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`: the invariant, the core's debts, and each window's
    current buffer at what the pipeline has put there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Run.lean ====
/- The run of @main for any float instance: six host operations, then the projection kernel's
   region, then the attention kernel's, each on an 8 × 8 grid.

   The buffers' contents are followed from launch to return as a fold: `W0` at launch; `W1` after the
   host operations (three transposes, the join of their results, its rounding to bf16, the join of
   three bias vectors); `W2` after region 0, which rewrites its three outputs' arrays and nothing
   else; `W3` after region 1, likewise for its two. Each region is entered with every unscoped buffer
   held whole at the fold's value there, and left with them at the next; so every weakly fair run of
   @main terminates without fault with every unscoped buffer at `W3` (`run_all`). The nine argument
   arrays are written by nothing — no host operation's result is one, and a region only reads the
   three it takes as inputs — so at each of them `W3` walks back to the launch contents (`frame`). -/
import proofs.«143292_j35038343201280_2_alg».proof.Proof.KI.Region0
import proofs.«143292_j35038343201280_2_alg».proof.Proof.KI.Region1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the six host operations: region 0's entry. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b

/-- At region 0's exit: each of its windows' arrays at what the pipeline leaves there (an input's as
    entered, an output's with every grid point's block written back), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references: region 1's entry (no host operation lies between
    the two regions). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit, which is @main's return: its windows' arrays at what its pipeline leaves,
    every other buffer as region 0 left it. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- The buffers the host operations write: their six results. -/
abbrev hostDsts : List (Ref sig .tc) := [main_v0, main_v1, main_v2, main_v3, main_v4, main_v5]

/-- Each host operation — a transpose, a rounding, or a join of three — writes its one result, which is
    among those six. -/
theorem host_writes : (hostOps0 : List (HloOp τ sig (Elt F))).Forall fun op => op.writes ⊆ (hostDsts.map (Proc.devRef (τ := τ) .tc)).toFinset := by
  simp only [List.Forall]
  refine ⟨?_, ?_, ?_, ?_, ?_, ?_⟩ <;>
    (simp only [StableHlo.unary_writes, StableHlo.nary_writes, Finset.singleton_subset_iff, List.mem_toFinset]
     exact List.mem_map_of_mem (by decide))

/-- So a buffer that is none of the six holds after the host operations what it held at launch. -/
theorem W1_keeps (c : Dev nD) (r : Ref sig .tc) (h : r ∉ hostDsts) :
    W1 m ρ c (Proc.devRef .tc r) = W0 m ρ c (Proc.devRef .tc r) :=
  StableHlo.after_of_writes_sub hostOps0 _ host_writes h

/-! Argument by argument, back through region 1, region 0 and the host operations. A region leaves a
    buffer that is none of its windows' arrays alone, and leaves an INPUT window's array as it found
    it: the activations `main_arg0` are an input of both regions, the normalisation's scale and shift
    `main_arg7`, `main_arg8` inputs of region 0; the other six reach the regions only through the host
    operations' results. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 3).trans (((dat1 (V2 m ρ) c).arrAt_in 3 rfl _).trans (A_eq1 (V2 m ρ) c 3))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_keeps m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_keeps m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_keeps m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_keeps m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_keeps m ρ c main_arg4 (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_keeps m ρ c main_arg5 (by decide)
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_keeps m ρ c main_arg6 (by decide)
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 1).trans (((dat0 (V1 m ρ) c).arrAt_in 1 rfl _).trans (A_eq0 (V1 m ρ) c 1))
    _ = W0 m ρ c (Proc.devRef .tc main_arg7) := W1_keeps m ρ c main_arg7 (by decide)
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := (W2_arr m ρ c 2).trans (((dat0 (V1 m ρ) c).arrAt_in 2 rfl _).trans (A_eq0 (V1 m ρ) c 2))
    _ = W0 m ρ c (Proc.devRef .tc main_arg8) := W1_keeps m ρ c main_arg8 (by decide)
    _ = m ((c : Thread nD τ).loc main_arg8) := rfl

/-! ## The proof data family and the thread state -/

/-- No pipeline prefetches a table. -/
abbrev adm : (p : Fin 2) → (pcfgs (F := F) p).Adm := fun p => (cfgs p).toPCfg_adm
/-- The two pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything, so no level is assigned. -/
abbrev L : GSem nD τ sig → Finset Unit := fun _ => ∅
abbrev lv : GSem nD τ sig → Unit → ℕ := fun _ _ => 0
/-- What rides beside the buffers through every segment: the core's generator register at some state,
    and its debts, which are none. -/
abbrev R (c : Dev nD) : sProp 𝕄 := iprop((∃ r, prngReg c r) ∗ ∃ W, owes (c : Thread nD τ) (0 : CellTallies nD τ sig Unit) W)
/-- A line of host operations as a segment: from every unscoped buffer at `W` to every unscoped buffer
    at what the operations make of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the debts: every unscoped buffer at `W3`, the generator register
    at some state. -/
abbrev Tₙ (c : Dev nD) : sProp 𝕄 := iprop(StableHlo.held (c : Thread nD τ) (Pipeline.ucRefs τ sig) (W3 m ρ c) ∗ ∃ r, prngReg c r)

/-! ## The regions as segments

A region takes its windows' arrays out of the unscoped buffers, runs its pipeline on them — the
generator register and the other scoped buffers inside the pipeline's invariant, untouched — and
puts the arrays back at what the pipeline leaves. -/

set_option backward.isDefEq.respectTransparency.types false in
/-- Region 0: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`, which is what @main returns
    with. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host operations from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- From any memory with every counter at zero, every weakly fair execution of @main on the TensorCores
    terminates, nothing faulting, and every final state has every unscoped buffer of every core at
    `W3`: the thread states chain through the three segments, and the last is read against the final
    state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- The frame: every weakly fair execution of @main terminates, nothing faulting, with each of the nine
    argument arrays holding what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run _ _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c)⟩) (run_all m ρ)

end Cert.KernelIdeal.Fr

end
-- ==== Proof.Spec.lean ====
/-
  Single-head self-attention with a pre-layer-norm, as functions on the extended reals.

  For an input x of 8 batches of 2048 rows of 1024 entries: each row is centred by its mean, scaled by the
  reciprocal square root of its variance plus a small constant, then by gamma and shifted by beta; three affine
  maps give queries, keys and values; the score of a query row against a key row is their inner product; each row
  of scores is shifted by its maximum, exponentiated and divided by the row's sum of exponentials; the weights mix
  the value rows, and the input row is added back.  The two programs differ only in how the scores are scaled
  (a product with 2^-5 against a quotient by the square root of 1024) and in the order of the last sum; the laws
  at the end say those agree at every extended real.
-/
import Idealize.ShloMosaic.PureOps.Ideal
import Idealize.ShloMosaic.PureOps.Ideal.Laws
import Idealize.ShloMosaic.Lib.ValueIdx

open scoped BigOperators

noncomputable section

namespace Cert.Spec

open Idealize.ShloMosaic

/-- An array of 8 batches of 2048 rows of 1024 entries, by coordinates. -/
abbrev Rows := Fin 8 → Fin 2048 → Fin 1024 → EReal
/-- An array of 8 batches of 2048 rows of 2048 entries, by coordinates. -/
abbrev Sq := Fin 8 → Fin 2048 → Fin 2048 → EReal

/-- The number 1024 as the programs spell it. -/
def c1024 : EReal := Ideal.ofBits .f32 0x44800000#32
/-- The small constant added to the variance. -/
def ceps : EReal := Ideal.ofBits .f32 0x3727C5AC#32
/-- The number 2^-5 as the kernel spells it. -/
def cinv32 : EReal := Ideal.ofBits .f32 0x3D000000#32

/-- A row's mean. -/
def mean (x : Rows) (b : Fin 8) (s : Fin 2048) : EReal := Ideal.div (∑ d : Fin 1024, x b s d) c1024
/-- The rows centred. -/
def cen (x : Rows) : Rows := fun b s d => x b s d - mean x b s
/-- A row's variance. -/
def var (x : Rows) (b : Fin 8) (s : Fin 2048) : EReal := Ideal.div (∑ d : Fin 1024, cen x b s d * cen x b s d) c1024
/-- The normalised rows, scaled by gamma and shifted by beta. -/
def lnorm (x : Rows) (γ β : Fin 1024 → EReal) : Rows :=
  fun b s d => cen x b s d * Ideal.rsqrt (var x b s + ceps) * γ d + β d
/-- An affine map of each row: entry e is the inner product with row e of W, plus the bias. -/
def proj (xn : Rows) (W : Fin 1024 → Fin 1024 → EReal) (bias : Fin 1024 → EReal) : Rows :=
  fun b s e => (∑ d : Fin 1024, xn b s d * W e d) + bias e
/-- Inner products of query rows with key rows. -/
def dots (q k : Rows) : Sq := fun b i j => ∑ d : Fin 1024, q b i d * k b j d
/-- The greatest entry of a row of scores. -/
def rowmax (s : Sq) (b : Fin 8) (i : Fin 2048) : EReal := (Finset.univ : Finset (Fin 2048)).fold max ⊥ (fun j => s b i j)
/-- Each row shifted by its greatest entry, exponentiated, and divided by the row's sum. -/
def softmax (s : Sq) : Sq :=
  fun b i j => Ideal.div (Ideal.exp (s b i j - rowmax s b i)) (∑ j' : Fin 2048, Ideal.exp (s b i j' - rowmax s b i))
/-- The value rows mixed by the weights. -/
def mix (a : Sq) (v : Rows) : Rows := fun b i d => ∑ j : Fin 2048, a b i j * v b j d

/-- The scores as the kernel scales them. -/
def scoresK (q k : Rows) : Sq := fun b i j => dots q k b i j * cinv32
/-- The scores as the reference scales them. -/
def scoresR (q k : Rows) : Sq := fun b i j => Ideal.div (dots q k b i j) (Ideal.sqrt c1024)

/-- The attention weights, from the arguments (scores scaled the kernel's way). -/
def attn (x : Rows) (Wq : Fin 1024 → Fin 1024 → EReal) (bq : Fin 1024 → EReal) (Wk : Fin 1024 → Fin 1024 → EReal)
    (bk : Fin 1024 → EReal) (γ β : Fin 1024 → EReal) : Sq :=
  softmax (scoresK (proj (lnorm x γ β) Wq bq) (proj (lnorm x γ β) Wk bk))
/-- The result rows, from the arguments: the mixed values plus the input. -/
def out (x : Rows) (Wq : Fin 1024 → Fin 1024 → EReal) (bq : Fin 1024 → EReal) (Wk : Fin 1024 → Fin 1024 → EReal)
    (bk : Fin 1024 → EReal) (Wv : Fin 1024 → Fin 1024 → EReal) (bv : Fin 1024 → EReal) (γ β : Fin 1024 → EReal) : Rows :=
  fun b i d => mix (attn x Wq bq Wk bk γ β) (proj (lnorm x γ β) Wv bv) b i d + x b i d

/-- The attention weights with the scores scaled the reference's way. -/
def attnR (x : Rows) (Wq : Fin 1024 → Fin 1024 → EReal) (bq : Fin 1024 → EReal) (Wk : Fin 1024 → Fin 1024 → EReal)
    (bk : Fin 1024 → EReal) (γ β : Fin 1024 → EReal) : Sq :=
  softmax (scoresR (proj (lnorm x γ β) Wq bq) (proj (lnorm x γ β) Wk bk))
/-- The result rows in the reference's order: the input plus the mixed values. -/
def outR (x : Rows) (Wq : Fin 1024 → Fin 1024 → EReal) (bq : Fin 1024 → EReal) (Wk : Fin 1024 → Fin 1024 → EReal)
    (bk : Fin 1024 → EReal) (Wv : Fin 1024 → Fin 1024 → EReal) (bv : Fin 1024 → EReal) (γ β : Fin 1024 → EReal) : Rows :=
  fun b i d => x b i d + mix (attnR x Wq bq Wk bk γ β) (proj (lnorm x γ β) Wv bv) b i d

/-! ## Arrays by coordinates -/

/-- A function of three coordinates as an array of rank 3. -/
def arr3 {n0 n1 n2 : Nat} (f : Fin n0 → Fin n1 → Fin n2 → EReal) : (⟨3, ![n0, n1, n2]⟩ : Shape).Idx → EReal :=
  fun i => f (i 0) (i 1) (i 2)
theorem arr3_ix3 {n0 n1 n2 : Nat} (f : Fin n0 → Fin n1 → Fin n2 → EReal) (a : Fin n0) (b : Fin n1) (c : Fin n2) :
    arr3 f (ValueIdx.ix3 a b c) = f a b c := rfl
/-- An array of rank 3 is the function of its coordinates: to show an array is `arr3 f`, read it at `ix3 a b c`. -/
theorem eq_arr3 {n0 n1 n2 : Nat} (x : (⟨3, ![n0, n1, n2]⟩ : Shape).Idx → EReal) (f : Fin n0 → Fin n1 → Fin n2 → EReal)
    (h : ∀ a b c, x (ValueIdx.ix3 a b c) = f a b c) : x = arr3 f := by
  funext i; rw [ValueIdx.eq_ix3 i]; exact h _ _ _
/-- An array of rank 3, 2, 1 read by coordinates. -/
def cur3 {n0 n1 n2 : Nat} (x : (⟨3, ![n0, n1, n2]⟩ : Shape).Idx → EReal) : Fin n0 → Fin n1 → Fin n2 → EReal :=
  fun a b c => x (ValueIdx.ix3 a b c)
def cur2 {n0 n1 : Nat} (x : (⟨2, ![n0, n1]⟩ : Shape).Idx → EReal) : Fin n0 → Fin n1 → EReal :=
  fun a b => x (ValueIdx.ix2 a b)
def cur1 {n0 : Nat} (x : (⟨1, ![n0]⟩ : Shape).Idx → EReal) : Fin n0 → EReal :=
  fun a => x (ValueIdx.ix1 a)

/-! ## The two spellings of the scale agree -/

/-- The word 0x44800000 is the number 1024. -/
theorem c1024_eq : c1024 = ((1024 : ℝ) : EReal) := by
  unfold c1024; simp [Ideal.ofBits, Ideal.ieee, -EReal.coe_mul]; norm_num
/-- The word 0x3D000000 is the number 1/32. -/
theorem cinv32_eq : cinv32 = ((1 / 32 : ℝ) : EReal) := by
  unfold cinv32; simp [Ideal.ofBits, Ideal.ieee, -EReal.coe_mul]; norm_num
/-- The square root of 1024 is 32. -/
theorem sqrt_c1024 : Ideal.sqrt c1024 = ((32 : ℝ) : EReal) := by
  rw [c1024_eq]
  show (if (1024 : ℝ) < 0 then (⊥ : EReal) else ((Real.sqrt 1024 : ℝ) : EReal)) = _
  rw [if_neg (by norm_num)]
  have h : Real.sqrt 1024 = 32 := by
    rw [show (1024 : ℝ) = 32 ^ 2 by norm_num]; exact Real.sqrt_sq (by norm_num)
  rw [h]
/-- A quotient by the square root of 1024 is the product with 2^-5, at every extended real. -/
theorem div_sqrt_eq_mul (z : EReal) : Ideal.div z (Ideal.sqrt c1024) = z * cinv32 := by
  rw [sqrt_c1024, cinv32_eq, Ideal.div_coe (by norm_num : (32 : ℝ) ≠ 0)]
theorem scoresR_eq_scoresK (q k : Rows) : scoresR q k = scoresK q k := by
  funext b i j; exact div_sqrt_eq_mul _
/-- The reference's weights are the kernel's. -/
theorem attnR_eq (x : Rows) (Wq : Fin 1024 → Fin 1024 → EReal) (bq : Fin 1024 → EReal) (Wk : Fin 1024 → Fin 1024 → EReal)
    (bk : Fin 1024 → EReal) (γ β : Fin 1024 → EReal) : attnR x Wq bq Wk bk γ β = attn x Wq bq Wk bk γ β := by
  unfold attnR attn; rw [scoresR_eq_scoresK]
/-- The reference's result rows are the kernel's: the last sum commutes. -/
theorem outR_eq (x : Rows) (Wq : Fin 1024 → Fin 1024 → EReal) (bq : Fin 1024 → EReal) (Wk : Fin 1024 → Fin 1024 → EReal)
    (bk : Fin 1024 → EReal) (Wv : Fin 1024 → Fin 1024 → EReal) (bv : Fin 1024 → EReal) (γ β : Fin 1024 → EReal) :
    outR x Wq bq Wk bk Wv bv γ β = out x Wq bq Wk bk Wv bv γ β := by
  funext b i d; unfold outR out; rw [attnR_eq, add_comm]

end Cert.Spec

end
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibDense.lean ====
/-
  Dense layers read at coordinates, at the extended reals.

  A row-major `[M, K]` array times a `[K, N]` matrix into a zero accumulator, plus a length-`N` bias laid out as one row
  and repeated over the `M` rows, is at `(p, q)` the sum over `k` of `l (p, k) · W (k, q)`, plus `b q`. A length-`c`
  vector laid out as `[1, 1, c]` and repeated over two leading axes reads, at `(p, q, k)`, the vector at `k`.
-/
import proofs.«143292_j35038343201280_2_alg».proof.Proof.LibPlainDot
import Idealize.ShloMosaic.Lib.ValueLayout
import Idealize.ShloMosaic.Lib.Pipeline.Value

noncomputable section

namespace Cert.LibDense

open Idealize.ShloMosaic Idealize.ShloMosaic.ValueIdx
open scoped BigOperators

variable {α : Type}

/-- A length-`c` vector cast to `[1, 1, c]` reads, at `(u, v, k)`, the vector at `k`. -/
theorem shapeCast_c_11c_apply {c : ℕ} (x : (⟨1, ![c]⟩ : Shape).Idx → α) (h : (⟨1, ![c]⟩ : Shape).ShapeCasts ⟨3, ![1, 1, c]⟩)
    (u v : Fin 1) (k : Fin c) : shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    omega)

/-- A `[1, 1, c]` array broadcast to `[a, b, c]` reads, at `(p, q, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => show 0 = if (1 : ℕ) = 1 then 0 else p.val; rw [if_pos rfl]
  | ⟨1, _⟩ => show 0 = if (1 : ℕ) = 1 then 0 else q.val; rw [if_pos rfl]
  | ⟨2, _⟩ =>
    show k.val = if c = 1 then 0 else k.val
    split
    · have := k.isLt; omega
    · rfl

variable {M K N : ℕ} (d : DotDims ⟨2, ![M, K]⟩ ⟨2, ![K, N]⟩ ⟨2, ![M, N]⟩)

/-- A dense layer before its activation, at `(p, q)`. -/
theorem dense_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (q : Fin N) :
    addf (FloatOps.matmul d prec l W (constant ⟨2, ![M, N]⟩ .f32 0x00000000#32))
        (broadcastTo ⟨2, ![M, N]⟩ (shapeCast ⟨2, ![1, N]⟩ b hc) hb) (ix2 p q)
      = (∑ k : Fin K, l (ix2 p k) * W (ix2 k q)) + b (ix1 q) := by
  rw [addf_apply, Cert.LibPlainDot.matmul_plain_apply d hlc hrc hlb hrb hln hrn, broadcastTo_1b_ab_apply, shapeCast_a_1a_apply]

end Cert.LibDense

end
-- ==== Proof.LibColsCut.lean ====
/-
  A stretch of columns cut from a matrix, read at coordinates.

  Cutting the columns off, off + 1, …, off + n - 1 out of an array of M rows and N columns (a unit-stride slice that keeps
  every row) gives an array of M rows and n columns whose entry (p, q) is entry (p, off + q) of the operand — for any
  extents and any element type. A dense row of several gates laid side by side is cut into its gates this way.
-/
import Idealize.ShloMosaic.Lib.Pipeline.Value
import Idealize.ShloMosaic.Lib.ValueIdx

noncomputable section

namespace Cert.LibColsCut

open Idealize.ShloMosaic Idealize.ShloMosaic.ValueIdx

/-- Entry (p, q) of the columns `off … off + n - 1` of `x` is entry (p, j) of `x` where `j = off + q`. -/
theorem slice_cols {M N n : ℕ} {α : Type} (off : ℕ) (x : (⟨2, ![M, N]⟩ : Shape).Idx → α)
    (h : (⟨2, ![M, N]⟩ : Shape).Slices ![0, off] ⟨2, ![M, n]⟩) (p : Fin M) (q : Fin n) (j : Fin N)
    (hj : j.val = off + q.val) :
    extractStridedSlice (⟨2, ![M, n]⟩ : Shape) ![0, off] x h (ix2 p q) = x (ix2 p j) :=
  extractStridedSlice_apply ![0, off] x h (ix2 p q) (ix2 p j) fun a => by
    match a with
    | ⟨0, _⟩ => show p.val = 0 + p.val; omega
    | ⟨1, _⟩ => show j.val = off + q.val; exact hj

end Cert.LibColsCut

end
-- ==== Proof.Pay0.lean ====
/-
  What the first kernel body computes on one block, entry by entry.

  The body reads a block of 256 rows of x (all 1024 columns), gamma, beta, the joined weight matrix [1024, 3072]
  and the joined bias [3072].  Each row is centred by its own mean and scaled by the reciprocal square root of its
  own variance plus the small constant, then by gamma and beta: entry (p, k) depends on row p only.  The product with
  the joined matrix and the joined bias gives, at (p, q), the sum over k of that row's entry k times W(k, q), plus
  bias q.  The three stores keep columns 0.., 1024.., 2048.. of this.
-/
import proofs.«143292_j35038343201280_2_alg».proof.Proof.Gen.KernelIdeal.Skeleton
import proofs.«143292_j35038343201280_2_alg».proof.Proof.Spec
import proofs.«143292_j35038343201280_2_alg».proof.Proof.LibRows
import proofs.«143292_j35038343201280_2_alg».proof.Proof.LibLayout
import proofs.«143292_j35038343201280_2_alg».proof.Proof.LibRow
import proofs.«143292_j35038343201280_2_alg».proof.Proof.LibDense
import proofs.«143292_j35038343201280_2_alg».proof.Proof.LibColsCut
import Idealize.ShloMosaic.Lib.ValueLayout
import Idealize.ShloMosaic.Lib.Pipeline.Value
import Idealize.ShloMosaic.Lib.ValueIdx
import Idealize.ShloMosaic.PureOps.Ideal.Laws

open scoped BigOperators

noncomputable section

namespace Cert.KernelIdeal.Val

open Cert.KernelIdeal Cert.KernelIdeal.Gen Idealize.ShloMosaic Idealize.ShloMosaic.ValueIdx Cert.Spec
open Cert.LibRow Cert.LibDense Cert.LibColsCut

/-- A row sum of a block divided by 1024, kept as a column: at (p, u) it is the quotient of row p's sum. -/
theorem rowQuot_apply (y : FVec Ideal S256x1024 .f32) (p : Fin 256) (u : Fin 1) :
    divf (shapeCast S256x1 (multiReduction .add [1] S256 y 0x00000000#32 reduces_S256x1024_S256 (.inl rfl) rfl) shapeCasts_S256_S256x1)
        (broadcast S256x1 (Scalar.ofBits (F := Ideal) .f32 0x44800000#32)) (ix2 p u)
      = Ideal.div (∑ s : Fin 1024, y (ix2 p s)) c1024 := by
  show Ideal.div (shapeCast S256x1 _ shapeCasts_S256_S256x1 (ix2 p u)) (Ideal.ofBits .f32 0x44800000#32) = _
  rw [shapeCast_a_a1_apply]
  refine congrArg (Ideal.div · _) ?_
  exact rowSum_apply y 0x00000000#32 reduces_S256x1024_S256 (.inl rfl) rfl p

/-- The normalised block the body forms from the 2-D block, gamma and beta. -/
def lnBlock (v1 : FVec Ideal S256x1024 .f32) (v18 v22 : Vec Ideal S1024 .f32) : FVec Ideal S256x1024 .f32 :=
  have v2 : FVec Ideal S256 .f32 := multiReduction .add [1] S256 v1 0x00000000#32 reduces_S256x1024_S256 (.inl rfl) rfl
  have v3 : FVec Ideal S256x1 .f32 := shapeCast S256x1 v2 shapeCasts_S256_S256x1
  have cst_2 : Ideal .f32 := Scalar.ofBits .f32 0x44800000#32
  have v4 : FVec Ideal S256x1 .f32 := broadcast S256x1 cst_2
  have v5 : FVec Ideal S256x1 .f32 := divf v3 v4
  have v6 : FVec Ideal S256x1024 .f32 := broadcastTo S256x1024 v5 broadcasts_S256x1_S256x1024
  have v7 : FVec Ideal S256x1024 .f32 := subf v1 v6
  have v8 : FVec Ideal S256x1024 .f32 := mulf v7 v7
  have v9 : FVec Ideal S256 .f32 := multiReduction .add [1] S256 v8 0x00000000#32 reduces_S256x1024_S256 (.inl rfl) rfl
  have v10 : FVec Ideal S256x1 .f32 := shapeCast S256x1 v9 shapeCasts_S256_S256x1
  have cst_4 : Ideal .f32 := Scalar.ofBits .f32 0x44800000#32
  have v11 : FVec Ideal S256x1 .f32 := broadcast S256x1 cst_4
  have v12 : FVec Ideal S256x1 .f32 := divf v10 v11
  have cst_5 : Ideal .f32 := Scalar.ofBits .f32 0x3727C5AC#32
  have v13 : FVec Ideal S256x1 .f32 := broadcast S256x1 cst_5
  have v14 : FVec Ideal S256x1 .f32 := addf v12 v13
  have v15 : FVec Ideal S256x1 .f32 := rsqrt v14
  have v16 : FVec Ideal S256x1024 .f32 := broadcastTo S256x1024 v15 broadcasts_S256x1_S256x1024
  have v17 : FVec Ideal S256x1024 .f32 := mulf v7 v16
  have v19 : FVec Ideal S1x1024 .f32 := shapeCast S1x1024 v18 shapeCasts_S1024_S1x1024
  have v20 : FVec Ideal S256x1024 .f32 := broadcastTo S256x1024 v19 broadcasts_S1x1024_S256x1024
  have v21 : FVec Ideal S256x1024 .f32 := mulf v17 v20
  have v23 : FVec Ideal S1x1024 .f32 := shapeCast S1x1024 v22 shapeCasts_S1024_S1x1024
  have v24 : FVec Ideal S256x1024 .f32 := broadcastTo S256x1024 v23 broadcasts_S1x1024_S256x1024
  have v25 : FVec Ideal S256x1024 .f32 := addf v21 v24
  v25

/-- The body's product-plus-bias is the dense layer of the normalised block. -/
theorem pay3_eq (x0 : Vec Ideal S1x256x1024 .f32) (g b : Vec Ideal S1024 .f32) (w : Vec Ideal S1024x3072 .bf16) (bias : Vec Ideal S3072 .f32) :
    k0_pay3 (F := Ideal) x0 g b w bias
      = addf (matmul dot_S256x1024_S1024x3072_S256x3072_1_0_0_1_n_n none
            (truncf .bf16 (lnBlock (shapeCast S256x1024 x0 shapeCasts_S1x256x1024_S256x1024) g b) bitsLt_bf16_f32)
            (shapeCast S1024x3072 w shapeCasts_S1024x3072_S1024x3072 : FVec Ideal S1024x3072 .bf16) (constant S256x3072 .f32 0x00000000#32))
          (broadcastTo S256x3072 (shapeCast S1x3072 (shapeCast S3072 bias shapeCasts_S3072_S3072) shapeCasts_S3072_S1x3072) broadcasts_S1x3072_S256x3072) := rfl

/-- Entry (p, k) of the normalised block, for a block whose row p is row `row p` of batch `bb` of x: the layer
    norm of x at that row — it reads no other row. -/
theorem lnBlock_apply (v1 : FVec Ideal S256x1024 .f32) (g b : Vec Ideal S1024 .f32)
    (X : Rows) (γ β : Fin 1024 → EReal) (bb : Fin 8) (row : Fin 256 → Fin 2048)
    (hx : ∀ p k, v1 (ix2 p k) = X bb (row p) k) (hg : ∀ k, g (ix1 k) = γ k) (hb : ∀ k, b (ix1 k) = β k)
    (p : Fin 256) (k : Fin 1024) :
    lnBlock v1 g b (ix2 p k) = lnorm X γ β bb (row p) k := by
  have hmean : ∀ p' : Fin 256, Ideal.div (∑ s : Fin 1024, v1 (ix2 p' s)) c1024 = mean X bb (row p') := fun p' => by
    unfold mean; exact congrArg (Ideal.div · _) (Finset.sum_congr rfl fun s _ => hx p' s)
  -- the centred block
  have hcen : ∀ (p' : Fin 256) (k' : Fin 1024),
      subf v1 (broadcastTo S256x1024 (divf (shapeCast S256x1 (multiReduction .add [1] S256 v1 0x00000000#32 reduces_S256x1024_S256 (.inl rfl) rfl) shapeCasts_S256_S256x1)
        (broadcast S256x1 (Scalar.ofBits (F := Ideal) .f32 0x44800000#32))) broadcasts_S256x1_S256x1024) (ix2 p' k') = cen X bb (row p') k' := fun p' k' => by
    show v1 (ix2 p' k') - broadcastTo S256x1024 _ broadcasts_S256x1_S256x1024 (ix2 p' k') = _
    rw [broadcastTo_a1_ab_apply, rowQuot_apply, hmean, hx]; rfl
  unfold lnBlock
  show (_ * broadcastTo S256x1024 _ broadcasts_S256x1_S256x1024 (ix2 p k)) * broadcastTo S256x1024 _ broadcasts_S1x1024_S256x1024 (ix2 p k)
      + broadcastTo S256x1024 _ broadcasts_S1x1024_S256x1024 (ix2 p k) = _
  rw [hcen, broadcastTo_a1_ab_apply, broadcastTo_1b_ab_apply, broadcastTo_1b_ab_apply, row_apply, row_apply, hg, hb]
  unfold lnorm
  refine congrArg (fun z => cen X bb (row p) k * z * γ k + β k) ?_
  show Ideal.rsqrt (divf (shapeCast S256x1 (multiReduction .add [1] S256 _ 0x00000000#32 reduces_S256x1024_S256 (.inl rfl) rfl) shapeCasts_S256_S256x1)
        (broadcast S256x1 (Scalar.ofBits (F := Ideal) .f32 0x44800000#32)) (ix2 p (0 : Fin 1)) + Ideal.ofBits .f32 0x3727C5AC#32) = _
  rw [rowQuot_apply]
  refine congrArg (fun z => Ideal.rsqrt (Ideal.div z c1024 + ceps)) ?_
  refine Finset.sum_congr rfl fun s _ => ?_
  show _ * _ = _
  rw [hcen]

/-- The body's product plus bias at (p, q): row `row p` of the layer norm against column q of the joined matrix,
    plus entry q of the joined bias. -/
theorem pay3_apply (x0 : Vec Ideal S1x256x1024 .f32) (g b : Vec Ideal S1024 .f32) (w : Vec Ideal S1024x3072 .bf16)
    (bias : Vec Ideal S3072 .f32) (X : Rows) (γ β : Fin 1024 → EReal) (bb : Fin 8) (row : Fin 256 → Fin 2048)
    (Wc : Fin 1024 → Fin 3072 → EReal) (bc : Fin 3072 → EReal)
    (hx : ∀ p k, x0 (ix3 (0 : Fin 1) p k) = X bb (row p) k) (hg : ∀ k, g (ix1 k) = γ k) (hb : ∀ k, b (ix1 k) = β k)
    (hw : ∀ k q, w (ix2 k q) = Wc k q) (hbias : ∀ q, bias (ix1 q) = bc q) (p : Fin 256) (q : Fin 3072) :
    k0_pay3 (F := Ideal) x0 g b w bias (ix2 p q) = (∑ k : Fin 1024, lnorm X γ β bb (row p) k * Wc k q) + bc q := by
  rw [pay3_eq]
  refine (dense_apply dot_S256x1024_S1024x3072_S256x3072_1_0_0_1_n_n rfl rfl rfl rfl rfl rfl none _ _ _ _ _ p q).trans ?_
  rw [shapeCast_self, shapeCast_self, hbias]
  refine congrArg (· + bc q) (Finset.sum_congr rfl fun k _ => ?_)
  rw [hw]
  refine congrArg (· * Wc k q) ?_
  show lnBlock _ g b (ix2 p k) = _
  exact lnBlock_apply _ g b X γ β bb row (fun p' k' => (shapeCast_1ab_ab_apply x0 _ p' k').trans (hx p' k')) hg hb p k

/-- A stretch of 1024 columns of the product, starting at column `off`, as the store lays it out [1, 256, 1024]. -/
theorem cut_apply (v34 : FVec Ideal S256x3072 .f32) (off : ℕ) (h : S256x3072.Slices ![0, off] S256x1024)
    (u : Fin 1) (p : Fin 256) (e : Fin 1024) (q : Fin 3072) (hq : q.val = off + e.val) :
    shapeCast S1x256x1024 (truncf .bf16 (extractStridedSlice S256x1024 ![0, off] v34 h) bitsLt_bf16_f32) shapeCasts_S256x1024_S1x256x1024 (ix3 u p e)
      = v34 (ix2 p q) := by
  rw [shapeCast_ab_1ab_apply]
  show extractStridedSlice S256x1024 ![0, off] v34 h (ix2 p e) = _
  exact slice_cols off v34 h p e q hq

/-- A stored stretch of the product at (u, p, e): row `row p` of the layer norm against column `off + e` of the joined
    matrix, plus entry `off + e` of the joined bias. -/
theorem store_point (x0 : Vec Ideal S1x256x1024 .f32) (g b : Vec Ideal S1024 .f32) (w : Vec Ideal S1024x3072 .bf16)
    (bias : Vec Ideal S3072 .f32) (X : Rows) (γ β : Fin 1024 → EReal) (bb : Fin 8) (row : Fin 256 → Fin 2048)
    (Wc : Fin 1024 → Fin 3072 → EReal) (bc : Fin 3072 → EReal)
    (hx : ∀ p k, x0 (ix3 (0 : Fin 1) p k) = X bb (row p) k) (hg : ∀ k, g (ix1 k) = γ k) (hb : ∀ k, b (ix1 k) = β k)
    (hw : ∀ k q, w (ix2 k q) = Wc k q) (hbias : ∀ q, bias (ix1 q) = bc q)
    (off : ℕ) (h : S256x3072.Slices ![0, off] S256x1024) (hoff : off + 1024 ≤ 3072)
    (u : Fin 1) (p : Fin 256) (e : Fin 1024) :
    shapeCast S1x256x1024 (truncf .bf16 (extractStridedSlice S256x1024 ![0, off] (k0_pay3 (F := Ideal) x0 g b w bias) h) bitsLt_bf16_f32)
        shapeCasts_S256x1024_S1x256x1024 (ix3 u p e)
      = (∑ k : Fin 1024, lnorm X γ β bb (row p) k * Wc k ⟨off + e.val, by omega⟩) + bc ⟨off + e.val, by omega⟩ :=
  (cut_apply _ off h u p e ⟨off + e.val, by omega⟩ rfl).trans
    (pay3_apply x0 g b w bias X γ β bb row Wc bc hx hg hb hw hbias p _)

/-- The three stores are the stretches at columns 0, 1024 and 2048. -/
theorem pay4_eq (x0 : Vec Ideal S1x256x1024 .f32) (g b : Vec Ideal S1024 .f32) (w : Vec Ideal S1024x3072 .bf16) (bias : Vec Ideal S3072 .f32) :
    k0_pay4 (F := Ideal) x0 g b w bias
      = shapeCast S1x256x1024 (truncf .bf16 (extractStridedSlice S256x1024 ![0, 0] (k0_pay3 (F := Ideal) x0 g b w bias) slices_S256x3072_o0_0_S256x1024) bitsLt_bf16_f32)
          shapeCasts_S256x1024_S1x256x1024 := rfl
theorem pay1_eq0 (v34 : FVec Ideal S256x3072 .f32) :
    k0_pay1 (F := Ideal) v34
      = shapeCast S1x256x1024 (truncf .bf16 (extractStridedSlice S256x1024 ![0, 1024] v34 slices_S256x3072_o0_1024_S256x1024) bitsLt_bf16_f32)
          shapeCasts_S256x1024_S1x256x1024 := rfl
theorem pay2_eq0 (v34 : FVec Ideal S256x3072 .f32) :
    k0_pay2 (F := Ideal) v34
      = shapeCast S1x256x1024 (truncf .bf16 (extractStridedSlice S256x1024 ![0, 2048] v34 slices_S256x3072_o0_2048_S256x1024) bitsLt_bf16_f32)
          shapeCasts_S256x1024_S1x256x1024 := rfl

end Cert.KernelIdeal.Val

end
-- ==== Proof.LibTripleJoin.lean ====
/-
  Three arrays laid end to end along an axis, read at an index.

  The join of three pieces along axis `a` finds where the axis coordinate falls among the pieces' extents `n₁, n₂, n₃`:
  below `n₁` it reads the first piece at the same coordinates; from `n₁` and below `n₁ + n₂` the second piece, the axis
  coordinate `n₁` less; from `n₁ + n₂` on the third piece, the axis coordinate `n₁ + n₂` less. For any shapes and any
  axis, and in particular for three vectors: an edge list followed by two lists of candidate edges.
-/
import Idealize.ShloMosaic.Lib.Pipeline.Value
import Idealize.ShloMosaic.Lib.ValueIdx

noncomputable section

namespace Cert.LibTripleJoin

open Idealize.ShloMosaic Idealize.ShloMosaic.ValueIdx

variable {α : Type}

/-- Where a position below the first extent falls: the first piece, at that position. -/
theorem locate_triple_fst (n₁ n₂ n₃ c : Nat) (h : c < [n₁, n₂, n₃].sum) (hc : c < n₁) :
    locate [n₁, n₂, n₃] c h = ⟨⟨0, by simp⟩, ⟨c, hc⟩⟩ := by
  rw [locate, dif_pos hc]

/-- Where a position from the first extent on and below the first two falls: the second piece, the first extent less. -/
theorem locate_triple_snd (n₁ n₂ n₃ c : Nat) (h : c < [n₁, n₂, n₃].sum) (hc : n₁ ≤ c) (hc2 : c - n₁ < n₂) :
    locate [n₁, n₂, n₃] c h = ⟨⟨1, by simp⟩, ⟨c - n₁, hc2⟩⟩ := by
  rw [locate, dif_neg (Nat.not_lt.2 hc), locate, dif_pos hc2]
  rfl

/-- Where a position from the first two extents on falls: the third piece, the first two extents less. -/
theorem locate_triple_thd (n₁ n₂ n₃ c : Nat) (h : c < [n₁, n₂, n₃].sum) (hc : n₁ ≤ c) (hc2 : n₂ ≤ c - n₁) :
    locate [n₁, n₂, n₃] c h = ⟨⟨2, by simp⟩, ⟨c - n₁ - n₂, by simp at h ⊢; omega⟩⟩ := by
  have h3 : c - n₁ - n₂ < n₃ := by simp at h; omega
  rw [locate, dif_neg (Nat.not_lt.2 hc), locate, dif_neg (Nat.not_lt.2 hc2), locate, dif_pos h3]
  rfl

/-- The extent of a piece along the joined axis, as the definition of the join spells it. -/
private abbrev ext (t : Shape) (a : Fin t.rank) (s : Shape) : ℕ :=
  if h' : s.rank = t.rank then s.size (a.cast h'.symm) else 0

/-- A three-piece join at an index whose axis coordinate falls in the FIRST piece reads the first piece at the index
    with the same coordinates. -/
theorem concatenate_triple_apply_first {t s₁ s₂ s₃ : Shape} (a : Fin t.rank) (x₁ : s₁.Idx → α) (x₂ : s₂.Idx → α)
    (x₃ : s₃.Idx → α) (h : Shape.Concatenates [s₁, s₂, s₃] t a) (j : t.Idx) (hr₁ : s₁.rank = t.rank) (i : s₁.Idx)
    (hi : ∀ b : Fin s₁.rank, (i b).val = (j (b.cast hr₁)).val) :
    concatenate t a [⟨s₁, x₁⟩, ⟨s₂, x₂⟩, ⟨s₃, x₃⟩] h j = x₁ i := by
  have hlt : (j a).val < s₁.size (a.cast hr₁.symm) := by
    have := hi (a.cast hr₁.symm); have hb := (i (a.cast hr₁.symm)).isLt; simp at this; omega
  have hr₂ : s₂.rank = t.rank := (h.2.1 s₂ (by simp)).1
  have hr₃ : s₃.rank = t.rank := (h.2.1 s₃ (by simp)).1
  have PF : (j a).val < [ext t a s₁, ext t a s₂, ext t a s₃].sum := by
    have e := h.2.2; simp only [List.map] at e; have := (j a).isLt
    show (j a).val < [if h' : s₁.rank = t.rank then s₁.size (a.cast h'.symm) else 0,
      if h' : s₂.rank = t.rank then s₂.size (a.cast h'.symm) else 0,
      if h' : s₃.rank = t.rank then s₃.size (a.cast h'.symm) else 0].sum
    omega
  have hD₁ : ext t a s₁ = s₁.size (a.cast hr₁.symm) := dif_pos hr₁
  have hD₂ : ext t a s₂ = s₂.size (a.cast hr₂.symm) := dif_pos hr₂
  have hD₃ : ext t a s₃ = s₃.size (a.cast hr₃.symm) := dif_pos hr₃
  let xs : List ((s : Shape) × (s.Idx → α)) := [⟨s₁, x₁⟩, ⟨s₂, x₂⟩, ⟨s₃, x₃⟩]
  have HR : ∀ (kr : (k : Fin 3) × Fin ([ext t a s₁, ext t a s₂, ext t a s₃][k])), (xs[kr.1.val]'(by simp [xs])).1.rank = t.rank := fun kr => by
    match kr with
    | ⟨⟨0, _⟩, _⟩ => exact hr₁
    | ⟨⟨1, _⟩, _⟩ => exact hr₂
    | ⟨⟨2, _⟩, _⟩ => exact hr₃
  have HK : ∀ (kr : (k : Fin 3) × Fin ([ext t a s₁, ext t a s₂, ext t a s₃][k])), ∀ b : Fin (xs[kr.1.val]'(by simp [xs])).1.rank, b.cast (HR kr) = a →
      [ext t a s₁, ext t a s₂, ext t a s₃][kr.1] = (xs[kr.1.val]'(by simp [xs])).1.size b := fun kr b hb => by
    have eb : b = a.cast (HR kr).symm := Fin.ext (by have := congrArg Fin.val hb; simpa using this)
    subst eb
    match kr with
    | ⟨⟨0, _⟩, _⟩ => simp [xs, ext, dif_pos hr₁]
    | ⟨⟨1, _⟩, _⟩ => simp [xs, ext, dif_pos hr₂]
    | ⟨⟨2, _⟩, _⟩ => simp [xs, ext, dif_pos hr₃]
  have HB : ∀ (kr : (k : Fin 3) × Fin ([ext t a s₁, ext t a s₂, ext t a s₃][k])), ∀ b : Fin (xs[kr.1.val]'(by simp [xs])).1.rank, b.cast (HR kr) ≠ a →
      t.size (b.cast (HR kr)) = (xs[kr.1.val]'(by simp [xs])).1.size b := fun kr b hb => by
    have hm : (xs[kr.1.val]'(by simp [xs])).1 ∈ [s₁, s₂, s₃] := by
      match kr with
      | ⟨⟨0, _⟩, _⟩ => simp [xs]
      | ⟨⟨1, _⟩, _⟩ => simp [xs]
      | ⟨⟨2, _⟩, _⟩ => simp [xs]
    have := (h.2.1 _ hm).2 (b.cast (HR kr)) hb
    simpa using this.symm
  have HC : (j a).val < ext t a s₁ := by rw [hD₁]; exact hlt
  have HL := locate_triple_fst _ (ext t a s₂) (ext t a s₃) _ PF HC
  show (fun (kr : (k : Fin 3) × Fin ([ext t a s₁, ext t a s₂, ext t a s₃][k])) =>
      (xs[kr.1.val]'(by simp [xs])).2 (fun b => if hb : b.cast (HR kr) = a then kr.2.cast (HK kr b hb) else (j (b.cast (HR kr))).cast (HB kr b hb)))
      (locate _ (j a).val PF) = x₁ i
  rw [HL]
  show x₁ _ = x₁ i
  congr 1
  funext b
  apply Fin.ext
  rw [hi b]
  split
  · next hb => rw [show Fin.cast hr₁ b = a from hb]; rfl
  · rfl

/-- A three-piece join at an index whose axis coordinate falls in the SECOND piece reads the second piece at the index
    with the same coordinates but on the axis, where it is the first piece's extent less. -/
theorem concatenate_triple_apply_second {t s₁ s₂ s₃ : Shape} (a : Fin t.rank) (x₁ : s₁.Idx → α) (x₂ : s₂.Idx → α)
    (x₃ : s₃.Idx → α) (h : Shape.Concatenates [s₁, s₂, s₃] t a) (j : t.Idx) (hr₁ : s₁.rank = t.rank)
    (hr₂' : s₂.rank = t.rank) (i : s₂.Idx)
    (hi : ∀ b : Fin s₂.rank, b.cast hr₂' ≠ a → (i b).val = (j (b.cast hr₂')).val)
    (ha : (i (a.cast hr₂'.symm)).val + s₁.size (a.cast hr₁.symm) = (j a).val) :
    concatenate t a [⟨s₁, x₁⟩, ⟨s₂, x₂⟩, ⟨s₃, x₃⟩] h j = x₂ i := by
  have hr₂ : s₂.rank = t.rank := (h.2.1 s₂ (by simp)).1
  have hr₃ : s₃.rank = t.rank := (h.2.1 s₃ (by simp)).1
  have PF : (j a).val < [ext t a s₁, ext t a s₂, ext t a s₃].sum := by
    have e := h.2.2; simp only [List.map] at e; have := (j a).isLt
    show (j a).val < [if h' : s₁.rank = t.rank then s₁.size (a.cast h'.symm) else 0,
      if h' : s₂.rank = t.rank then s₂.size (a.cast h'.symm) else 0,
      if h' : s₃.rank = t.rank then s₃.size (a.cast h'.symm) else 0].sum
    omega
  have hD₁ : ext t a s₁ = s₁.size (a.cast hr₁.symm) := dif_pos hr₁
  have hD₂ : ext t a s₂ = s₂.size (a.cast hr₂.symm) := dif_pos hr₂
  have hD₃ : ext t a s₃ = s₃.size (a.cast hr₃.symm) := dif_pos hr₃
  let xs : List ((s : Shape) × (s.Idx → α)) := [⟨s₁, x₁⟩, ⟨s₂, x₂⟩, ⟨s₃, x₃⟩]
  have HR : ∀ (kr : (k : Fin 3) × Fin ([ext t a s₁, ext t a s₂, ext t a s₃][k])), (xs[kr.1.val]'(by simp [xs])).1.rank = t.rank := fun kr => by
    match kr with
    | ⟨⟨0, _⟩, _⟩ => exact hr₁
    | ⟨⟨1, _⟩, _⟩ => exact hr₂
    | ⟨⟨2, _⟩, _⟩ => exact hr₃
  have HK : ∀ (kr : (k : Fin 3) × Fin ([ext t a s₁, ext t a s₂, ext t a s₃][k])), ∀ b : Fin (xs[kr.1.val]'(by simp [xs])).1.rank, b.cast (HR kr) = a →
      [ext t a s₁, ext t a s₂, ext t a s₃][kr.1] = (xs[kr.1.val]'(by simp [xs])).1.size b := fun kr b hb => by
    have eb : b = a.cast (HR kr).symm := Fin.ext (by have := congrArg Fin.val hb; simpa using this)
    subst eb
    match kr with
    | ⟨⟨0, _⟩, _⟩ => simp [xs, ext, dif_pos hr₁]
    | ⟨⟨1, _⟩, _⟩ => simp [xs, ext, dif_pos hr₂]
    | ⟨⟨2, _⟩, _⟩ => simp [xs, ext, dif_pos hr₃]
  have HB : ∀ (kr : (k : Fin 3) × Fin ([ext t a s₁, ext t a s₂, ext t a s₃][k])), ∀ b : Fin (xs[kr.1.val]'(by simp [xs])).1.rank, b.cast (HR kr) ≠ a →
      t.size (b.cast (HR kr)) = (xs[kr.1.val]'(by simp [xs])).1.size b := fun kr b hb => by
    have hm : (xs[kr.1.val]'(by simp [xs])).1 ∈ [s₁, s₂, s₃] := by
      match kr with
      | ⟨⟨0, _⟩, _⟩ => simp [xs]
      | ⟨⟨1, _⟩, _⟩ => simp [xs]
      | ⟨⟨2, _⟩, _⟩ => simp [xs]
    have := (h.2.1 _ hm).2 (b.cast (HR kr)) hb
    simpa using this.symm
  have hib := (i (a.cast hr₂'.symm)).isLt
  have HC : ext t a s₁ ≤ (j a).val := by rw [hD₁]; omega
  have HC2 : (j a).val - ext t a s₁ < ext t a s₂ := by rw [hD₁, hD₂]; omega
  have HL := locate_triple_snd _ _ (ext t a s₃) _ PF HC HC2
  show (fun (kr : (k : Fin 3) × Fin ([ext t a s₁, ext t a s₂, ext t a s₃][k])) =>
      (xs[kr.1.val]'(by simp [xs])).2 (fun b => if hb : b.cast (HR kr) = a then kr.2.cast (HK kr b hb) else (j (b.cast (HR kr))).cast (HB kr b hb)))
      (locate _ (j a).val PF) = x₂ i
  rw [HL]
  show x₂ _ = x₂ i
  congr 1
  funext b
  apply Fin.ext
  split
  · next hb =>
    have eb : b = a.cast hr₂'.symm := Fin.ext (by have := congrArg Fin.val hb; simpa using this)
    subst eb
    show (j a).val - ext t a s₁ = _
    omega
  · next hb => exact (hi b hb).symm

/-- A three-piece join at an index whose axis coordinate falls in the THIRD piece reads the third piece at the index
    with the same coordinates but on the axis, where it is the first two pieces' extents less. -/
theorem concatenate_triple_apply_third {t s₁ s₂ s₃ : Shape} (a : Fin t.rank) (x₁ : s₁.Idx → α) (x₂ : s₂.Idx → α)
    (x₃ : s₃.Idx → α) (h : Shape.Concatenates [s₁, s₂, s₃] t a) (j : t.Idx) (hr₁ : s₁.rank = t.rank)
    (hr₂' : s₂.rank = t.rank) (hr₃' : s₃.rank = t.rank) (i : s₃.Idx)
    (hi : ∀ b : Fin s₃.rank, b.cast hr₃' ≠ a → (i b).val = (j (b.cast hr₃')).val)
    (ha : (i (a.cast hr₃'.symm)).val + s₁.size (a.cast hr₁.symm) + s₂.size (a.cast hr₂'.symm) = (j a).val) :
    concatenate t a [⟨s₁, x₁⟩, ⟨s₂, x₂⟩, ⟨s₃, x₃⟩] h j = x₃ i := by
  have hr₂ : s₂.rank = t.rank := (h.2.1 s₂ (by simp)).1
  have hr₃ : s₃.rank = t.rank := (h.2.1 s₃ (by simp)).1
  have PF : (j a).val < [ext t a s₁, ext t a s₂, ext t a s₃].sum := by
    have e := h.2.2; simp only [List.map] at e; have := (j a).isLt
    show (j a).val < [if h' : s₁.rank = t.rank then s₁.size (a.cast h'.symm) else 0,
      if h' : s₂.rank = t.rank then s₂.size (a.cast h'.symm) else 0,
      if h' : s₃.rank = t.rank then s₃.size (a.cast h'.symm) else 0].sum
    omega
  have hD₁ : ext t a s₁ = s₁.size (a.cast hr₁.symm) := dif_pos hr₁
  have hD₂ : ext t a s₂ = s₂.size (a.cast hr₂.symm) := dif_pos hr₂
  have hD₃ : ext t a s₃ = s₃.size (a.cast hr₃.symm) := dif_pos hr₃
  let xs : List ((s : Shape) × (s.Idx → α)) := [⟨s₁, x₁⟩, ⟨s₂, x₂⟩, ⟨s₃, x₃⟩]
  have HR : ∀ (kr : (k : Fin 3) × Fin ([ext t a s₁, ext t a s₂, ext t a s₃][k])), (xs[kr.1.val]'(by simp [xs])).1.rank = t.rank := fun kr => by
    match kr with
    | ⟨⟨0, _⟩, _⟩ => exact hr₁
    | ⟨⟨1, _⟩, _⟩ => exact hr₂
    | ⟨⟨2, _⟩, _⟩ => exact hr₃
  have HK : ∀ (kr : (k : Fin 3) × Fin ([ext t a s₁, ext t a s₂, ext t a s₃][k])), ∀ b : Fin (xs[kr.1.val]'(by simp [xs])).1.rank, b.cast (HR kr) = a →
      [ext t a s₁, ext t a s₂, ext t a s₃][kr.1] = (xs[kr.1.val]'(by simp [xs])).1.size b := fun kr b hb => by
    have eb : b = a.cast (HR kr).symm := Fin.ext (by have := congrArg Fin.val hb; simpa using this)
    subst eb
    match kr with
    | ⟨⟨0, _⟩, _⟩ => simp [xs, ext, dif_pos hr₁]
    | ⟨⟨1, _⟩, _⟩ => simp [xs, ext, dif_pos hr₂]
    | ⟨⟨2, _⟩, _⟩ => simp [xs, ext, dif_pos hr₃]
  have HB : ∀ (kr : (k : Fin 3) × Fin ([ext t a s₁, ext t a s₂, ext t a s₃][k])), ∀ b : Fin (xs[kr.1.val]'(by simp [xs])).1.rank, b.cast (HR kr) ≠ a →
      t.size (b.cast (HR kr)) = (xs[kr.1.val]'(by simp [xs])).1.size b := fun kr b hb => by
    have hm : (xs[kr.1.val]'(by simp [xs])).1 ∈ [s₁, s₂, s₃] := by
      match kr with
      | ⟨⟨0, _⟩, _⟩ => simp [xs]
      | ⟨⟨1, _⟩, _⟩ => simp [xs]
      | ⟨⟨2, _⟩, _⟩ => simp [xs]
    have := (h.2.1 _ hm).2 (b.cast (HR kr)) hb
    simpa using this.symm
  have HC : ext t a s₁ ≤ (j a).val := by rw [hD₁]; omega
  have HC2 : ext t a s₂ ≤ (j a).val - ext t a s₁ := by rw [hD₁, hD₂]; omega
  have HL := locate_triple_thd _ _ (ext t a s₃) _ PF HC HC2
  show (fun (kr : (k : Fin 3) × Fin ([ext t a s₁, ext t a s₂, ext t a s₃][k])) =>
      (xs[kr.1.val]'(by simp [xs])).2 (fun b => if hb : b.cast (HR kr) = a then kr.2.cast (HK kr b hb) else (j (b.cast (HR kr))).cast (HB kr b hb)))
      (locate _ (j a).val PF) = x₃ i
  rw [HL]
  show x₃ _ = x₃ i
  congr 1
  funext b
  apply Fin.ext
  split
  · next hb =>
    have eb : b = a.cast hr₃'.symm := Fin.ext (by have := congrArg Fin.val hb; simpa using this)
    subst eb
    show (j a).val - ext t a s₁ - ext t a s₂ = _
    omega
  · next hb => exact (hi b hb).symm

/-! ## Three vectors end to end -/

/-- Three vectors end to end: entry `k'` below the first length is the first vector's. -/
theorem cat3_vec_first {a b c n : ℕ} (x : (⟨1, ![a]⟩ : Shape).Idx → α) (y : (⟨1, ![b]⟩ : Shape).Idx → α)
    (z : (⟨1, ![c]⟩ : Shape).Idx → α) (h : Shape.Concatenates [⟨1, ![a]⟩, ⟨1, ![b]⟩, ⟨1, ![c]⟩] ⟨1, ![n]⟩ 0)
    (k : Fin a) (k' : Fin n) (hk : k'.val = k.val) :
    concatenate ⟨1, ![n]⟩ 0 [⟨⟨1, ![a]⟩, x⟩, ⟨⟨1, ![b]⟩, y⟩, ⟨⟨1, ![c]⟩, z⟩] h (ix1 k') = x (ix1 k) := by
  refine concatenate_triple_apply_first (0 : Fin 1) x y z h (ix1 k') rfl (ix1 k) fun b' => ?_
  match b' with
  | ⟨0, _⟩ => exact hk.symm

/-- Three vectors end to end: entry `a + k` is the second vector's entry `k`. -/
theorem cat3_vec_second {a b c n : ℕ} (x : (⟨1, ![a]⟩ : Shape).Idx → α) (y : (⟨1, ![b]⟩ : Shape).Idx → α)
    (z : (⟨1, ![c]⟩ : Shape).Idx → α) (h : Shape.Concatenates [⟨1, ![a]⟩, ⟨1, ![b]⟩, ⟨1, ![c]⟩] ⟨1, ![n]⟩ 0)
    (k : Fin b) (k' : Fin n) (hk : k'.val = a + k.val) :
    concatenate ⟨1, ![n]⟩ 0 [⟨⟨1, ![a]⟩, x⟩, ⟨⟨1, ![b]⟩, y⟩, ⟨⟨1, ![c]⟩, z⟩] h (ix1 k') = y (ix1 k) := by
  refine concatenate_triple_apply_second (0 : Fin 1) x y z h (ix1 k') rfl rfl (ix1 k) (fun b' hb => ?_) ?_
  · match b' with
    | ⟨0, _⟩ => exact absurd rfl hb
  · show k.val + a = k'.val
    omega

/-- Three vectors end to end: entry `a + b + k` is the third vector's entry `k`. -/
theorem cat3_vec_third {a b c n : ℕ} (x : (⟨1, ![a]⟩ : Shape).Idx → α) (y : (⟨1, ![b]⟩ : Shape).Idx → α)
    (z : (⟨1, ![c]⟩ : Shape).Idx → α) (h : Shape.Concatenates [⟨1, ![a]⟩, ⟨1, ![b]⟩, ⟨1, ![c]⟩] ⟨1, ![n]⟩ 0)
    (k : Fin c) (k' : Fin n) (hk : k'.val = a + b + k.val) :
    concatenate ⟨1, ![n]⟩ 0 [⟨⟨1, ![a]⟩, x⟩, ⟨⟨1, ![b]⟩, y⟩, ⟨⟨1, ![c]⟩, z⟩] h (ix1 k') = z (ix1 k) := by
  refine concatenate_triple_apply_third (0 : Fin 1) x y z h (ix1 k') rfl rfl rfl (ix1 k) (fun b' hb => ?_) ?_
  · match b' with
    | ⟨0, _⟩ => exact absurd rfl hb
  · show k.val + a + b = k'.val
    omega

end Cert.LibTripleJoin

end
-- ==== Proof.LibConcatParts.lean ====
/-
  Joins of two, three and four arrays as functions of their parts, and what a host line that joins three or four
  buffers leaves in its result.

  The join operation takes its parts as a list of arrays, each paired with its shape, and a side condition stated
  over that list's shapes; a statement about one part therefore cannot be rewritten in place. Read as a function of
  the parts, with the side condition stated over the shapes alone, the parts are ordinary arguments, and a term that
  evaluates the buffers a program's lines write, one rewriting pass at a time, goes on through a join's operands
  instead of stopping at it. The parts may have different shapes (they differ along the joined axis).
-/
import Idealize.ShloMosaic.PureOps
import Idealize.ShloMosaic.Lib.StableHlo.Run

namespace Cert.LibConcatParts

open Idealize.ShloMosaic Idealize.ShloMosaic.StableHlo

/-- The join of two parts along axis `a` of the result shape `t`, as a function of the parts. -/
def cat2 {α : Type} (t : Shape) (a : Fin t.rank) (s₁ s₂ : Shape) (h : Shape.Concatenates [s₁, s₂] t a)
    (x₁ : s₁.Idx → α) (x₂ : s₂.Idx → α) : t.Idx → α := concatenate t a [⟨s₁, x₁⟩, ⟨s₂, x₂⟩] h

/-- The join of three parts. -/
def cat3 {α : Type} (t : Shape) (a : Fin t.rank) (s₁ s₂ s₃ : Shape) (h : Shape.Concatenates [s₁, s₂, s₃] t a)
    (x₁ : s₁.Idx → α) (x₂ : s₂.Idx → α) (x₃ : s₃.Idx → α) : t.Idx → α :=
  concatenate t a [⟨s₁, x₁⟩, ⟨s₂, x₂⟩, ⟨s₃, x₃⟩] h

/-- The join of four parts. -/
def cat4 {α : Type} (t : Shape) (a : Fin t.rank) (s₁ s₂ s₃ s₄ : Shape) (h : Shape.Concatenates [s₁, s₂, s₃, s₄] t a)
    (x₁ : s₁.Idx → α) (x₂ : s₂.Idx → α) (x₃ : s₃.Idx → α) (x₄ : s₄.Idx → α) : t.Idx → α :=
  concatenate t a [⟨s₁, x₁⟩, ⟨s₂, x₂⟩, ⟨s₃, x₃⟩, ⟨s₄, x₄⟩] h

theorem concatenate_two {α : Type} (t : Shape) (a : Fin t.rank) (s₁ s₂ : Shape) (x₁ : s₁.Idx → α) (x₂ : s₂.Idx → α)
    (h : Shape.Concatenates [s₁, s₂] t a) : concatenate t a [⟨s₁, x₁⟩, ⟨s₂, x₂⟩] h = cat2 t a s₁ s₂ h x₁ x₂ := rfl

theorem concatenate_three {α : Type} (t : Shape) (a : Fin t.rank) (s₁ s₂ s₃ : Shape) (x₁ : s₁.Idx → α) (x₂ : s₂.Idx → α)
    (x₃ : s₃.Idx → α) (h : Shape.Concatenates [s₁, s₂, s₃] t a) :
    concatenate t a [⟨s₁, x₁⟩, ⟨s₂, x₂⟩, ⟨s₃, x₃⟩] h = cat3 t a s₁ s₂ s₃ h x₁ x₂ x₃ := rfl

theorem concatenate_four {α : Type} (t : Shape) (a : Fin t.rank) (s₁ s₂ s₃ s₄ : Shape) (x₁ : s₁.Idx → α) (x₂ : s₂.Idx → α)
    (x₃ : s₃.Idx → α) (x₄ : s₄.Idx → α) (h : Shape.Concatenates [s₁, s₂, s₃, s₄] t a) :
    concatenate t a [⟨s₁, x₁⟩, ⟨s₂, x₂⟩, ⟨s₃, x₃⟩, ⟨s₄, x₄⟩] h = cat4 t a s₁ s₂ s₃ s₄ h x₁ x₂ x₃ x₄ := rfl

section Lines

variable {τ : Topo} {sig : RefSig} {Val : EltTy → Type}
variable {x a b c y : Ref sig .tc}

/-- A host line over a literal family of THREE buffers leaves in its result buffer its function of the three
    buffers' contents, each read at its own buffer. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

end Lines

end Cert.LibConcatParts
-- ==== Proof.HostRead.lean ====
/-
  What the host lines before the first kernel leave: the three weight matrices transposed and laid side by side as
  one [1024, 3072] matrix, and the three bias vectors end to end as one vector of 3072 entries.

  Column e of the first stretch of the joined matrix is row e of Wq (entry (k, e) of the transpose is entry (e, k)),
  column 1024 + e is row e of Wk, column 2048 + e is row e of Wv; likewise entries e, 1024 + e, 2048 + e of the joined
  bias are entry e of bq, bk, bv.  A change of float format is the identity on extended reals.
-/
import proofs.«143292_j35038343201280_2_alg».proof.Proof.Gen.KernelIdeal.Launch
import proofs.«143292_j35038343201280_2_alg».proof.Proof.LibTripleJoin
import proofs.«143292_j35038343201280_2_alg».proof.Proof.LibConcatParts
import Idealize.ShloMosaic.Lib.StableHlo.Run
import Idealize.ShloMosaic.Lib.ValueLayout
import Idealize.ShloMosaic.Lib.ValueIdx

noncomputable section

namespace Cert.KernelIdeal.Val

open Cert.KernelIdeal Cert.KernelIdeal.Gen Idealize.ShloMosaic Idealize.ShloMosaic.TcCoe Idealize.ShloMosaic.ValueIdx
open Idealize.ShloMosaic.StableHlo Cert.LibTripleJoin

/-- The three matrices transposed and joined along the columns, in the narrower float format. -/
def wcat (w1 w3 w5 : FVec Ideal S1024x1024 .f32) : FVec Ideal S1024x3072 .bf16 :=
  truncf .bf16 (concatenate S1024x3072 1 [⟨S1024x1024, transpose S1024x1024 [1, 0] w1 transposes_S1024x1024_S1024x1024_1_0⟩,
    ⟨S1024x1024, transpose S1024x1024 [1, 0] w3 transposes_S1024x1024_S1024x1024_1_0⟩,
    ⟨S1024x1024, transpose S1024x1024 [1, 0] w5 transposes_S1024x1024_S1024x1024_1_0⟩]
    concatenates_S1024x1024_S1024x1024_S1024x1024_S1024x3072_d1) bitsLt_bf16_f32

/-- The three vectors end to end. -/
def bcat (b2 b4 b6 : FVec Ideal S1024 .f32) : FVec Ideal S3072 .f32 :=
  concatenate S3072 0 [⟨S1024, b2⟩, ⟨S1024, b4⟩, ⟨S1024, b6⟩] concatenates_S1024_S1024_S1024_S3072_d0

/-- The three transposed matrices, named. -/
abbrev tr (w : FVec Ideal S1024x1024 .f32) : FVec Ideal S1024x1024 .f32 :=
  transpose S1024x1024 [1, 0] w transposes_S1024x1024_S1024x1024_1_0

theorem wcat_first (w1 w3 w5 : FVec Ideal S1024x1024 .f32) (k e : Fin 1024) (q : Fin 3072) (hq : q.val = e.val) :
    wcat w1 w3 w5 (ix2 k q) = w1 (ix2 e k) := by
  refine (concatenate_triple_apply_first (t := S1024x3072) (s₁ := S1024x1024) (s₂ := S1024x1024) (s₃ := S1024x1024) (1 : Fin 2)
    (tr w1) (tr w3) (tr w5) concatenates_S1024x1024_S1024x1024_S1024x1024_S1024x3072_d1 (ix2 k q) rfl (ix2 k e) fun b' => ?_).trans
    (transpose_ix2_apply w1 _ k e)
  match b' with
  | ⟨0, _⟩ => rfl
  | ⟨1, _⟩ => exact hq.symm

theorem wcat_second (w1 w3 w5 : FVec Ideal S1024x1024 .f32) (k e : Fin 1024) (q : Fin 3072) (hq : q.val = 1024 + e.val) :
    wcat w1 w3 w5 (ix2 k q) = w3 (ix2 e k) := by
  refine (concatenate_triple_apply_second (t := S1024x3072) (s₁ := S1024x1024) (s₂ := S1024x1024) (s₃ := S1024x1024) (1 : Fin 2)
    (tr w1) (tr w3) (tr w5) concatenates_S1024x1024_S1024x1024_S1024x1024_S1024x3072_d1 (ix2 k q) rfl rfl (ix2 k e) (fun b' hb => ?_) ?_).trans
    (transpose_ix2_apply w3 _ k e)
  · match b' with
    | ⟨0, _⟩ => rfl
    | ⟨1, _⟩ => exact absurd rfl hb
  · show e.val + 1024 = q.val
    omega

theorem wcat_third (w1 w3 w5 : FVec Ideal S1024x1024 .f32) (k e : Fin 1024) (q : Fin 3072) (hq : q.val = 2048 + e.val) :
    wcat w1 w3 w5 (ix2 k q) = w5 (ix2 e k) := by
  refine (concatenate_triple_apply_third (t := S1024x3072) (s₁ := S1024x1024) (s₂ := S1024x1024) (s₃ := S1024x1024) (1 : Fin 2)
    (tr w1) (tr w3) (tr w5) concatenates_S1024x1024_S1024x1024_S1024x1024_S1024x3072_d1 (ix2 k q) rfl rfl rfl (ix2 k e) (fun b' hb => ?_) ?_).trans
    (transpose_ix2_apply w5 _ k e)
  · match b' with
    | ⟨0, _⟩ => rfl
    | ⟨1, _⟩ => exact absurd rfl hb
  · show e.val + 1024 + 1024 = q.val
    omega

theorem bcat_first (b2 b4 b6 : FVec Ideal S1024 .f32) (e : Fin 1024) (q : Fin 3072) (hq : q.val = e.val) :
    bcat b2 b4 b6 (ix1 q) = b2 (ix1 e) := cat3_vec_first b2 b4 b6 _ e q hq
theorem bcat_second (b2 b4 b6 : FVec Ideal S1024 .f32) (e : Fin 1024) (q : Fin 3072) (hq : q.val = 1024 + e.val) :
    bcat b2 b4 b6 (ix1 q) = b4 (ix1 e) := cat3_vec_second b2 b4 b6 _ e q hq
theorem bcat_third (b2 b4 b6 : FVec Ideal S1024 .f32) (e : Fin 1024) (q : Fin 3072) (hq : q.val = 2048 + e.val) :
    bcat b2 b4 b6 (ix1 q) = b6 (ix1 e) := cat3_vec_third b2 b4 b6 _ e q (by omega)

end Cert.KernelIdeal.Val

end
-- ==== Proof.Blocks0.lean ====
/-
  From blocks to arrays, first kernel: queries, keys and values as whole arrays.

  The grid has 8 x 8 points; point t works on batch t / 8 and on rows (t % 8) * 256 .. + 255 of that batch: it reads
  that block of x (all columns), the whole of gamma, beta, the joined matrix and the joined bias, and writes back that
  block of each of the three results.  The 64 blocks tile each result, and what a point writes is the block of ONE
  function of the arrays: the affine map of the layer norm, with the weight rows and bias entries the joined
  matrix holds at columns e, 1024 + e and 2048 + e.
-/
import proofs.«143292_j35038343201280_2_alg».proof.Proof.KI.Region0
import proofs.«143292_j35038343201280_2_alg».proof.Proof.Pay0
import proofs.«143292_j35038343201280_2_alg».proof.Proof.HostRead
import proofs.«143292_j35038343201280_2_alg».proof.Proof.Spec
import Idealize.ShloMosaic.Lib.Pipeline.Value
import Idealize.ShloMosaic.Lib.ValueIdx

set_option maxRecDepth 16384

open scoped BigOperators

noncomputable section

namespace Cert.KernelIdeal.Val

open Cert.KernelIdeal Cert.KernelIdeal.Gen Cert.KernelIdeal.Fr Idealize.ShloMosaic Idealize.ShloMosaic.TcCoe
open Idealize.ShloMosaic.ValueIdx Cert.Spec
open Idealize.ShloMosaic.Pipeline (Dat)

variable (V : (c : Dev nD) → (b : Ref sig .tc) → Buf (Elt Ideal) ((c : Thread nD τ).loc b)) (c : Dev nD)

/-- The printed index maps over the grid: point t is batch t / 8, row block t % 8; the whole-array windows sit at 0. -/
theorem idx0 : ∀ t : Fin cfg0.N,
    win0_0.index t (0 : Fin 3) = t.val / 8 ∧ win0_0.index t (1 : Fin 3) = t.val % 8 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 3) = t.val / 8 ∧ win0_5.index t (1 : Fin 3) = t.val % 8 ∧ win0_5.index t (2 : Fin 3) = 0
    ∧ win0_6.index t (0 : Fin 3) = t.val / 8 ∧ win0_6.index t (1 : Fin 3) = t.val % 8 ∧ win0_6.index t (2 : Fin 3) = 0
    ∧ win0_7.index t (0 : Fin 3) = t.val / 8 ∧ win0_7.index t (1 : Fin 3) = t.val % 8 ∧ win0_7.index t (2 : Fin 3) = 0 :=
  (by decide +kernel : ∀ t : Fin grid0.N, _)

theorem t_lt0 (t : Fin cfg0.N) : t.val < 64 := lt_of_lt_of_eq t.isLt N_0

/-- The batch and the rows of point t. -/
def bOf0 (t : Fin cfg0.N) : Fin 8 := ⟨t.val / 8, by have := t_lt0 t; omega⟩
def rowOf0 (t : Fin cfg0.N) (p : Fin 256) : Fin 2048 := ⟨(t.val % 8) * 256 + p.val, by have := p.isLt; omega⟩

/-- The block of x at point t, by coordinates. -/
theorem blk0_x (t : Fin cfg0.N) (u : Fin 1) (p : Fin 256) (k : Fin 1024) :
    iblk0 V c 0 t (ix3 u p k) = V c main_arg0 (ix3 (bOf0 t) (rowOf0 t p) k) := by
  show V c main_arg0 (((cfg0.win 0).blk t).view.emb (ix3 u p k)) = V c main_arg0 (ix3 (bOf0 t) (rowOf0 t p) k)
  refine congrArg (V c main_arg0) (funext fun a => Fin.ext ?_)
  obtain ⟨e0, e1, e2, -⟩ := idx0 t
  have hu : u.val = 0 := by omega
  match a with
  | ⟨0, _⟩ => show win0_0.index t (0 : Fin 3) * 1 + 1 * u.val = t.val / 8; omega
  | ⟨1, _⟩ => show win0_0.index t (1 : Fin 3) * 256 + 1 * p.val = (t.val % 8) * 256 + p.val; omega
  | ⟨2, _⟩ => show win0_0.index t (2 : Fin 3) * 1024 + 1 * k.val = k.val; omega

/-- The whole-array windows read their arrays. -/
theorem blk0_g (t : Fin cfg0.N) (k : Fin 1024) : iblk0 V c 1 t (ix1 k) = V c main_arg7 (ix1 k) := by
  show V c main_arg7 (((cfg0.win 1).blk t).view.emb (ix1 k)) = V c main_arg7 (ix1 k)
  refine congrArg (V c main_arg7) (funext fun a => Fin.ext ?_)
  obtain ⟨-, -, -, e3, -⟩ := idx0 t
  match a with
  | ⟨0, _⟩ => show win0_1.index t (0 : Fin 1) * 1024 + 1 * k.val = k.val; omega
theorem blk0_b (t : Fin cfg0.N) (k : Fin 1024) : iblk0 V c 2 t (ix1 k) = V c main_arg8 (ix1 k) := by
  show V c main_arg8 (((cfg0.win 2).blk t).view.emb (ix1 k)) = V c main_arg8 (ix1 k)
  refine congrArg (V c main_arg8) (funext fun a => Fin.ext ?_)
  obtain ⟨-, -, -, -, e4, -⟩ := idx0 t
  match a with
  | ⟨0, _⟩ => show win0_2.index t (0 : Fin 1) * 1024 + 1 * k.val = k.val; omega
theorem blk0_w (t : Fin cfg0.N) (k : Fin 1024) (q : Fin 3072) : iblk0 V c 3 t (ix2 k q) = V c main_v4 (ix2 k q) := by
  show V c main_v4 (((cfg0.win 3).blk t).view.emb (ix2 k q)) = V c main_v4 (ix2 k q)
  refine congrArg (V c main_v4) (funext fun a => Fin.ext ?_)
  obtain ⟨-, -, -, -, -, e5, e6, -⟩ := idx0 t
  match a with
  | ⟨0, _⟩ => show win0_3.index t (0 : Fin 2) * 1024 + 1 * k.val = k.val; omega
  | ⟨1, _⟩ => show win0_3.index t (1 : Fin 2) * 3072 + 1 * q.val = q.val; omega
theorem blk0_bias (t : Fin cfg0.N) (q : Fin 3072) : iblk0 V c 4 t (ix1 q) = V c main_v5 (ix1 q) := by
  show V c main_v5 (((cfg0.win 4).blk t).view.emb (ix1 q)) = V c main_v5 (ix1 q)
  refine congrArg (V c main_v5) (funext fun a => Fin.ext ?_)
  obtain ⟨-, -, -, -, -, -, -, e7, -⟩ := idx0 t
  match a with
  | ⟨0, _⟩ => show win0_4.index t (0 : Fin 1) * 3072 + 1 * q.val = q.val; omega

/-- Row s of batch b against the columns off + e of a joined matrix, plus the joined bias there. -/
def projCols (xn : Rows) (Wc : Fin 1024 → Fin 3072 → EReal) (bc : Fin 3072 → EReal) (off : ℕ) (hoff : off + 1024 ≤ 3072) : Rows :=
  fun b s e => (∑ k : Fin 1024, xn b s k * Wc k ⟨off + e.val, by have := e.isLt; omega⟩) + bc ⟨off + e.val, by have := e.isLt; omega⟩

/-! ## Output window 5: the stretch of columns from 0 -/

/-- What point t writes back to window 5 is block t of the one function. -/
theorem flushed0_5 (Wc : Fin 1024 → Fin 3072 → EReal) (bc : Fin 3072 → EReal)
    (hw : ∀ k q, V c main_v4 (ix2 k q) = Wc k q) (hbias : ∀ q, V c main_v5 (ix1 q) = bc q) (t : Fin cfg0.N) :
    (dat0 V c).flushed 5 t = ((cfg0.win 5).blk t).view.read (Elt Ideal)
      (arr3 (projCols (lnorm (cur3 (V c main_arg0)) (cur1 (V c main_arg7)) (cur1 (V c main_arg8))) Wc bc 0 (by omega))) := by
  show (cfg0.win 5).cut (grid0.coords t) ((dat0 V c).after 5 t) = _
  rw [after0_5, out0_5_eq, pay4_eq]
  funext y
  obtain ⟨u, p, e, rfl⟩ : ∃ (u : Fin 1) (p : Fin 256) (e : Fin 1024), y = ix3 u p e := ⟨y 0, y 1, y 2, eq_ix3 y⟩
  have hemb : ((cfg0.win 5).blk t).view.emb (ix3 u p e) = ix3 (bOf0 t) (rowOf0 t p) e := by
    funext a; apply Fin.ext
    have e0 := (idx0 t).2.2.2.2.2.2.2.2
    have hu : u.val = 0 := by omega
    match a with
    | ⟨0, _⟩ => show win0_5.index t (0 : Fin 3) * 1 + 1 * u.val = t.val / 8; omega
    | ⟨1, _⟩ => show win0_5.index t (1 : Fin 3) * 256 + 1 * p.val = (t.val % 8) * 256 + p.val; omega
    | ⟨2, _⟩ => show win0_5.index t (2 : Fin 3) * 1024 + 1 * e.val = e.val; omega
  show shapeCast S1x256x1024 (truncf .bf16 (extractStridedSlice S256x1024 ![0, 0]
      (k0_pay3 (F := Ideal) (iblk0 V c 0 t) (iblk0 V c 1 t) (iblk0 V c 2 t) (iblk0 V c 3 t) (iblk0 V c 4 t)) slices_S256x3072_o0_0_S256x1024) bitsLt_bf16_f32)
      shapeCasts_S256x1024_S1x256x1024 (ix3 u p e)
      = arr3 (projCols (lnorm (cur3 (V c main_arg0)) (cur1 (V c main_arg7)) (cur1 (V c main_arg8))) Wc bc 0 (by omega))
          (((cfg0.win 5).blk t).view.emb (ix3 u p e))
  rw [hemb, arr3_ix3]
  exact store_point (iblk0 V c 0 t) (iblk0 V c 1 t) (iblk0 V c 2 t) (iblk0 V c 3 t) (iblk0 V c 4 t)
    (cur3 (V c main_arg0)) (cur1 (V c main_arg7)) (cur1 (V c main_arg8)) (bOf0 t) (rowOf0 t) Wc bc
    (fun p' k' => blk0_x V c t 0 p' k') (fun k' => blk0_g V c t k') (fun k' => blk0_b V c t k')
    (fun k' q' => (blk0_w V c t k' q').trans (hw k' q')) (fun q' => (blk0_bias V c t q').trans (hbias q'))
    0 slices_S256x3072_o0_0_S256x1024 (by omega) u p e

/-- An index is in point t's block of window 5 iff each coordinate is in the block's range. -/
theorem mem_blk0_5 (t : Fin cfg0.N) (i : S8x2048x1024.Idx) :
    i ∈ ((cfg0.win 5).blk t).view.set ↔ ∀ a : Fin 3, win0_5.index t a * S1x256x1024.size a ≤ (i a).val
      ∧ (i a).val < win0_5.index t a * S1x256x1024.size a + S1x256x1024.size a := by
  show i ∈ ((View.whole main_v6_0).slice (win0_5.rect t)).set ↔ _
  rw [View.set_slice_whole, Rect.mem_set_unit]
  exact Iff.rfl

/-- Every index of the array is in some point's block: batch b, row r sits in point b * 8 + r / 256. -/
theorem cover0_5 (i : S8x2048x1024.Idx) :
    ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 1024 := (i 2).isLt
  have hN : (i 0).val * 8 + (i 1).val / 256 < cfg0.N := by show _ < grid0.N; rw [N_0]; omega
  refine ⟨⟨(i 0).val * 8 + (i 1).val / 256, hN⟩, flush0_5 _, ?_⟩
  rw [mem_blk0_5]
  have e0 := (idx0 ⟨(i 0).val * 8 + (i 1).val / 256, hN⟩).2.2.2.2.2.2.2.2
  have ht : (⟨(i 0).val * 8 + (i 1).val / 256, hN⟩ : Fin cfg0.N).val = (i 0).val * 8 + (i 1).val / 256 := rfl
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 256 ≤ (i 1).val ∧ (i 1).val < win0_5.index _ (1 : Fin 3) * 256 + 256; omega
  | ⟨2, _⟩ => show win0_5.index _ (2 : Fin 3) * 1024 ≤ (i 2).val ∧ (i 2).val < win0_5.index _ (2 : Fin 3) * 1024 + 1024; omega

/-- The array window 5 ends holding. -/
theorem final0_5 (Wc : Fin 1024 → Fin 3072 → EReal) (bc : Fin 3072 → EReal)
    (hw : ∀ k q, V c main_v4 (ix2 k q) = Wc k q) (hbias : ∀ q, V c main_v5 (ix1 q) = bc q) :
    (dat0 V c).arrAt 5 cfg0.N
      = arr3 (projCols (lnorm (cur3 (V c main_arg0)) (cur1 (V c main_arg7)) (cur1 (V c main_arg8))) Wc bc 0 (by omega)) :=
  (dat0 V c).arrAt_eq_of_cover 5 _ (fun t _ => flushed0_5 V c Wc bc hw hbias t) cover0_5

/-! ## Output window 6: the stretch of columns from 1024 -/

/-- What point t writes back to window 6 is block t of the one function. -/
theorem flushed0_6 (Wc : Fin 1024 → Fin 3072 → EReal) (bc : Fin 3072 → EReal)
    (hw : ∀ k q, V c main_v4 (ix2 k q) = Wc k q) (hbias : ∀ q, V c main_v5 (ix1 q) = bc q) (t : Fin cfg0.N) :
    (dat0 V c).flushed 6 t = ((cfg0.win 6).blk t).view.read (Elt Ideal)
      (arr3 (projCols (lnorm (cur3 (V c main_arg0)) (cur1 (V c main_arg7)) (cur1 (V c main_arg8))) Wc bc 1024 (by omega))) := by
  show (cfg0.win 6).cut (grid0.coords t) ((dat0 V c).after 6 t) = _
  rw [after0_6, out0_6_eq, pay1_eq0]
  funext y
  obtain ⟨u, p, e, rfl⟩ : ∃ (u : Fin 1) (p : Fin 256) (e : Fin 1024), y = ix3 u p e := ⟨y 0, y 1, y 2, eq_ix3 y⟩
  have hemb : ((cfg0.win 6).blk t).view.emb (ix3 u p e) = ix3 (bOf0 t) (rowOf0 t p) e := by
    funext a; apply Fin.ext
    have e0 := (idx0 t).2.2.2.2.2.2.2.2.2.2.2
    have hu : u.val = 0 := by omega
    match a with
    | ⟨0, _⟩ => show win0_6.index t (0 : Fin 3) * 1 + 1 * u.val = t.val / 8; omega
    | ⟨1, _⟩ => show win0_6.index t (1 : Fin 3) * 256 + 1 * p.val = (t.val % 8) * 256 + p.val; omega
    | ⟨2, _⟩ => show win0_6.index t (2 : Fin 3) * 1024 + 1 * e.val = e.val; omega
  show shapeCast S1x256x1024 (truncf .bf16 (extractStridedSlice S256x1024 ![0, 1024]
      (k0_pay3 (F := Ideal) (iblk0 V c 0 t) (iblk0 V c 1 t) (iblk0 V c 2 t) (iblk0 V c 3 t) (iblk0 V c 4 t)) slices_S256x3072_o0_1024_S256x1024) bitsLt_bf16_f32)
      shapeCasts_S256x1024_S1x256x1024 (ix3 u p e)
      = arr3 (projCols (lnorm (cur3 (V c main_arg0)) (cur1 (V c main_arg7)) (cur1 (V c main_arg8))) Wc bc 1024 (by omega))
          (((cfg0.win 6).blk t).view.emb (ix3 u p e))
  rw [hemb, arr3_ix3]
  exact store_point (iblk0 V c 0 t) (iblk0 V c 1 t) (iblk0 V c 2 t) (iblk0 V c 3 t) (iblk0 V c 4 t)
    (cur3 (V c main_arg0)) (cur1 (V c main_arg7)) (cur1 (V c main_arg8)) (bOf0 t) (rowOf0 t) Wc bc
    (fun p' k' => blk0_x V c t 0 p' k') (fun k' => blk0_g V c t k') (fun k' => blk0_b V c t k')
    (fun k' q' => (blk0_w V c t k' q').trans (hw k' q')) (fun q' => (blk0_bias V c t q').trans (hbias q'))
    1024 slices_S256x3072_o0_1024_S256x1024 (by omega) u p e

/-- An index is in point t's block of window 6 iff each coordinate is in the block's range. -/
theorem mem_blk0_6 (t : Fin cfg0.N) (i : S8x2048x1024.Idx) :
    i ∈ ((cfg0.win 6).blk t).view.set ↔ ∀ a : Fin 3, win0_6.index t a * S1x256x1024.size a ≤ (i a).val
      ∧ (i a).val < win0_6.index t a * S1x256x1024.size a + S1x256x1024.size a := by
  show i ∈ ((View.whole main_v6_1).slice (win0_6.rect t)).set ↔ _
  rw [View.set_slice_whole, Rect.mem_set_unit]
  exact Iff.rfl

/-- Every index of the array is in some point's block: batch b, row r sits in point b * 8 + r / 256. -/
theorem cover0_6 (i : S8x2048x1024.Idx) :
    ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 1024 := (i 2).isLt
  have hN : (i 0).val * 8 + (i 1).val / 256 < cfg0.N := by show _ < grid0.N; rw [N_0]; omega
  refine ⟨⟨(i 0).val * 8 + (i 1).val / 256, hN⟩, flush0_6 _, ?_⟩
  rw [mem_blk0_6]
  have e0 := (idx0 ⟨(i 0).val * 8 + (i 1).val / 256, hN⟩).2.2.2.2.2.2.2.2.2.2.2
  have ht : (⟨(i 0).val * 8 + (i 1).val / 256, hN⟩ : Fin cfg0.N).val = (i 0).val * 8 + (i 1).val / 256 := rfl
  intro a
  match a with
  | ⟨0, _⟩ => show win0_6.index _ (0 : Fin 3) * 1 ≤ (i 0).val ∧ (i 0).val < win0_6.index _ (0 : Fin 3) * 1 + 1; omega
  | ⟨1, _⟩ => show win0_6.index _ (1 : Fin 3) * 256 ≤ (i 1).val ∧ (i 1).val < win0_6.index _ (1 : Fin 3) * 256 + 256; omega
  | ⟨2, _⟩ => show win0_6.index _ (2 : Fin 3) * 1024 ≤ (i 2).val ∧ (i 2).val < win0_6.index _ (2 : Fin 3) * 1024 + 1024; omega

/-- The array window 6 ends holding. -/
theorem final0_6 (Wc : Fin 1024 → Fin 3072 → EReal) (bc : Fin 3072 → EReal)
    (hw : ∀ k q, V c main_v4 (ix2 k q) = Wc k q) (hbias : ∀ q, V c main_v5 (ix1 q) = bc q) :
    (dat0 V c).arrAt 6 cfg0.N
      = arr3 (projCols (lnorm (cur3 (V c main_arg0)) (cur1 (V c main_arg7)) (cur1 (V c main_arg8))) Wc bc 1024 (by omega)) :=
  (dat0 V c).arrAt_eq_of_cover 6 _ (fun t _ => flushed0_6 V c Wc bc hw hbias t) cover0_6

/-! ## Output window 7: the stretch of columns from 2048 -/

/-- What point t writes back to window 7 is block t of the one function. -/
theorem flushed0_7 (Wc : Fin 1024 → Fin 3072 → EReal) (bc : Fin 3072 → EReal)
    (hw : ∀ k q, V c main_v4 (ix2 k q) = Wc k q) (hbias : ∀ q, V c main_v5 (ix1 q) = bc q) (t : Fin cfg0.N) :
    (dat0 V c).flushed 7 t = ((cfg0.win 7).blk t).view.read (Elt Ideal)
      (arr3 (projCols (lnorm (cur3 (V c main_arg0)) (cur1 (V c main_arg7)) (cur1 (V c main_arg8))) Wc bc 2048 (by omega))) := by
  show (cfg0.win 7).cut (grid0.coords t) ((dat0 V c).after 7 t) = _
  rw [after0_7, out0_7_eq, pay2_eq0]
  funext y
  obtain ⟨u, p, e, rfl⟩ : ∃ (u : Fin 1) (p : Fin 256) (e : Fin 1024), y = ix3 u p e := ⟨y 0, y 1, y 2, eq_ix3 y⟩
  have hemb : ((cfg0.win 7).blk t).view.emb (ix3 u p e) = ix3 (bOf0 t) (rowOf0 t p) e := by
    funext a; apply Fin.ext
    have e0 := (idx0 t).2.2.2.2.2.2.2.2.2.2.2.2.2.2
    have hu : u.val = 0 := by omega
    match a with
    | ⟨0, _⟩ => show win0_7.index t (0 : Fin 3) * 1 + 1 * u.val = t.val / 8; omega
    | ⟨1, _⟩ => show win0_7.index t (1 : Fin 3) * 256 + 1 * p.val = (t.val % 8) * 256 + p.val; omega
    | ⟨2, _⟩ => show win0_7.index t (2 : Fin 3) * 1024 + 1 * e.val = e.val; omega
  show shapeCast S1x256x1024 (truncf .bf16 (extractStridedSlice S256x1024 ![0, 2048]
      (k0_pay3 (F := Ideal) (iblk0 V c 0 t) (iblk0 V c 1 t) (iblk0 V c 2 t) (iblk0 V c 3 t) (iblk0 V c 4 t)) slices_S256x3072_o0_2048_S256x1024) bitsLt_bf16_f32)
      shapeCasts_S256x1024_S1x256x1024 (ix3 u p e)
      = arr3 (projCols (lnorm (cur3 (V c main_arg0)) (cur1 (V c main_arg7)) (cur1 (V c main_arg8))) Wc bc 2048 (by omega))
          (((cfg0.win 7).blk t).view.emb (ix3 u p e))
  rw [hemb, arr3_ix3]
  exact store_point (iblk0 V c 0 t) (iblk0 V c 1 t) (iblk0 V c 2 t) (iblk0 V c 3 t) (iblk0 V c 4 t)
    (cur3 (V c main_arg0)) (cur1 (V c main_arg7)) (cur1 (V c main_arg8)) (bOf0 t) (rowOf0 t) Wc bc
    (fun p' k' => blk0_x V c t 0 p' k') (fun k' => blk0_g V c t k') (fun k' => blk0_b V c t k')
    (fun k' q' => (blk0_w V c t k' q').trans (hw k' q')) (fun q' => (blk0_bias V c t q').trans (hbias q'))
    2048 slices_S256x3072_o0_2048_S256x1024 (by omega) u p e

/-- An index is in point t's block of window 7 iff each coordinate is in the block's range. -/
theorem mem_blk0_7 (t : Fin cfg0.N) (i : S8x2048x1024.Idx) :
    i ∈ ((cfg0.win 7).blk t).view.set ↔ ∀ a : Fin 3, win0_7.index t a * S1x256x1024.size a ≤ (i a).val
      ∧ (i a).val < win0_7.index t a * S1x256x1024.size a + S1x256x1024.size a := by
  show i ∈ ((View.whole main_v6_2).slice (win0_7.rect t)).set ↔ _
  rw [View.set_slice_whole, Rect.mem_set_unit]
  exact Iff.rfl

/-- Every index of the array is in some point's block: batch b, row r sits in point b * 8 + r / 256. -/
theorem cover0_7 (i : S8x2048x1024.Idx) :
    ∃ t : Fin cfg0.N, (cfg0.win 7).flush t = true ∧ i ∈ ((cfg0.win 7).blk t).view.set := by
  have h0 : (i 0).val < 8 := (i 0).isLt
  have h1 : (i 1).val < 2048 := (i 1).isLt
  have h2 : (i 2).val < 1024 := (i 2).isLt
  have hN : (i 0).val * 8 + (i 1).val / 256 < cfg0.N := by show _ < grid0.N; rw [N_0]; omega
  refine ⟨⟨(i 0).val * 8 + (i 1).val / 256, hN⟩, flush0_7 _, ?_⟩
  rw [mem_blk0_7]
  have e0 := (idx0 ⟨(i 0).val * 8 + (i 1).val / 256, hN⟩).2.2.2.2.2.2.2.2.2.2.2.2.2.2
  have ht : (⟨(i 0).val * 8 + (i 1).val / 256, hN⟩ : Fin cfg0.N).val = (i 0).val * 8 + (i 1).val / 256 := rfl
  intro a
  match a with
  | ⟨0, _⟩ => show win0_7.index _ (0 : Fin 3) * 1 ≤ (i 0).val ∧ (i 0).val < win0_7.index _ (0 : Fin 3) * 1 + 1; omega
  | ⟨1, _⟩ => show win0_7.index _ (1 : Fin 3) * 256 ≤ (i 1).val ∧ (i 1).val < win0_7.index _ (1 : Fin 3) * 256 + 256; omega
  | ⟨2, _⟩ => show win0_7.index _ (2 : Fin 3) * 1024 ≤ (i 2).val ∧ (i 2).val < win0_7.index _ (2 : Fin 3) * 1024 + 1024; omega

/-- The array window 7 ends holding. -/
theorem final0_7 (Wc : Fin 1024 → Fin 3072 → EReal) (bc : Fin 3072 → EReal)
    (hw : ∀ k q, V c main_v4 (ix2 k q) = Wc k q) (hbias : ∀ q, V c main_v5 (ix1 q) = bc q) :
    (dat0 V c).arrAt 7 cfg0.N
      = arr3 (projCols (lnorm (cur3 (V c main_arg0)) (cur1 (V c main_arg7)) (cur1 (V c main_arg8))) Wc bc 2048 (by omega)) :=
  (dat0 V c).arrAt_eq_of_cover 7 _ (fun t _ => flushed0_7 V c Wc bc hw hbias t) cover0_7

end Cert.KernelIdeal.Val

end
-- ==== Proof.Bridge0.lean ====
/-
  The kernel program's two results as functions of its arguments.

  The host lines lay the three weight matrices, transposed, side by side and the three biases end to end; the first
  kernel writes queries, keys and values — the affine maps of the layer norm, each through its own stretch of the joined
  matrix, which is that map through the rows of its own weight matrix —; the second kernel reads them back and writes
  the attention weights and the result rows.  Composing the arrays each stage ends holding gives the specification's
  functions of the arguments.
-/
import proofs.«143292_j35038343201280_2_alg».proof.Proof.KI.Run
import proofs.«143292_j35038343201280_2_alg».proof.Proof.Blocks0
import proofs.«143292_j35038343201280_2_alg».proof.Proof.HostRead
import proofs.«143292_j35038343201280_2_alg».proof.Proof.Spec
import proofs.«143292_j35038343201280_2_alg».proof.Proof.LibConcatParts
import Idealize.ShloMosaic.Lib.StableHlo.Run
import Idealize.ShloMosaic.Lib.Pipeline.Value

set_option maxRecDepth 16384

open scoped BigOperators

noncomputable section

namespace Cert.KernelIdeal.Val

open Cert.KernelIdeal Cert.KernelIdeal.Gen Cert.KernelIdeal.Fr Idealize.ShloMosaic Idealize.ShloMosaic.TcCoe
open Idealize.ShloMosaic.ValueIdx Cert.Spec Idealize.SL.Sem Idealize.ShloMosaic.StableHlo
open Idealize.ShloMosaic.Pipeline (Dat)

/-! ## The joined matrix's stretches are the three weight matrices' rows -/

theorem cur3_arr3 {n0 n1 n2 : Nat} (f : Fin n0 → Fin n1 → Fin n2 → EReal) : cur3 (arr3 f) = f := rfl

theorem projCols_first (xn : Rows) (w1 w3 w5 : FVec Ideal S1024x1024 .f32) (b2 b4 b6 : FVec Ideal S1024 .f32) :
    projCols xn (fun k q => wcat w1 w3 w5 (ix2 k q)) (fun q => bcat b2 b4 b6 (ix1 q)) 0 (by omega) = proj xn (cur2 w1) (cur1 b2) := by
  funext b s e
  unfold projCols proj cur2 cur1
  dsimp only
  rw [bcat_first b2 b4 b6 e _ (Nat.zero_add _)]
  refine congrArg (· + _) (Finset.sum_congr rfl fun k _ => ?_)
  rw [wcat_first w1 w3 w5 k e _ (Nat.zero_add _)]

theorem projCols_second (xn : Rows) (w1 w3 w5 : FVec Ideal S1024x1024 .f32) (b2 b4 b6 : FVec Ideal S1024 .f32) :
    projCols xn (fun k q => wcat w1 w3 w5 (ix2 k q)) (fun q => bcat b2 b4 b6 (ix1 q)) 1024 (by omega) = proj xn (cur2 w3) (cur1 b4) := by
  funext b s e
  unfold projCols proj cur2 cur1
  dsimp only
  rw [bcat_second b2 b4 b6 e _ rfl]
  refine congrArg (· + _) (Finset.sum_congr rfl fun k _ => ?_)
  rw [wcat_second w1 w3 w5 k e _ rfl]

theorem projCols_third (xn : Rows) (w1 w3 w5 : FVec Ideal S1024x1024 .f32) (b2 b4 b6 : FVec Ideal S1024 .f32) :
    projCols xn (fun k q => wcat w1 w3 w5 (ix2 k q)) (fun q => bcat b2 b4 b6 (ix1 q)) 2048 (by omega) = proj xn (cur2 w5) (cur1 b6) := by
  funext b s e
  unfold projCols proj cur2 cur1
  dsimp only
  rw [bcat_third b2 b4 b6 e _ rfl]
  refine congrArg (· + _) (Finset.sum_congr rfl fun k _ => ?_)
  rw [wcat_third w1 w3 w5 k e _ rfl]

variable (m : (ℓ : Loc nD τ sig) → Buf (Elt Ideal) ℓ) (ρ : Dev nD → PrngReg) (c : Dev nD)

/-! ## What the first kernel finds -/

theorem V1_v4 : V1 m ρ c main_v4
    = wcat (m ((c : Thread nD τ).loc main_arg1)) (m ((c : Thread nD τ).loc main_arg3)) (m ((c : Thread nD τ).loc main_arg5)) := by
  show StableHlo.after (hostOps0 (F := Ideal)) (W0 m ρ c) (Proc.devRef .tc main_v4) = _
  simp (disch := decide) only [after_cons, after_nil, unary_result', Cert.LibConcatParts.nary3_result', unary_result_ne', nary_result_ne']
  rfl

theorem V1_v5 : V1 m ρ c main_v5
    = bcat (m ((c : Thread nD τ).loc main_arg2)) (m ((c : Thread nD τ).loc main_arg4)) (m ((c : Thread nD τ).loc main_arg6)) := by
  show StableHlo.after (hostOps0 (F := Ideal)) (W0 m ρ c) (Proc.devRef .tc main_v5) = _
  simp (disch := decide) only [after_cons, after_nil, unary_result', Cert.LibConcatParts.nary3_result', unary_result_ne', nary_result_ne']
  rfl

theorem V1_arg0 : V1 m ρ c main_arg0 = m ((c : Thread nD τ).loc main_arg0) := W1_keeps m ρ c main_arg0 (by decide)
theorem V1_arg7 : V1 m ρ c main_arg7 = m ((c : Thread nD τ).loc main_arg7) := W1_keeps m ρ c main_arg7 (by decide)
theorem V1_arg8 : V1 m ρ c main_arg8 = m ((c : Thread nD τ).loc main_arg8) := W1_keeps m ρ c main_arg8 (by decide)

/-! ## What the first kernel leaves: queries, keys, values -/

/-- The layer norm of the argument x. -/
abbrev xnOf : Rows :=
  lnorm (cur3 (m ((c : Thread nD τ).loc main_arg0))) (cur1 (m ((c : Thread nD τ).loc main_arg7))) (cur1 (m ((c : Thread nD τ).loc main_arg8)))

theorem hw1 (k : Fin 1024) (q : Fin 3072) : V1 m ρ c main_v4 (ix2 k q)
    = wcat (m ((c : Thread nD τ).loc main_arg1)) (m ((c : Thread nD τ).loc main_arg3)) (m ((c : Thread nD τ).loc main_arg5)) (ix2 k q) :=
  congrFun (V1_v4 m ρ c) (ix2 k q)
theorem hb1 (q : Fin 3072) : V1 m ρ c main_v5 (ix1 q)
    = bcat (m ((c : Thread nD τ).loc main_arg2)) (m ((c : Thread nD τ).loc main_arg4)) (m ((c : Thread nD τ).loc main_arg6)) (ix1 q) :=
  congrFun (V1_v5 m ρ c) (ix1 q)

theorem Q_eq : V2 m ρ c main_v6_0
    = arr3 (proj (xnOf m c) (cur2 (m ((c : Thread nD τ).loc main_arg1))) (cur1 (m ((c : Thread nD τ).loc main_arg2)))) := by
  refine (W2_arr m ρ c 5).trans ?_
  rw [final0_5 (V1 m ρ) c _ _ (hw1 m ρ c) (hb1 m ρ c), projCols_first, V1_arg0, V1_arg7, V1_arg8]

theorem K_eq : V2 m ρ c main_v6_1
    = arr3 (proj (xnOf m c) (cur2 (m ((c : Thread nD τ).loc main_arg3))) (cur1 (m ((c : Thread nD τ).loc main_arg4)))) := by
  refine (W2_arr m ρ c 6).trans ?_
  rw [final0_6 (V1 m ρ) c _ _ (hw1 m ρ c) (hb1 m ρ c), projCols_second, V1_arg0, V1_arg7, V1_arg8]

theorem Vv_eq : V2 m ρ c main_v6_2
    = arr3 (proj (xnOf m c) (cur2 (m ((c : Thread nD τ).loc main_arg5))) (cur1 (m ((c : Thread nD τ).loc main_arg6)))) := by
  refine (W2_arr m ρ c 7).trans ?_
  rw [final0_7 (V1 m ρ) c _ _ (hw1 m ρ c) (hb1 m ρ c), projCols_third, V1_arg0, V1_arg7, V1_arg8]

/-- The first kernel only reads x. -/
theorem V2_arg0 : V2 m ρ c main_arg0 = m ((c : Thread nD τ).loc main_arg0) :=
  (W2_arr m ρ c 0).trans ((((dat0 (V1 m ρ) c).arrAt_in 0 rfl _).trans (A_eq0 (V1 m ρ) c 0)).trans (V1_arg0 m ρ c))

end Cert.KernelIdeal.Val

end
-- ==== Proof.LibDotT.lean ====
/-
  A matrix product with the right operand transposed, read at an entry.

  For a product of an [M, K] array with an [N, K] array that contracts the LAST axis of both (dimension numbers
  [1], [1], [0], [0], no batch axis) into a zero accumulator, the (p, q) entry over the extended reals is
  Σ_k l (p, k) · r (q, k). The statement takes the two facts about the dimension record that are decided by
  unfolding it at a concrete record (the operands' leading coordinates follow the result's), so that it serves
  every extent.
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-- The (p, q) entry of `l · rᵀ` accumulated from zero is the sum over the shared last axis. -/
theorem matmulT_zero_apply {M N K : Nat} {φ₁ φ₂ : FTy}
    (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (hl0 : ∀ j k, (d.lhsIdx j k 0).val = (j 0).val) (hr0 : ∀ j k, (d.rhsIdx j k 0).val = (j 1).val)
    (prec : Option ContractPrecision)
    (l : FVec Ideal ⟨2, ![M, K]⟩ φ₁) (r : FVec Ideal ⟨2, ![N, K]⟩ φ₂) (p : Fin M) (q : Fin N) :
    matmul d prec l r (constant (F := Ideal) ⟨2, ![M, N]⟩ .f32 0x00000000#32) (ix2 p q)
      = ∑ k : Fin K, l (ix2 p k) * r (ix2 q k) := by
  refine (Ideal.matmul_constant_zero_apply d prec l r (ix2 p q)).trans ?_
  rw [← Equiv.sum_comp (contrEquiv1 d K hrank hsize).symm]
  refine Finset.sum_congr rfl fun k _ => ?_
  have e1 : d.lhsIdx (ix2 p q) ((contrEquiv1 d K hrank hsize).symm k) = ix2 p k := by
    funext a; apply Fin.ext
    match a with
    | ⟨0, _⟩ => exact hl0 _ _
    | ⟨1, _⟩ => exact (d.lhsIdx_val_of_single hl _ _).trans (contrEquiv1_symm_val d K hrank hsize k)
  have e2 : d.rhsIdx (ix2 p q) ((contrEquiv1 d K hrank hsize).symm k) = ix2 q k := by
    funext a; apply Fin.ext
    match a with
    | ⟨0, _⟩ => exact hr0 _ _
    | ⟨1, _⟩ => exact (d.rhsIdx_val_of_single hr _ _).trans (contrEquiv1_symm_val d K hrank hsize k)
  rw [e1, e2]

end Cert.LibDotT

end
-- ==== Proof.Pay1.lean ====
/-
  What the second kernel body computes on one block, entry by entry.

  The body reads 256 query rows, all 2048 key rows and all 2048 value rows of one batch, and the matching 256 rows of
  x.  The score of query row p against key row j is their inner product times 2^-5.  Each row of scores is shifted by
  its greatest entry (the fold of max from the bottom element), exponentiated, and divided by the row's sum: the
  weights.  The weights times the value rows, plus the row of x, is the result row.  Row p of either result reads
  query row p only.
-/
import proofs.«143292_j35038343201280_2_alg».proof.Proof.Gen.KernelIdeal.Skeleton
import proofs.«143292_j35038343201280_2_alg».proof.Proof.Spec
import proofs.«143292_j35038343201280_2_alg».proof.Proof.LibRows
import proofs.«143292_j35038343201280_2_alg».proof.Proof.LibLayout
import proofs.«143292_j35038343201280_2_alg».proof.Proof.LibPlainDot
import proofs.«143292_j35038343201280_2_alg».proof.Proof.LibDotT
import Idealize.ShloMosaic.Lib.ValueLayout
import Idealize.ShloMosaic.Lib.Pipeline.Value
import Idealize.ShloMosaic.Lib.ValueIdx
import Idealize.ShloMosaic.PureOps.Ideal.Laws

open scoped BigOperators

noncomputable section

namespace Cert.KernelIdeal.Val

open Cert.KernelIdeal Cert.KernelIdeal.Gen Idealize.ShloMosaic Idealize.ShloMosaic.ValueIdx Cert.Spec
open Cert.LibPlainDot Cert.LibDotT

/-- The word of minus infinity is the bottom element. -/
theorem ofBits_neg_inf : Ideal.ofBits .f32 0xFF800000#32 = (⊥ : EReal) := by
  simp [Ideal.ofBits, Ideal.ieee]

/-- The scaled scores of a block of query rows against the key rows. -/
def scBlock (v1 : FVec Ideal S256x1024 .bf16) (v3 : FVec Ideal S2048x1024 .bf16) : FVec Ideal S256x2048 .f32 :=
  have cst : FVec Ideal S256x2048 .f32 := constant S256x2048 .f32 0x00000000#32
  have v6 : FVec Ideal S256x2048 .f32 := matmul dot_S256x1024_S2048x1024_S256x2048_1_1_0_0_n_n none v1 v3 cst
  have cst_8 : Ideal .f32 := Scalar.ofBits .f32 0x3D000000#32
  have v7 : FVec Ideal S256x2048 .f32 := broadcast S256x2048 cst_8
  have v8 : FVec Ideal S256x2048 .f32 := mulf v6 v7
  v8

/-- Each row of a block of scores shifted by its greatest entry, exponentiated, divided by the row's sum. -/
def smBlock (v8 : FVec Ideal S256x2048 .f32) : FVec Ideal S256x2048 .f32 :=
  have v9 : FVec Ideal S256 .f32 := multiReduction .maximumf [1] S256 v8 0xFF800000#32 reduces_S256x2048_S256 (.inl rfl) rfl
  have v10 : FVec Ideal S256x1 .f32 := shapeCast S256x1 v9 shapeCasts_S256_S256x1
  have v11 : FVec Ideal S256x2048 .f32 := broadcastTo S256x2048 v10 broadcasts_S256x1_S256x2048
  have v12 : FVec Ideal S256x2048 .f32 := subf v8 v11
  have v13 : FVec Ideal S256x2048 .f32 := exp v12
  have v14 : FVec Ideal S256 .f32 := multiReduction .add [1] S256 v13 0x00000000#32 reduces_S256x2048_S256 (.inl rfl) rfl
  have v15 : FVec Ideal S256x1 .f32 := shapeCast S256x1 v14 shapeCasts_S256_S256x1
  have v16 : FVec Ideal S256x2048 .f32 := broadcastTo S256x2048 v15 broadcasts_S256x1_S256x2048
  have v17 : FVec Ideal S256x2048 .f32 := divf v13 v16
  v17

theorem pay1_eq (v0 : Vec Ideal S1x256x1024 .bf16) (v2 : Vec Ideal S1x2048x1024 .bf16) :
    k1_pay1 (F := Ideal) v0 v2
      = smBlock (scBlock (shapeCast S256x1024 v0 shapeCasts_S1x256x1024_S256x1024 : FVec Ideal S256x1024 .bf16)
          (shapeCast S2048x1024 v2 shapeCasts_S1x2048x1024_S2048x1024 : FVec Ideal S2048x1024 .bf16)) := rfl

/-- A scaled score at (p, j): the inner product of query row p and key row j, times 2^-5. -/
theorem scBlock_apply (v1 : FVec Ideal S256x1024 .bf16) (v3 : FVec Ideal S2048x1024 .bf16) (p : Fin 256) (j : Fin 2048) :
    scBlock v1 v3 (ix2 p j) = (∑ d : Fin 1024, v1 (ix2 p d) * v3 (ix2 j d)) * cinv32 := by
  show matmul dot_S256x1024_S2048x1024_S256x2048_1_1_0_0_n_n none v1 v3 (constant S256x2048 .f32 0x00000000#32) (ix2 p j) * Ideal.ofBits .f32 0x3D000000#32 = _
  refine congrArg (· * cinv32) ?_
  exact matmulT_zero_apply dot_S256x1024_S2048x1024_S256x2048_1_1_0_0_n_n rfl rfl rfl rfl (fun _ _ => rfl) (fun _ _ => rfl) none v1 v3 p j

/-- The weights at (p, j) of a block whose scores at (p, j) are `S p j`. -/
theorem smBlock_apply (v8 : FVec Ideal S256x2048 .f32) (S : Fin 256 → Fin 2048 → EReal) (hs : ∀ p j, v8 (ix2 p j) = S p j)
    (p : Fin 256) (j : Fin 2048) :
    smBlock v8 (ix2 p j)
      = Ideal.div (Ideal.exp (S p j - (Finset.univ : Finset (Fin 2048)).fold max ⊥ (fun j' => S p j')))
          (∑ j' : Fin 2048, Ideal.exp (S p j' - (Finset.univ : Finset (Fin 2048)).fold max ⊥ (fun j'' => S p j''))) := by
  have hmax : ∀ (p' : Fin 256) (j' : Fin 2048),
      broadcastTo S256x2048 (shapeCast S256x1 (multiReduction .maximumf [1] S256 v8 0xFF800000#32 reduces_S256x2048_S256 (.inl rfl) rfl) shapeCasts_S256_S256x1)
        broadcasts_S256x1_S256x2048 (ix2 p' j') = (Finset.univ : Finset (Fin 2048)).fold max ⊥ (fun j'' => S p' j'') := fun p' j' => by
    rw [broadcastTo_a1_ab_apply, shapeCast_a_a1_apply]
    refine (rowMax_apply v8 0xFF800000#32 reduces_S256x2048_S256 (.inl rfl) rfl p').trans ?_
    rw [ofBits_neg_inf]
    exact congrArg (fun f => (Finset.univ : Finset (Fin 2048)).fold max ⊥ f) (funext fun s => hs p' s)
  have hexp : ∀ (p' : Fin 256) (j' : Fin 2048),
      exp (subf v8 (broadcastTo S256x2048 (shapeCast S256x1 (multiReduction .maximumf [1] S256 v8 0xFF800000#32 reduces_S256x2048_S256 (.inl rfl) rfl) shapeCasts_S256_S256x1)
        broadcasts_S256x1_S256x2048)) (ix2 p' j') = Ideal.exp (S p' j' - (Finset.univ : Finset (Fin 2048)).fold max ⊥ (fun j'' => S p' j'')) := fun p' j' => by
    show Ideal.exp (v8 (ix2 p' j') - broadcastTo S256x2048 _ broadcasts_S256x1_S256x2048 (ix2 p' j')) = _
    rw [hmax, hs]
  unfold smBlock
  show Ideal.div ((exp (_ : FVec Ideal S256x2048 .f32) : FVec Ideal S256x2048 .f32) (ix2 p j)) (broadcastTo S256x2048 _ broadcasts_S256x1_S256x2048 (ix2 p j)) = _
  rw [hexp, broadcastTo_a1_ab_apply, shapeCast_a_a1_apply]
  refine congrArg (Ideal.div _ ·) ?_
  refine (rowSum_apply _ 0x00000000#32 reduces_S256x2048_S256 (.inl rfl) rfl p).trans ?_
  exact Finset.sum_congr rfl fun s _ => hexp p s

/-- The weights the body forms at (p, j): the softmax of the scaled scores of query row `row p` of batch `bb`. -/
theorem pay1_apply (v0 : Vec Ideal S1x256x1024 .bf16) (v2 : Vec Ideal S1x2048x1024 .bf16) (Q K : Rows) (bb : Fin 8)
    (row : Fin 256 → Fin 2048) (hq : ∀ p d, v0 (ix3 (0 : Fin 1) p d) = Q bb (row p) d)
    (hk : ∀ j d, v2 (ix3 (0 : Fin 1) j d) = K bb j d) (p : Fin 256) (j : Fin 2048) :
    k1_pay1 (F := Ideal) v0 v2 (ix2 p j) = softmax (scoresK Q K) bb (row p) j := by
  rw [pay1_eq]
  refine (smBlock_apply _ (fun p j => scoresK Q K bb (row p) j) (fun p' j' => ?_) p j).trans rfl
  rw [scBlock_apply]
  unfold scoresK dots
  refine congrArg (· * cinv32) (Finset.sum_congr rfl fun d _ => ?_)
  rw [shapeCast_1ab_ab_apply, shapeCast_1ab_ab_apply, hq, hk]

/-- The stored weights, laid out [1, 256, 2048]. -/
theorem pay2_apply (v0 : Vec Ideal S1x256x1024 .bf16) (v2 : Vec Ideal S1x2048x1024 .bf16) (Q K : Rows) (bb : Fin 8)
    (row : Fin 256 → Fin 2048) (hq : ∀ p d, v0 (ix3 (0 : Fin 1) p d) = Q bb (row p) d)
    (hk : ∀ j d, v2 (ix3 (0 : Fin 1) j d) = K bb j d) (u : Fin 1) (p : Fin 256) (j : Fin 2048) :
    k1_pay2 (F := Ideal) v0 v2 (ix3 u p j) = softmax (scoresK Q K) bb (row p) j := by
  show shapeCast S1x256x2048 (k1_pay1 (F := Ideal) v0 v2) shapeCasts_S256x2048_S1x256x2048 (ix3 u p j) = _
  rw [shapeCast_ab_1ab_apply]
  exact pay1_apply v0 v2 Q K bb row hq hk p j

/-- The stored result rows: the weights times the value rows, plus the row of x. -/
theorem pay3_apply1 (v0 : Vec Ideal S1x256x1024 .bf16) (v2 v4 : Vec Ideal S1x2048x1024 .bf16) (v23 : Vec Ideal S1x256x1024 .f32)
    (Q K V X : Rows) (bb : Fin 8) (row : Fin 256 → Fin 2048) (hq : ∀ p d, v0 (ix3 (0 : Fin 1) p d) = Q bb (row p) d)
    (hk : ∀ j d, v2 (ix3 (0 : Fin 1) j d) = K bb j d) (hv : ∀ j d, v4 (ix3 (0 : Fin 1) j d) = V bb j d)
    (hx : ∀ p d, v23 (ix3 (0 : Fin 1) p d) = X bb (row p) d) (u : Fin 1) (p : Fin 256) (d : Fin 1024) :
    k1_pay3 (F := Ideal) v0 v2 v4 v23 (ix3 u p d) = mix (softmax (scoresK Q K)) V bb (row p) d + X bb (row p) d := by
  show shapeCast S1x256x1024 (addf (matmul dot_S256x2048_S2048x1024_S256x1024_1_0_0_1_n_n none
      (truncf .bf16 (k1_pay1 (F := Ideal) v0 v2) bitsLt_bf16_f32)
      (shapeCast S2048x1024 v4 shapeCasts_S1x2048x1024_S2048x1024 : FVec Ideal S2048x1024 .bf16) (constant S256x1024 .f32 0x00000000#32))
      (shapeCast S256x1024 v23 shapeCasts_S1x256x1024_S256x1024)) shapeCasts_S256x1024_S1x256x1024 (ix3 u p d) = _
  rw [shapeCast_ab_1ab_apply]
  show matmul (F := Ideal) dot_S256x2048_S2048x1024_S256x1024_1_0_0_1_n_n none (truncf .bf16 (k1_pay1 (F := Ideal) v0 v2) bitsLt_bf16_f32)
      (shapeCast S2048x1024 v4 shapeCasts_S1x2048x1024_S2048x1024 : FVec Ideal S2048x1024 .bf16) (constant S256x1024 .f32 0x00000000#32) (ix2 p d)
    + shapeCast S256x1024 v23 shapeCasts_S1x256x1024_S256x1024 (ix2 p d) = _
  rw [shapeCast_1ab_ab_apply, hx]
  refine congrArg (· + X bb (row p) d) ?_
  refine (matmul_plain_apply dot_S256x2048_S2048x1024_S256x1024_1_0_0_1_n_n rfl rfl rfl rfl rfl rfl none _ _ p d).trans ?_
  unfold mix
  refine Finset.sum_congr rfl fun j _ => ?_
  rw [shapeCast_1ab_ab_apply, hv]
  refine congrArg (· * V bb j d) ?_
  exact pay1_apply v0 v2 Q K bb row hq hk p j

end Cert.KernelIdeal.Val

end
-- ==== Proof.Blocks1.lean ====
/-
  From blocks to arrays, second kernel: the weights and the result rows as whole arrays.

  The grid has 8 x 8 points; point t works on batch t / 8 and on rows (t % 8) * 256 .. + 255 of that batch: it reads
  that block of the queries and of x, all the keys and all the values of the batch, and writes back that block of the
  weights (all 2048 columns) and of the result rows (all 1024 columns).  The 64 blocks tile each result, and what a
  point writes is the block of ONE function of the arrays: the softmax of the scaled scores of the query rows against
  the batch's key rows, and those weights mixing the batch's value rows plus the rows of x.
-/
import proofs.«143292_j35038343201280_2_alg».proof.Proof.KI.Region1
import proofs.«143292_j35038343201280_2_alg».proof.Proof.Pay1
import proofs.«143292_j35038343201280_2_alg».proof.Proof.Spec
import Idealize.ShloMosaic.Lib.Pipeline.Value
import Idealize.ShloMosaic.Lib.ValueIdx

set_option maxRecDepth 16384

open scoped BigOperators

noncomputable section

namespace Cert.KernelIdeal.Val

open Cert.KernelIdeal Cert.KernelIdeal.Gen Cert.KernelIdeal.Fr Idealize.ShloMosaic Idealize.ShloMosaic.TcCoe
open Idealize.ShloMosaic.ValueIdx Cert.Spec
open Idealize.ShloMosaic.Pipeline (Dat)

variable (V : (c : Dev nD) → (b : Ref sig .tc) → Buf (Elt Ideal) ((c : Thread nD τ).loc b)) (c : Dev nD)

/-! The printed index maps over the grid: point t is batch t / 8; the queries, x and the two results move with the
    row block t % 8, the keys and the values stay at the batch's first row. -/
theorem idx1_0 : ∀ t : Fin cfg1.N,
    win1_0.index t (0 : Fin 3) = t.val / 8 ∧ win1_0.index t (1 : Fin 3) = t.val % 8 ∧ win1_0.index t (2 : Fin 3) = 0 :=
  (by decide +kernel : ∀ t : Fin grid1.N, _)
theorem idx1_1 : ∀ t : Fin cfg1.N,
    win1_1.index t (0 : Fin 3) = t.val / 8 ∧ win1_1.index t (1 : Fin 3) = 0 ∧ win1_1.index t (2 : Fin 3) = 0 :=
  (by decide +kernel : ∀ t : Fin grid1.N, _)
theorem idx1_2 : ∀ t : Fin cfg1.N,
    win1_2.index t (0 : Fin 3) = t.val / 8 ∧ win1_2.index t (1 : Fin 3) = 0 ∧ win1_2.index t (2 : Fin 3) = 0 :=
  (by decide +kernel : ∀ t : Fin grid1.N, _)
theorem idx1_3 : ∀ t : Fin cfg1.N,
    win1_3.index t (0 : Fin 3) = t.val / 8 ∧ win1_3.index t (1 : Fin 3) = t.val % 8 ∧ win1_3.index t (2 : Fin 3) = 0 :=
  (by decide +kernel : ∀ t : Fin grid1.N, _)
theorem idx1_4 : ∀ t : Fin cfg1.N,
    win1_4.index t (0 : Fin 3) = t.val / 8 ∧ win1_4.index t (1 : Fin 3) = t.val % 8 ∧ win1_4.index t (2 : Fin 3) = 0 :=
  (by decide +kernel : ∀ t : Fin grid1.N, _)
theorem idx1_5 : ∀ t : Fin cfg1.N,
    win1_5.index t (0 : Fin 3) = t.val / 8 ∧ win1_5.index t (1 : Fin 3) = t.val % 8 ∧ win1_5.index t (2 : Fin 3) = 0 :=
  (by decide +kernel : ∀ t : Fin grid1.N, _)

theorem t_lt1 (t : Fin cfg1.N) : t.val < 64 := lt_of_lt_of_eq t.isLt N_1

/-- The batch and the rows of point t. -/
def bOf1 (t : Fin cfg1.N) : Fin 8 := ⟨t.val / 8, by have := t_lt1 t; omega⟩
def rowOf1 (t : Fin cfg1.N) (p : Fin 256) : Fin 2048 := ⟨(t.val % 8) * 256 + p.val, by have := p.isLt; omega⟩

/-! ## The input blocks, by coordinates -/

/-- The block of queries at point t. -/
theorem blk1_q (t : Fin cfg1.N) (u : Fin 1) (p : Fin 256) (k : Fin 1024) :
    iblk1 V c 0 t (ix3 u p k) = V c main_v6_0 (ix3 (bOf1 t) (rowOf1 t p) k) := by
  show V c main_v6_0 (((cfg1.win 0).blk t).view.emb (ix3 u p k)) = V c main_v6_0 (ix3 (bOf1 t) (rowOf1 t p) k)
  refine congrArg (V c main_v6_0) (funext fun a => Fin.ext ?_)
  obtain ⟨e0, e1, e2⟩ := idx1_0 t
  have hu : u.val = 0 := by omega
  match a with
  | ⟨0, _⟩ => show win1_0.index t (0 : Fin 3) * 1 + 1 * u.val = t.val / 8; omega
  | ⟨1, _⟩ => show win1_0.index t (1 : Fin 3) * 256 + 1 * p.val = (t.val % 8) * 256 + p.val; omega
  | ⟨2, _⟩ => show win1_0.index t (2 : Fin 3) * 1024 + 1 * k.val = k.val; omega

/-- The block of keys at point t: all rows of the batch. -/
theorem blk1_k (t : Fin cfg1.N) (u : Fin 1) (j : Fin 2048) (k : Fin 1024) :
    iblk1 V c 1 t (ix3 u j k) = V c main_v6_1 (ix3 (bOf1 t) j k) := by
  show V c main_v6_1 (((cfg1.win 1).blk t).view.emb (ix3 u j k)) = V c main_v6_1 (ix3 (bOf1 t) j k)
  refine congrArg (V c main_v6_1) (funext fun a => Fin.ext ?_)
  obtain ⟨e0, e1, e2⟩ := idx1_1 t
  have hu : u.val = 0 := by omega
  match a with
  | ⟨0, _⟩ => show win1_1.index t (0 : Fin 3) * 1 + 1 * u.val = t.val / 8; omega
  | ⟨1, _⟩ => show win1_1.index t (1 : Fin 3) * 2048 + 1 * j.val = j.val; omega
  | ⟨2, _⟩ => show win1_1.index t (2 : Fin 3) * 1024 + 1 * k.val = k.val; omega

/-- The block of values at point t: all rows of the batch. -/
theorem blk1_v (t : Fin cfg1.N) (u : Fin 1) (j : Fin 2048) (k : Fin 1024) :
    iblk1 V c 2 t (ix3 u j k) = V c main_v6_2 (ix3 (bOf1 t) j k) := by
  show V c main_v6_2 (((cfg1.win 2).blk t).view.emb (ix3 u j k)) = V c main_v6_2 (ix3 (bOf1 t) j k)
  refine congrArg (V c main_v6_2) (funext fun a => Fin.ext ?_)
  obtain ⟨e0, e1, e2⟩ := idx1_2 t
  have hu : u.val = 0 := by omega
  match a with
  | ⟨0, _⟩ => show win1_2.index t (0 : Fin 3) * 1 + 1 * u.val = t.val / 8; omega
  | ⟨1, _⟩ => show win1_2.index t (1 : Fin 3) * 2048 + 1 * j.val = j.val; omega
  | ⟨2, _⟩ => show win1_2.index t (2 : Fin 3) * 1024 + 1 * k.val = k.val; omega

/-- The block of x at point t. -/
theorem blk1_x (t : Fin cfg1.N) (u : Fin 1) (p : Fin 256) (k : Fin 1024) :
    iblk1 V c 3 t (ix3 u p k) = V c main_arg0 (ix3 (bOf1 t) (rowOf1 t p) k) := by
  show V c main_arg0 (((cfg1.win 3).blk t).view.emb (ix3 u p k)) = V c main_arg0 (ix3 (bOf1 t) (rowOf1 t p) k)
  refine congrArg (V c main_arg0) (funext fun a => Fin.ext ?_)
  obtain ⟨e0, e1, e2⟩ := idx1_3 t
  have hu : u.val = 0 := by omega
  match a with
  | ⟨0, _⟩ => show win1_3.index t (0 : Fin 3) * 1 + 1 * u.val = t.val / 8; omega
  | ⟨1, _⟩ => show win1_3.index t (1 : Fin 3) * 256 + 1 * p.val = (t.val % 8) * 256 + p.val; omega
  | ⟨2, _⟩ => show win1_3.index t (2 : Fin 3) * 1024 + 1 * k.val = k.val; omega

/-! ## The weights -/

/-- Where an entry of point t's block sits in the array. -/
theorem emb1_5 (t : Fin cfg1.N) (u : Fin 1) (p : Fin 256) (e : Fin 2048) :
    ((cfg1.win 5).blk t).view.emb (ix3 u p e) = (ix3 (bOf1 t) (rowOf1 t p) e : S8x2048x2048.Idx) := by
  funext a; refine Fin.ext ?_
  obtain ⟨e0, e1, e2⟩ := idx1_5 t
  have hu : u.val = 0 := by omega
  match a with
  | ⟨0, _⟩ => show win1_5.index t (0 : Fin 3) * 1 + 1 * u.val = t.val / 8; omega
  | ⟨1, _⟩ => show win1_5.index t (1 : Fin 3) * 256 + 1 * p.val = (t.val % 8) * 256 + p.val; omega
  | ⟨2, _⟩ => show win1_5.index t (2 : Fin 3) * 2048 + 1 * e.val = e.val; omega

/-- What point t writes back is its block of the one function of the arrays. -/
theorem flushed1_5 (t : Fin cfg1.N) :
    (dat1 V c).flushed 5 t = ((cfg1.win 5).blk t).view.read (Elt Ideal) (arr3 (softmax (scoresK (cur3 (V c main_v6_0)) (cur3 (V c main_v6_1))))) := by
  show (cfg1.win 5).cut (grid1.coords t) ((dat1 V c).after 5 t) = _
  rw [after1_5, out1_5_eq]
  funext y
  obtain ⟨u, p, e, rfl⟩ : ∃ (u : Fin 1) (p : Fin 256) (e : Fin 2048), y = ix3 u p e := ⟨y 0, y 1, y 2, eq_ix3 y⟩
  show k1_pay2 (F := Ideal) (iblk1 V c 0 t) (iblk1 V c 1 t) (ix3 u p e)
    = (arr3 (softmax (scoresK (cur3 (V c main_v6_0)) (cur3 (V c main_v6_1))))) (((cfg1.win 5).blk t).view.emb (ix3 u p e))
  rw [emb1_5 t u p e, arr3_ix3]
  exact pay2_apply (iblk1 V c 0 t) (iblk1 V c 1 t) (cur3 (V c main_v6_0)) (cur3 (V c main_v6_1)) (bOf1 t) (rowOf1 t)
    (fun p d => blk1_q V c t 0 p d) (fun j d => blk1_k V c t 0 j d) u p e

/-- An index lies in point t's block exactly when each coordinate lies in the block's range. -/
theorem mem_blk1_5 (t : Fin cfg1.N) (i : S8x2048x2048.Idx) :
    i ∈ ((cfg1.win 5).blk t).view.set ↔ ∀ a : Fin 3, win1_5.index t a * S1x256x2048.size a ≤ (i a).val ∧ (i a).val < win1_5.index t a * S1x256x2048.size a + S1x256x2048.size a := by
  show i ∈ ((View.whole main_v7_1).slice (win1_5.rect t)).set ↔ _
  rw [View.set_slice_whole, Rect.mem_set_unit]
  exact Iff.rfl

/-- The 64 blocks tile the array: entry (b, r, e) lies in the block of point b * 8 + r / 256. -/
theorem tiles1_5 (i : S8x2048x2048.Idx) :
    ∃ t : Fin cfg1.N, (cfg1.win 5).flush t = true ∧ i ∈ ((cfg1.win 5).blk t).view.set := by
  have h0 : (i 0).val < 8 := (i 0).isLt
  have h1 : (i 1).val < 2048 := (i 1).isLt
  have h2 : (i 2).val < 2048 := (i 2).isLt
  obtain ⟨t, ht⟩ : ∃ t : Fin cfg1.N, t.val = (i 0).val * 8 + (i 1).val / 256 :=
    ⟨⟨(i 0).val * 8 + (i 1).val / 256, lt_of_lt_of_eq (by omega) N_1.symm⟩, rfl⟩
  obtain ⟨e0, e1, e2⟩ := idx1_5 t
  refine ⟨t, flush1_5 t, ?_⟩
  rw [mem_blk1_5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 2048 ≤ (i 2).val ∧ (i 2).val < win1_5.index t (2 : Fin 3) * 2048 + 2048; omega

/-- The array after the run is that function of the arrays the region finds. -/
theorem final1_5 : (dat1 V c).arrAt 5 cfg1.N = arr3 (softmax (scoresK (cur3 (V c main_v6_0)) (cur3 (V c main_v6_1)))) :=
  (dat1 V c).arrAt_eq_of_cover 5 (arr3 (softmax (scoresK (cur3 (V c main_v6_0)) (cur3 (V c main_v6_1))))) (fun t _ => flushed1_5 V c t) (tiles1_5)

/-! ## The result rows -/

/-- Where an entry of point t's block sits in the array. -/
theorem emb1_4 (t : Fin cfg1.N) (u : Fin 1) (p : Fin 256) (e : Fin 1024) :
    ((cfg1.win 4).blk t).view.emb (ix3 u p e) = (ix3 (bOf1 t) (rowOf1 t p) e : S8x2048x1024.Idx) := by
  funext a; refine Fin.ext ?_
  obtain ⟨e0, e1, e2⟩ := idx1_4 t
  have hu : u.val = 0 := by omega
  match a with
  | ⟨0, _⟩ => show win1_4.index t (0 : Fin 3) * 1 + 1 * u.val = t.val / 8; omega
  | ⟨1, _⟩ => show win1_4.index t (1 : Fin 3) * 256 + 1 * p.val = (t.val % 8) * 256 + p.val; omega
  | ⟨2, _⟩ => show win1_4.index t (2 : Fin 3) * 1024 + 1 * e.val = e.val; omega

/-- What point t writes back is its block of the one function of the arrays. -/
theorem flushed1_4 (t : Fin cfg1.N) :
    (dat1 V c).flushed 4 t = ((cfg1.win 4).blk t).view.read (Elt Ideal) (arr3 (fun b i d => mix (softmax (scoresK (cur3 (V c main_v6_0)) (cur3 (V c main_v6_1)))) (cur3 (V c main_v6_2)) b i d + (cur3 (V c main_arg0)) b i d)) := by
  show (cfg1.win 4).cut (grid1.coords t) ((dat1 V c).after 4 t) = _
  rw [after1_4, out1_4_eq]
  funext y
  obtain ⟨u, p, e, rfl⟩ : ∃ (u : Fin 1) (p : Fin 256) (e : Fin 1024), y = ix3 u p e := ⟨y 0, y 1, y 2, eq_ix3 y⟩
  show k1_pay3 (F := Ideal) (iblk1 V c 0 t) (iblk1 V c 1 t) (iblk1 V c 2 t) (iblk1 V c 3 t) (ix3 u p e)
    = (arr3 (fun b i d => mix (softmax (scoresK (cur3 (V c main_v6_0)) (cur3 (V c main_v6_1)))) (cur3 (V c main_v6_2)) b i d + (cur3 (V c main_arg0)) b i d)) (((cfg1.win 4).blk t).view.emb (ix3 u p e))
  rw [emb1_4 t u p e, arr3_ix3]
  exact pay3_apply1 (iblk1 V c 0 t) (iblk1 V c 1 t) (iblk1 V c 2 t) (iblk1 V c 3 t) (cur3 (V c main_v6_0)) (cur3 (V c main_v6_1)) (cur3 (V c main_v6_2)) (cur3 (V c main_arg0)) (bOf1 t) (rowOf1 t)
    (fun p d => blk1_q V c t 0 p d) (fun j d => blk1_k V c t 0 j d) (fun j d => blk1_v V c t 0 j d) (fun p d => blk1_x V c t 0 p d) u p e

/-- An index lies in point t's block exactly when each coordinate lies in the block's range. -/
theorem mem_blk1_4 (t : Fin cfg1.N) (i : S8x2048x1024.Idx) :
    i ∈ ((cfg1.win 4).blk t).view.set ↔ ∀ a : Fin 3, win1_4.index t a * S1x256x1024.size a ≤ (i a).val ∧ (i a).val < win1_4.index t a * S1x256x1024.size a + S1x256x1024.size a := by
  show i ∈ ((View.whole main_v7_0).slice (win1_4.rect t)).set ↔ _
  rw [View.set_slice_whole, Rect.mem_set_unit]
  exact Iff.rfl

/-- The 64 blocks tile the array: entry (b, r, e) lies in the block of point b * 8 + r / 256. -/
theorem tiles1_4 (i : S8x2048x1024.Idx) :
    ∃ t : Fin cfg1.N, (cfg1.win 4).flush t = true ∧ i ∈ ((cfg1.win 4).blk t).view.set := by
  have h0 : (i 0).val < 8 := (i 0).isLt
  have h1 : (i 1).val < 2048 := (i 1).isLt
  have h2 : (i 2).val < 1024 := (i 2).isLt
  obtain ⟨t, ht⟩ : ∃ t : Fin cfg1.N, t.val = (i 0).val * 8 + (i 1).val / 256 :=
    ⟨⟨(i 0).val * 8 + (i 1).val / 256, lt_of_lt_of_eq (by omega) N_1.symm⟩, rfl⟩
  obtain ⟨e0, e1, e2⟩ := idx1_4 t
  refine ⟨t, flush1_4 t, ?_⟩
  rw [mem_blk1_4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 256 ≤ (i 1).val ∧ (i 1).val < win1_4.index t (1 : Fin 3) * 256 + 256; omega
  | ⟨2, _⟩ => show win1_4.index t (2 : Fin 3) * 1024 ≤ (i 2).val ∧ (i 2).val < win1_4.index t (2 : Fin 3) * 1024 + 1024; omega

/-- The array after the run is that function of the arrays the region finds. -/
theorem final1_4 : (dat1 V c).arrAt 4 cfg1.N = arr3 (fun b i d => mix (softmax (scoresK (cur3 (V c main_v6_0)) (cur3 (V c main_v6_1)))) (cur3 (V c main_v6_2)) b i d + (cur3 (V c main_arg0)) b i d) :=
  (dat1 V c).arrAt_eq_of_cover 4 (arr3 (fun b i d => mix (softmax (scoresK (cur3 (V c main_v6_0)) (cur3 (V c main_v6_1)))) (cur3 (V c main_v6_2)) b i d + (cur3 (V c main_arg0)) b i d)) (fun t _ => flushed1_4 V c t) (tiles1_4)

end Cert.KernelIdeal.Val

end
-- ==== Proof.Bridge.lean ====
/-
  The kernel program's run with both results named: the attention weights and the result rows, each the
  specification's function of the nine arguments, the arguments unchanged.

  The second kernel reads the queries, keys and values the first one wrote and the argument x; its two results are
  the softmax of the scaled scores of those queries and keys, and those weights mixing those values plus x.
-/
import proofs.«143292_j35038343201280_2_alg».proof.Proof.Bridge0
import proofs.«143292_j35038343201280_2_alg».proof.Proof.Blocks1

set_option maxRecDepth 16384

noncomputable section

namespace Cert.KernelIdeal.Val

open Cert.KernelIdeal Cert.KernelIdeal.Gen Cert.KernelIdeal.Fr Idealize.ShloMosaic Idealize.ShloMosaic.TcCoe
open Idealize.ShloMosaic.ValueIdx Cert.Spec Idealize.SL.Sem
open Idealize.ShloMosaic.Pipeline (Dat)

variable (m : (ℓ : Loc nD τ sig) → Buf (Elt Ideal) ℓ) (ρ : Dev nD → PrngReg) (c : Dev nD)

/-- The weights array the second kernel leaves. -/
theorem attn_eq : W3 m ρ c (Proc.devRef .tc main_v7_1) = arr3 (attn (cur3 (m ((c : Thread nD τ).loc main_arg0))) (cur2 (m ((c : Thread nD τ).loc main_arg1))) (cur1 (m ((c : Thread nD τ).loc main_arg2))) (cur2 (m ((c : Thread nD τ).loc main_arg3))) (cur1 (m ((c : Thread nD τ).loc main_arg4))) (cur1 (m ((c : Thread nD τ).loc main_arg7))) (cur1 (m ((c : Thread nD τ).loc main_arg8)))) := by
  refine (W3_arr m ρ c 5).trans ?_
  rw [final1_5 (V2 m ρ) c, Q_eq, K_eq, cur3_arr3, cur3_arr3]
  rfl

/-- The result rows the second kernel leaves. -/
theorem out_eq : W3 m ρ c (Proc.devRef .tc main_v7_0) = arr3 (out (cur3 (m ((c : Thread nD τ).loc main_arg0))) (cur2 (m ((c : Thread nD τ).loc main_arg1))) (cur1 (m ((c : Thread nD τ).loc main_arg2))) (cur2 (m ((c : Thread nD τ).loc main_arg3))) (cur1 (m ((c : Thread nD τ).loc main_arg4))) (cur2 (m ((c : Thread nD τ).loc main_arg5))) (cur1 (m ((c : Thread nD τ).loc main_arg6))) (cur1 (m ((c : Thread nD τ).loc main_arg7))) (cur1 (m ((c : Thread nD τ).loc main_arg8)))) := by
  refine (W3_arr m ρ c 4).trans ?_
  rw [final1_4 (V2 m ρ) c, Q_eq, K_eq, Vv_eq, V2_arg0, cur3_arr3, cur3_arr3, cur3_arr3]
  rfl

/-- Every weakly fair execution of the kernel program ends with the two results at the specification's functions of
    the arguments, and the arguments unchanged. -/
theorem run_values : θ_run (defs (F := Ideal)) (onTc (τ := τ) (main (F := Ideal))) ⟨m, fun _ => 0, ρ⟩ (fun r => ∀ c : Dev nD,
      r.2.mem ((c.tc : Thread nD τ).loc main_v7_0) = arr3 (out (cur3 (m ((c.tc : Thread nD τ).loc main_arg0))) (cur2 (m ((c.tc : Thread nD τ).loc main_arg1))) (cur1 (m ((c.tc : Thread nD τ).loc main_arg2))) (cur2 (m ((c.tc : Thread nD τ).loc main_arg3))) (cur1 (m ((c.tc : Thread nD τ).loc main_arg4))) (cur2 (m ((c.tc : Thread nD τ).loc main_arg5))) (cur1 (m ((c.tc : Thread nD τ).loc main_arg6))) (cur1 (m ((c.tc : Thread nD τ).loc main_arg7))) (cur1 (m ((c.tc : Thread nD τ).loc main_arg8))))
      ∧ r.2.mem ((c.tc : Thread nD τ).loc main_v7_1) = arr3 (attn (cur3 (m ((c.tc : Thread nD τ).loc main_arg0))) (cur2 (m ((c.tc : Thread nD τ).loc main_arg1))) (cur1 (m ((c.tc : Thread nD τ).loc main_arg2))) (cur2 (m ((c.tc : Thread nD τ).loc main_arg3))) (cur1 (m ((c.tc : Thread nD τ).loc main_arg4))) (cur1 (m ((c.tc : Thread nD τ).loc main_arg7))) (cur1 (m ((c.tc : Thread nD τ).loc main_arg8))))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8))) :=
  (θ_run defs _ _).mono (fun r h c => ⟨(h c _ (mem_uc main_v7_0 (by decide))).trans (out_eq m ρ c),
      (h c _ (mem_uc main_v7_1 (by decide))).trans (attn_eq m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c)⟩)
    (run_all m ρ)

end Cert.KernelIdeal.Val

end
-- ==== Proof.RefNorm.lean ====
/-
  The layer normalisation of the attention reference, read entry by entry at the extended reals.

  For an input of 8 batches of 2048 rows of 1024 entries the program sums each row and divides by 1024 (the mean),
  subtracts the mean along the row (the centred row), sums the squares and divides by 1024 (the variance), adds the
  small constant, takes the reciprocal square root, and scales the centred row by it, by gamma, and shifts by beta.
  Each lemma reads one of these arrays at the entry with coordinates (a, b, c) and finds the specification's function
  there; the only work is that an index obtained by dropping, inserting or repeating a coordinate is the index
  written by those coordinates, and that the sum's starting value, the word of zero, is 0.
-/
import proofs.«143292_j35038343201280_2_alg».proof.Proof.Gen.ReferenceIdeal.Read
import proofs.«143292_j35038343201280_2_alg».proof.Proof.Spec

open scoped BigOperators

noncomputable section

namespace Cert.ReferenceIdeal.RefValue

open Cert.ReferenceIdeal Cert.ReferenceIdeal.Gen Cert.ReferenceIdeal.Read Idealize.ShloMosaic Idealize.ShloMosaic.ValueIdx

/-- An array of 8 batches of 2048 rows of 1024 entries, a 1024 by 1024 matrix, a row of 1024 entries. -/
abbrev T3 := (⟨S8x2048x1024, .f32⟩ : BufTy).Contents (Elt Ideal)
abbrev T2 := (⟨S1024x1024, .f32⟩ : BufTy).Contents (Elt Ideal)
abbrev T1 := (⟨S1024, .f32⟩ : BufTy).Contents (Elt Ideal)

/-- The quotient of a row's sum by 1024 is the row's mean. -/
theorem v3_at (x0 : T3) (a : Fin 8) (b : Fin 2048) :
    val_main_v3 (F := Ideal) x0 (ix3 a b (0 : Fin 1)) = Cert.Spec.mean (Cert.Spec.cur3 x0) a b := by
  rw [val_main_v3_apply, val_main_v1_apply, val_main_v2_apply, val_main_cst_0_apply, val_main_v0_apply, val_main_cst_apply]
  simp only [Ideal.hostDivf_def, Ideal.ofBits_def, Ideal.ofBits_zero_f32, zero_add]
  unfold Cert.Spec.mean Cert.Spec.c1024 Cert.Spec.cur3
  refine congrArg (fun s => Ideal.div s _) (Finset.sum_congr rfl fun k _ => congrArg x0 ?_)
  funext d; refine Fin.ext ?_; match d with | ⟨0, _⟩ => rfl | ⟨1, _⟩ => rfl | ⟨2, _⟩ => rfl

/-- The mean, laid out along a row, subtracted from the row: the centred rows. -/
theorem v5_at (x0 : T3) (a : Fin 8) (b : Fin 2048) (c : Fin 1024) :
    val_main_v5 (F := Ideal) x0 (ix3 a b c) = Cert.Spec.cen (Cert.Spec.cur3 x0) a b c := by
  have e : idx_main_v4 (ix3 a b c) = ix3 a b (0 : Fin 1) := by
    funext d; refine Fin.ext ?_; match d with | ⟨0, _⟩ => rfl | ⟨1, _⟩ => rfl | ⟨2, _⟩ => rfl
  rw [val_main_v5_apply, val_main_v4_apply, e, v3_at]
  rfl

/-- The same centred rows, as the program computes them a second time. -/
theorem v12_at (x0 : T3) (a : Fin 8) (b : Fin 2048) (c : Fin 1024) :
    val_main_v12 (F := Ideal) x0 (ix3 a b c) = Cert.Spec.cen (Cert.Spec.cur3 x0) a b c := by
  have e : idx_main_v11 (ix3 a b c) = ix3 a b (0 : Fin 1) := by
    funext d; refine Fin.ext ?_; match d with | ⟨0, _⟩ => rfl | ⟨1, _⟩ => rfl | ⟨2, _⟩ => rfl
  rw [val_main_v12_apply, val_main_v11_apply, e, v3_at]
  rfl

/-- The quotient by 1024 of the sum of a centred row's squares is the row's variance. -/
theorem v10_at (x0 : T3) (a : Fin 8) (b : Fin 2048) :
    val_main_v10 (F := Ideal) x0 (ix3 a b (0 : Fin 1)) = Cert.Spec.var (Cert.Spec.cur3 x0) a b := by
  rw [val_main_v10_apply, val_main_v8_apply, val_main_v9_apply, val_main_cst_2_apply, val_main_v7_apply, val_main_cst_1_apply]
  simp only [Ideal.hostDivf_def, Ideal.ofBits_def, Ideal.ofBits_zero_f32, zero_add]
  unfold Cert.Spec.var Cert.Spec.c1024
  refine congrArg (fun s => Ideal.div s _) (Finset.sum_congr rfl fun k _ => ?_)
  have e : idx_main_v7 (idx_main_v8 (ix3 a b (0 : Fin 1))) k = ix3 a b k := by
    funext d; refine Fin.ext ?_; match d with | ⟨0, _⟩ => rfl | ⟨1, _⟩ => rfl | ⟨2, _⟩ => rfl
  rw [e, val_main_v6_apply, v5_at]
  rfl

/-- The reciprocal square root of the variance plus the small constant. -/
theorem v15_at (x0 : T3) (a : Fin 8) (b : Fin 2048) :
    val_main_v15 (F := Ideal) x0 (ix3 a b (0 : Fin 1))
      = Ideal.rsqrt (Cert.Spec.var (Cert.Spec.cur3 x0) a b + Cert.Spec.ceps) := by
  rw [val_main_v15_apply, val_main_v14_apply, val_main_v13_apply, val_main_cst_3_apply, v10_at]
  rfl

/-- The centred rows scaled by it. -/
theorem v17_at (x0 : T3) (a : Fin 8) (b : Fin 2048) (c : Fin 1024) :
    val_main_v17 (F := Ideal) x0 (ix3 a b c)
      = Cert.Spec.cen (Cert.Spec.cur3 x0) a b c * Ideal.rsqrt (Cert.Spec.var (Cert.Spec.cur3 x0) a b + Cert.Spec.ceps) := by
  have e : idx_main_v16 (ix3 a b c) = ix3 a b (0 : Fin 1) := by
    funext d; refine Fin.ext ?_; match d with | ⟨0, _⟩ => rfl | ⟨1, _⟩ => rfl | ⟨2, _⟩ => rfl
  rw [val_main_v17_apply, v12_at, val_main_v16_apply, e, v15_at]
  rfl

/-- Gamma laid out along every row. -/
theorem v19_at (x7 : T1) (a : Fin 8) (b : Fin 2048) (c : Fin 1024) :
    val_main_v19 (F := Ideal) x7 (ix3 a b c) = Cert.Spec.cur1 x7 c := by
  have e : idx_main_v18 (idx_main_v19 (ix3 a b c)) = ix1 c := by
    funext d; refine Fin.ext ?_; match d with | ⟨0, _⟩ => rfl
  rw [val_main_v19_apply, val_main_v18_apply, e]
  rfl

/-- Beta laid out along every row. -/
theorem v22_at (x8 : T1) (a : Fin 8) (b : Fin 2048) (c : Fin 1024) :
    val_main_v22 (F := Ideal) x8 (ix3 a b c) = Cert.Spec.cur1 x8 c := by
  have e : idx_main_v21 (idx_main_v22 (ix3 a b c)) = ix1 c := by
    funext d; refine Fin.ext ?_; match d with | ⟨0, _⟩ => rfl
  rw [val_main_v22_apply, val_main_v21_apply, e]
  rfl

/-- The normalised rows, entry by entry. -/
theorem v23_at (x0 : T3) (x7 x8 : T1) (a : Fin 8) (b : Fin 2048) (c : Fin 1024) :
    val_main_v23 (F := Ideal) x0 x7 x8 (ix3 a b c)
      = Cert.Spec.lnorm (Cert.Spec.cur3 x0) (Cert.Spec.cur1 x7) (Cert.Spec.cur1 x8) a b c := by
  rw [val_main_v23_apply, val_main_v20_apply, v17_at, v19_at, v22_at]
  rfl

/-- The layer-norm stage is the normalised rows. -/
theorem ref_lnorm (x0 : T3) (x7 x8 : T1) :
    val_main_v23 (F := Ideal) x0 x7 x8
      = Cert.Spec.arr3 (Cert.Spec.lnorm (Cert.Spec.cur3 x0) (Cert.Spec.cur1 x7) (Cert.Spec.cur1 x8)) :=
  Cert.Spec.eq_arr3 _ _ (v23_at x0 x7 x8)

end Cert.ReferenceIdeal.RefValue

end
-- ==== Proof.RefProj.lean ====
/-
  The three affine maps of the attention reference (queries, keys, values), read entry by entry at the extended
  reals: entry (a, b, e) is the sum over d of the normalised row's entry (a, b, d) times the matrix's entry (e, d),
  plus the bias's entry e.
-/
import proofs.«143292_j35038343201280_2_alg».proof.Proof.RefNorm

open scoped BigOperators

noncomputable section

namespace Cert.ReferenceIdeal.RefValue

open Cert.ReferenceIdeal Cert.ReferenceIdeal.Gen Cert.ReferenceIdeal.Read Idealize.ShloMosaic Idealize.ShloMosaic.ValueIdx

/-- The queries: each normalised row against the rows of the first matrix, plus the first bias. -/
theorem v27_at (x0 : T3) (x1 : T2) (x2 x7 x8 : T1) (a : Fin 8) (b : Fin 2048) (e : Fin 1024) :
    val_main_v27 (F := Ideal) x0 x1 x2 x7 x8 (ix3 a b e)
      = Cert.Spec.proj (Cert.Spec.lnorm (Cert.Spec.cur3 x0) (Cert.Spec.cur1 x7) (Cert.Spec.cur1 x8))
          (Cert.Spec.cur2 x1) (Cert.Spec.cur1 x2) a b e := by
  have eb : idx_main_v25 (idx_main_v26 (ix3 a b e)) = ix1 e := by
    funext d; refine Fin.ext ?_; match d with | ⟨0, _⟩ => rfl
  rw [val_main_v27_apply, val_main_v24_apply, val_main_v26_apply, val_main_v25_apply, eb]
  simp only [Ideal.addf_def]
  unfold Cert.Spec.proj
  refine congrArg (· + _) (Finset.sum_congr rfl fun k _ => ?_)
  have el : lidx_main_v24 (ix3 a b e) k = ix3 a b k := by
    funext d; refine Fin.ext ?_; match d with | ⟨0, _⟩ => rfl | ⟨1, _⟩ => rfl | ⟨2, _⟩ => rfl
  have er : ridx_main_v24 (ix3 a b e) k = ix2 e k := by
    funext d; refine Fin.ext ?_; match d with | ⟨0, _⟩ => rfl | ⟨1, _⟩ => rfl
  rw [el, er, v23_at]
  rfl

/-- The keys: the same with the second matrix and bias. -/
theorem v31_at (x0 : T3) (x3 : T2) (x4 x7 x8 : T1) (a : Fin 8) (b : Fin 2048) (e : Fin 1024) :
    val_main_v31 (F := Ideal) x0 x3 x4 x7 x8 (ix3 a b e)
      = Cert.Spec.proj (Cert.Spec.lnorm (Cert.Spec.cur3 x0) (Cert.Spec.cur1 x7) (Cert.Spec.cur1 x8))
          (Cert.Spec.cur2 x3) (Cert.Spec.cur1 x4) a b e := by
  have eb : idx_main_v29 (idx_main_v30 (ix3 a b e)) = ix1 e := by
    funext d; refine Fin.ext ?_; match d with | ⟨0, _⟩ => rfl
  rw [val_main_v31_apply, val_main_v28_apply, val_main_v30_apply, val_main_v29_apply, eb]
  simp only [Ideal.addf_def]
  unfold Cert.Spec.proj
  refine congrArg (· + _) (Finset.sum_congr rfl fun k _ => ?_)
  have el : lidx_main_v28 (ix3 a b e) k = ix3 a b k := by
    funext d; refine Fin.ext ?_; match d with | ⟨0, _⟩ => rfl | ⟨1, _⟩ => rfl | ⟨2, _⟩ => rfl
  have er : ridx_main_v28 (ix3 a b e) k = ix2 e k := by
    funext d; refine Fin.ext ?_; match d with | ⟨0, _⟩ => rfl | ⟨1, _⟩ => rfl
  rw [el, er, v23_at]
  rfl

/-- The values: the same with the third matrix and bias. -/
theorem v35_at (x0 : T3) (x5 : T2) (x6 x7 x8 : T1) (a : Fin 8) (b : Fin 2048) (e : Fin 1024) :
    val_main_v35 (F := Ideal) x0 x5 x6 x7 x8 (ix3 a b e)
      = Cert.Spec.proj (Cert.Spec.lnorm (Cert.Spec.cur3 x0) (Cert.Spec.cur1 x7) (Cert.Spec.cur1 x8))
          (Cert.Spec.cur2 x5) (Cert.Spec.cur1 x6) a b e := by
  have eb : idx_main_v33 (idx_main_v34 (ix3 a b e)) = ix1 e := by
    funext d; refine Fin.ext ?_; match d with | ⟨0, _⟩ => rfl
  rw [val_main_v35_apply, val_main_v32_apply, val_main_v34_apply, val_main_v33_apply, eb]
  simp only [Ideal.addf_def]
  unfold Cert.Spec.proj
  refine congrArg (· + _) (Finset.sum_congr rfl fun k _ => ?_)
  have el : lidx_main_v32 (ix3 a b e) k = ix3 a b k := by
    funext d; refine Fin.ext ?_; match d with | ⟨0, _⟩ => rfl | ⟨1, _⟩ => rfl | ⟨2, _⟩ => rfl
  have er : ridx_main_v32 (ix3 a b e) k = ix2 e k := by
    funext d; refine Fin.ext ?_; match d with | ⟨0, _⟩ => rfl | ⟨1, _⟩ => rfl
  rw [el, er, v23_at]
  rfl

end Cert.ReferenceIdeal.RefValue

end
-- ==== Proof.RefSide.lean ====
/-
  The scores, the weights and the result of the attention reference, read entry by entry at the extended reals.

  The score of query row i against key row j of batch a is their inner product divided by the square root of 1024.
  A row's greatest score is the fold of the maximum over the row starting from minus infinity, and a further maximum
  with minus infinity changes nothing, minus infinity being the least extended real.  Each weight is the exponential
  of a score less its row's greatest, divided by the row's sum of such exponentials (the sum starts from the word of
  zero, which is 0).  The result row is the input row plus the value rows mixed by the weights.  The last two theorems
  state this of the two arrays the reference's run leaves in memory, as functions of the nine argument arrays.
-/
import proofs.«143292_j35038343201280_2_alg».proof.Proof.RefProj
import proofs.«143292_j35038343201280_2_alg».proof.Proof.LibRows

open scoped BigOperators

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The normalised rows, the queries and the keys, as functions of the argument arrays. -/
abbrev xnOf (x0 : T3) (x7 x8 : T1) : Cert.Spec.Rows :=
  Cert.Spec.lnorm (Cert.Spec.cur3 x0) (Cert.Spec.cur1 x7) (Cert.Spec.cur1 x8)
abbrev qOf (x0 : T3) (x1 : T2) (x2 x7 x8 : T1) : Cert.Spec.Rows :=
  Cert.Spec.proj (xnOf x0 x7 x8) (Cert.Spec.cur2 x1) (Cert.Spec.cur1 x2)
/-- The scaled scores, as a function of the argument arrays. -/
abbrev scOf (x0 : T3) (x1 : T2) (x2 : T1) (x3 : T2) (x4 x7 x8 : T1) : Cert.Spec.Sq :=
  Cert.Spec.scoresR (qOf x0 x1 x2 x7 x8) (qOf x0 x3 x4 x7 x8)

/-- The word of minus infinity is the least extended real. -/
theorem ofBits_neg_inf : Ideal.ofBits .f32 0xFF800000#32 = (⊥ : EReal) := by
  simp [Ideal.ofBits, Ideal.ieee]

/-- The scores: inner products of query rows with key rows, divided by the square root of 1024. -/
theorem v39_at (x0 : T3) (x1 : T2) (x2 : T1) (x3 : T2) (x4 x7 x8 : T1) (a : Fin 8) (i j : Fin 2048) :
    val_main_v39 (F := Ideal) x0 x1 x2 x3 x4 x7 x8 (ix3 a i j) = scOf x0 x1 x2 x3 x4 x7 x8 a i j := by
  rw [val_main_v39_apply, val_main_v38_apply, val_main_v36_apply, val_main_cst_4_apply, val_main_v37_apply]
  simp only [Ideal.hostDivf_def, Ideal.hostUnary_sqrt_def, Ideal.ofBits_def]
  unfold scOf Cert.Spec.scoresR Cert.Spec.dots Cert.Spec.c1024
  refine congrArg (fun s => Ideal.div s _) (Finset.sum_congr rfl fun k _ => ?_)
  have el : lidx_main_v37 (ix3 a i j) k = ix3 a i k := by
    funext d; refine Fin.ext ?_; match d with | ⟨0, _⟩ => rfl | ⟨1, _⟩ => rfl | ⟨2, _⟩ => rfl
  have er : ridx_main_v37 (ix3 a i j) k = ix3 a j k := by
    funext d; refine Fin.ext ?_; match d with | ⟨0, _⟩ => rfl | ⟨1, _⟩ => rfl | ⟨2, _⟩ => rfl
  rw [el, er, v27_at, v31_at]

/-- A row's greatest score: the fold of the maximum from minus infinity, then the maximum with minus infinity. -/
theorem v42_at (x0 : T3) (x1 : T2) (x2 : T1) (x3 : T2) (x4 x7 x8 : T1) (a : Fin 8) (i : Fin 2048) :
    val_main_v42 (F := Ideal) x0 x1 x2 x3 x4 x7 x8 (ix2 a i) = Cert.Spec.rowmax (scOf x0 x1 x2 x3 x4 x7 x8) a i := by
  rw [val_main_v42_apply, val_main_v41_apply, val_main_cst_6_apply]
  unfold val_main_v40
  rw [hostLastMax_apply (val_main_v39 (F := Ideal) x0 x1 x2 x3 x4 x7 x8) (val_main_cst_5 (F := Ideal))
    reducesTo_S8x2048x2048_S8x2048_d2 (by decide) h_S_ a i, val_main_cst_5_apply]
  simp only [Ideal.maximumf_def, Ideal.ofBits_def, ofBits_neg_inf, v39_at]
  unfold Cert.Spec.rowmax
  exact max_eq_right bot_le

/-- The exponential of a score less its row's greatest. -/
theorem v46_at (x0 : T3) (x1 : T2) (x2 : T1) (x3 : T2) (x4 x7 x8 : T1) (a : Fin 8) (i j : Fin 2048) :
    val_main_v46 (F := Ideal) x0 x1 x2 x3 x4 x7 x8 (ix3 a i j)
      = Ideal.exp (scOf x0 x1 x2 x3 x4 x7 x8 a i j - Cert.Spec.rowmax (scOf x0 x1 x2 x3 x4 x7 x8) a i) := by
  have e : idx_main_v43 (idx_main_v44 (ix3 a i j)) = ix2 a i := by
    funext d; refine Fin.ext ?_; match d with | ⟨0, _⟩ => rfl | ⟨1, _⟩ => rfl
  rw [val_main_v46_apply, val_main_v45_apply, val_main_v44_apply, val_main_v43_apply, e, v39_at, v42_at]
  rfl

/-- The weights, entry by entry: each exponential divided by its row's sum of exponentials. -/
theorem v50_at (x0 : T3) (x1 : T2) (x2 : T1) (x3 : T2) (x4 x7 x8 : T1) (a : Fin 8) (i j : Fin 2048) :
    val_main_v50 (F := Ideal) x0 x1 x2 x3 x4 x7 x8 (ix3 a i j) = Cert.Spec.softmax (scOf x0 x1 x2 x3 x4 x7 x8) a i j := by
  have e : idx_main_v48 (idx_main_v49 (ix3 a i j)) = ix2 a i := by
    funext d; refine Fin.ext ?_; match d with | ⟨0, _⟩ => rfl | ⟨1, _⟩ => rfl
  rw [val_main_v50_apply, val_main_v49_apply, val_main_v48_apply, e, val_main_v47_apply, val_main_cst_7_apply, v46_at]
  simp only [Ideal.hostDivf_def, Ideal.ofBits_def, Ideal.ofBits_zero_f32, zero_add]
  unfold Cert.Spec.softmax
  refine congrArg (Ideal.div _) (Finset.sum_congr rfl fun k _ => ?_)
  have ek : idx_main_v47 (ix2 a i) k = ix3 a i k := by
    funext d; refine Fin.ext ?_; match d with | ⟨0, _⟩ => rfl | ⟨1, _⟩ => rfl | ⟨2, _⟩ => rfl
  rw [ek, v46_at]

/-- The reference's weights are the specification's, as arrays over the argument arrays. -/
theorem ref_attn' (x0 : T3) (x1 : T2) (x2 : T1) (x3 : T2) (x4 x7 x8 : T1) :
    val_main_v50 (F := Ideal) x0 x1 x2 x3 x4 x7 x8
      = Cert.Spec.arr3 (Cert.Spec.attnR (Cert.Spec.cur3 x0) (Cert.Spec.cur2 x1) (Cert.Spec.cur1 x2) (Cert.Spec.cur2 x3)
          (Cert.Spec.cur1 x4) (Cert.Spec.cur1 x7) (Cert.Spec.cur1 x8)) :=
  Cert.Spec.eq_arr3 _ _ (v50_at x0 x1 x2 x3 x4 x7 x8)

/-- The result rows, entry by entry: the input plus the value rows mixed by the weights. -/
theorem v52_at (x0 : T3) (x1 : T2) (x2 : T1) (x3 : T2) (x4 : T1) (x5 : T2) (x6 x7 x8 : T1)
    (a : Fin 8) (i : Fin 2048) (d : Fin 1024) :
    val_main_v52 (F := Ideal) x0 x1 x2 x3 x4 x5 x6 x7 x8 (ix3 a i d)
      = Cert.Spec.outR (Cert.Spec.cur3 x0) (Cert.Spec.cur2 x1) (Cert.Spec.cur1 x2) (Cert.Spec.cur2 x3) (Cert.Spec.cur1 x4)
          (Cert.Spec.cur2 x5) (Cert.Spec.cur1 x6) (Cert.Spec.cur1 x7) (Cert.Spec.cur1 x8) a i d := by
  rw [val_main_v52_apply, val_main_v51_apply]
  simp only [Ideal.addf_def]
  unfold Cert.Spec.outR Cert.Spec.mix
  refine congrArg (_ + ·) (Finset.sum_congr rfl fun k _ => ?_)
  have el : lidx_main_v51 (ix3 a i d) k = ix3 a i k := by
    funext d'; refine Fin.ext ?_; match d' with | ⟨0, _⟩ => rfl | ⟨1, _⟩ => rfl | ⟨2, _⟩ => rfl
  have er : ridx_main_v51 (ix3 a i d) k = ix3 a k d := by
    funext d'; refine Fin.ext ?_; match d' with | ⟨0, _⟩ => rfl | ⟨1, _⟩ => rfl | ⟨2, _⟩ => rfl
  rw [el, er, v50_at, v35_at]
  rfl

/-- The reference's result rows are the specification's, as arrays over the argument arrays. -/
theorem ref_out' (x0 : T3) (x1 : T2) (x2 : T1) (x3 : T2) (x4 : T1) (x5 : T2) (x6 x7 x8 : T1) :
    val_main_v52 (F := Ideal) x0 x1 x2 x3 x4 x5 x6 x7 x8
      = Cert.Spec.arr3 (Cert.Spec.outR (Cert.Spec.cur3 x0) (Cert.Spec.cur2 x1) (Cert.Spec.cur1 x2) (Cert.Spec.cur2 x3)
          (Cert.Spec.cur1 x4) (Cert.Spec.cur2 x5) (Cert.Spec.cur1 x6) (Cert.Spec.cur1 x7) (Cert.Spec.cur1 x8)) :=
  Cert.Spec.eq_arr3 _ _ (v52_at x0 x1 x2 x3 x4 x5 x6 x7 x8)

/-- The reference's second result, in the memory the run leaves, is the specification's weights of the arguments. -/
theorem ref_attn (m : (ℓ : Loc nD τ sig) → Buf (Elt Ideal) ℓ) (c : Dev nD) :
    Cert.ReferenceIdeal.Value.res_main_v50 (F := Ideal) m c
      = Cert.Spec.arr3 (Cert.Spec.attnR (Cert.Spec.cur3 (m ((c.tc : Thread nD τ).loc main_arg0))) (Cert.Spec.cur2 (m ((c.tc : Thread nD τ).loc main_arg1)))
          (Cert.Spec.cur1 (m ((c.tc : Thread nD τ).loc main_arg2))) (Cert.Spec.cur2 (m ((c.tc : Thread nD τ).loc main_arg3)))
          (Cert.Spec.cur1 (m ((c.tc : Thread nD τ).loc main_arg4))) (Cert.Spec.cur1 (m ((c.tc : Thread nD τ).loc main_arg7)))
          (Cert.Spec.cur1 (m ((c.tc : Thread nD τ).loc main_arg8)))) :=
  (val_main_v50_eq (F := Ideal) m c).trans (ref_attn' _ _ _ _ _ _ _)

/-- The reference's first result, in the memory the run leaves, is the specification's result rows of the arguments. -/
theorem ref_out (m : (ℓ : Loc nD τ sig) → Buf (Elt Ideal) ℓ) (c : Dev nD) :
    Cert.ReferenceIdeal.Value.res_main_v52 (F := Ideal) m c
      = Cert.Spec.arr3 (Cert.Spec.outR (Cert.Spec.cur3 (m ((c.tc : Thread nD τ).loc main_arg0))) (Cert.Spec.cur2 (m ((c.tc : Thread nD τ).loc main_arg1)))
          (Cert.Spec.cur1 (m ((c.tc : Thread nD τ).loc main_arg2))) (Cert.Spec.cur2 (m ((c.tc : Thread nD τ).loc main_arg3)))
          (Cert.Spec.cur1 (m ((c.tc : Thread nD τ).loc main_arg4))) (Cert.Spec.cur2 (m ((c.tc : Thread nD τ).loc main_arg5)))
          (Cert.Spec.cur1 (m ((c.tc : Thread nD τ).loc main_arg6))) (Cert.Spec.cur1 (m ((c.tc : Thread nD τ).loc main_arg7)))
          (Cert.Spec.cur1 (m ((c.tc : Thread nD τ).loc main_arg8)))) :=
  (val_main_v52_eq (F := Ideal) m c).trans (ref_out' _ _ _ _ _ _ _ _ _)

end Cert.ReferenceIdeal.RefValue

end
-- ==== Proof.lean ====
/-
  Pre-layer-norm single-head self-attention: the two-kernel program against the plain reference, at the exact
  (extended-real) reading.

  The kernel program lays the three weight matrices, transposed, side by side and the three biases end to end; its
  first kernel normalises blocks of 256 rows and forms queries, keys and values with one matrix product per block;
  its second forms, per block of 256 query rows, the scores against all keys of the batch, their softmax, and the
  weighted values plus the input rows.  The reference computes the same quantities on whole arrays.  The two agree at
  every extended real: the joined product is the three products entry by entry; a product with 2^-5 is the quotient
  by the square root of 1024; the greatest entry of a row taken from the bottom element needs no second maximum with
  the bottom element; and the last sum commutes.  No finiteness of the inputs is used.

  The three frame claims come from each program's run; the idealisation rewrote nothing, so the fourth claim is
  trivial; the fifth pairs the kernel program's run, whose results are named as the specification's functions of the
  arguments, with the reference's run read back as the same functions.
-/
import proofs.«143292_j35038343201280_2_alg».proof.Defs
import proofs.«143292_j35038343201280_2_alg».proof.Proof.Gen.Kernel
import proofs.«143292_j35038343201280_2_alg».proof.Proof.Gen.KernelIdeal
import proofs.«143292_j35038343201280_2_alg».proof.Proof.Gen.ReferenceIdeal
import proofs.«143292_j35038343201280_2_alg».proof.Proof.Gen.Pre_finite_inputs
import proofs.«143292_j35038343201280_2_alg».proof.Proof.Gen.ReferenceIdeal.Read
import proofs.«143292_j35038343201280_2_alg».proof.Proof.K.Run
import proofs.«143292_j35038343201280_2_alg».proof.Proof.KI.Run
import proofs.«143292_j35038343201280_2_alg».proof.Proof.Bridge
import proofs.«143292_j35038343201280_2_alg».proof.Proof.RefSide
import proofs.«143292_j35038343201280_2_alg».proof.Proof.Spec
import Idealize.ShloMosaic.Adequacy
import Idealize.ShloMosaic.Init

noncomputable section

namespace Cert.Proof

open Idealize.ShloMosaic Idealize.ShloMosaic.TcCoe Idealize.SL.Sem Cert.Spec

theorem frame_k : Cert.frame_Kernel := fun m ρ _ => Cert.Kernel.Fr.frame m ρ

theorem frame_ki : Cert.frame_KernelIdeal := fun m ρ _ => Cert.KernelIdeal.Fr.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealisation rewrote no operation. -/
theorem preserves : Cert.preserves_Kernel_KernelIdeal := trivial

/-- Both programs end at the specification's weights and result rows of arguments that agree. -/
theorem algebraic : Cert.algebraic_KernelIdeal_ReferenceIdeal := by
  intro m ρ m' ρ' _ hagree
  refine ⟨_, _, Cert.KernelIdeal.Val.run_values m ρ, ?_⟩
  refine (θ_run Cert.ReferenceIdeal.defs _ _).mono (fun _ h c => ?_) (Cert.ReferenceIdeal.Value.run (F := Ideal) m' ρ')
  obtain ⟨h52, h50, hargs⟩ := h c
  obtain ⟨a0, a1, a2, a3, a4, a5, a6, a7, a8⟩ := hagree c
  refine ⟨?_, ?_, hargs⟩
  · rw [h52, Cert.ReferenceIdeal.RefValue.ref_out, outR_eq, a0, a1, a2, a3, a4, a5, a6, a7, a8]
  · rw [h50, Cert.ReferenceIdeal.RefValue.ref_attn, attnR_eq, a0, a1, a2, a3, a4, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
